-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192x8192 : Shape := ⟨2, ![8192, 8192]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192x64 .f32) (main_arg1 : FVec F S8192x64 .f32) (main_arg2 : FVec F S8192x8192 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  main_v13
-- ==== Kernel.lean ====
abbrev S8192x64 : Shape := ⟨2, ![8192, 64]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1024x64 : Shape := ⟨2, ![1024, 64]⟩
abbrev S1024x1024 : Shape := ⟨2, ![1024, 1024]⟩
abbrev S1024x1 : Shape := ⟨2, ![1024, 1]⟩
abbrev S1024x8 : Shape := ⟨2, ![1024, 8]⟩
abbrev S1024 : Shape := ⟨1, ![1024]⟩

abbrev nBuf : Space → Nat
  | .hbm => 29
  | .vmem => 13
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x8192, .f32⟩
  | .hbm, ⟨3, _⟩ => ⟨S8192x64, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x64, .f32⟩
  | .hbm, ⟨12, _⟩ => ⟨S8192x64, .f32⟩
  | .hbm, ⟨13, _⟩ => ⟨S8192x64, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x64, .f32⟩
  | .hbm, ⟨22, _⟩ => ⟨S8192x64, .f32⟩
  | .hbm, ⟨23, _⟩ => ⟨S8192x1, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S1024x1024, .f32⟩
  | .local _ .vmem, ⟨9, _⟩ => ⟨S1024x1024, .f32⟩
  | .local _ .vmem, ⟨10, _⟩ => ⟨S1024x1, .f32⟩
  | .local _ .vmem, ⟨11, _⟩ => ⟨S1024x1, .f32⟩
  | .local _ .vmem, ⟨12, _⟩ => ⟨S1024x8, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v54 : BitVec 1 := Scalar.cmpi .eq arg1 c7_i32
  let v55 : BitVec 32 := Scalar.extui v54
  let c0_i32_29 : BitVec 32 := 0#32
  let v56 : BitVec 1 := Scalar.cmpi .ne v55 c0_i32_29
  v56

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  concatenates_S1024x1_S1024x1_S1024x1_S1024x1_S1024x1_S1024x1_S1024x1_S1024x1_S1024x8_d1 : Shape.Concatenates [S1024x1, S1024x1, S1024x1, S1024x1, S1024x1, S1024x1, S1024x1, S1024x1] S1024x8 1
  inb_S1024x8_S1024x1_0_0 : ∀ a, (![0, 0] : Fin 2 → Nat) a + S1024x1.size a ≤ S1024x8.size a
  h_S1024x1 : 0 < S1024x1.numel
  inb_S1024x8_S1024x1_0_1 : ∀ a, (![0, 1] : Fin 2 → Nat) a + S1024x1.size a ≤ S1024x8.size a
  inb_S1024x8_S1024x1_0_2 : ∀ a, (![0, 2] : Fin 2 → Nat) a + S1024x1.size a ≤ S1024x8.size a
  inb_S1024x8_S1024x1_0_3 : ∀ a, (![0, 3] : Fin 2 → Nat) a + S1024x1.size a ≤ S1024x8.size a
  inb_S1024x8_S1024x1_0_4 : ∀ a, (![0, 4] : Fin 2 → Nat) a + S1024x1.size a ≤ S1024x8.size a
  inb_S1024x8_S1024x1_0_5 : ∀ a, (![0, 5] : Fin 2 → Nat) a + S1024x1.size a ≤ S1024x8.size a
  inb_S1024x8_S1024x1_0_6 : ∀ a, (![0, 6] : Fin 2 → Nat) a + S1024x1.size a ≤ S1024x8.size a
  inb_S1024x8_S1024x1_0_7 : ∀ a, (![0, 7] : Fin 2 → Nat) a + S1024x1.size a ≤ S1024x8.size a
  inb_S1024x1_S1024x1_0_0 : ∀ a, (![0, 0] : Fin 2 → Nat) a + S1024x1.size a ≤ S1024x1.size a
  reducesTo_S8192x1_S_d0_1 : S8192x1.ReducesTo [0, 1] S_
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S8192x64.size a
  hwx0_2 : ∀ i : grid0.Coords, EltTy.bits .f32 = 32 ∨ (Rect.block (s := S8192x64) S1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S8192x64.size a
  hwx0_3 : ∀ i : grid0.Coords, EltTy.bits .f32 = 32 ∨ (Rect.block (s := S8192x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_v7) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1024x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1024x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x64 : Shape := ⟨2, ![8192, 64]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S64x8192 : Shape := ⟨2, ![64, 8192]⟩

abbrev nBuf : Space → Nat
  | .hbm => 153
  | .vmem => 0
  | .smem => 0
  | _ => 0

abbrev hbmTy0_0 (i : Nat) : BufTy := match i % 128 with
  | 0 => ⟨S8192x64, .f32⟩
  | 1 => ⟨S8192x64, .f32⟩
  | 2 => ⟨S8192x8192, .f32⟩
  | 3 => ⟨S8192x64, .f32⟩
  | 4 => ⟨S_, .f32⟩
  | 5 => ⟨S8192, .f32⟩
  | 6 => ⟨S8192x1, .f32⟩
  | 7 => ⟨S8192x1, .f32⟩
  | 8 => ⟨S_, .f32⟩
  | 9 => ⟨S8192x1, .f32⟩
  | 10 => ⟨S8192x1, .f32⟩
  | 11 => ⟨S8192x64, .f32⟩
  | 12 => ⟨S8192x64, .f32⟩
  | 13 => ⟨S8192x64, .f32⟩
  | 14 => ⟨S_, .f32⟩
  | 15 => ⟨S8192, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x64, .f32⟩
  | 22 => ⟨S8192x64, .f32⟩
  | 23 => ⟨S64x8192, .f32⟩
  | 24 => ⟨S8192x8192, .f32⟩
  | 25 => ⟨S_, .f32⟩
  | 26 => ⟨S8192x8192, .f32⟩
  | 27 => ⟨S8192x8192, .f32⟩
  | 28 => ⟨S8192x8192, .f32⟩
  | 29 => ⟨S8192x8192, .f32⟩
  | 30 => ⟨S8192x64, .f32⟩
  | 31 => ⟨S_, .f32⟩
  | 32 => ⟨S8192, .f32⟩
  | 33 => ⟨S8192x1, .f32⟩
  | 34 => ⟨S8192x1, .f32⟩
  | 35 => ⟨S_, .f32⟩
  | 36 => ⟨S8192x1, .f32⟩
  | 37 => ⟨S8192x1, .f32⟩
  | 38 => ⟨S8192x64, .f32⟩
  | 39 => ⟨S8192x64, .f32⟩
  | 40 => ⟨S8192x64, .f32⟩
  | 41 => ⟨S_, .f32⟩
  | 42 => ⟨S8192, .f32⟩
  | 43 => ⟨S8192x1, .f32⟩
  | 44 => ⟨S8192x1, .f32⟩
  | 45 => ⟨S_, .f32⟩
  | 46 => ⟨S8192x1, .f32⟩
  | 47 => ⟨S8192x1, .f32⟩
  | 48 => ⟨S8192x64, .f32⟩
  | 49 => ⟨S8192x64, .f32⟩
  | 50 => ⟨S64x8192, .f32⟩
  | 51 => ⟨S8192x8192, .f32⟩
  | 52 => ⟨S_, .f32⟩
  | 53 => ⟨S8192x8192, .f32⟩
  | 54 => ⟨S8192x8192, .f32⟩
  | 55 => ⟨S8192x8192, .f32⟩
  | 56 => ⟨S8192x64, .f32⟩
  | 57 => ⟨S_, .f32⟩
  | 58 => ⟨S8192, .f32⟩
  | 59 => ⟨S8192x1, .f32⟩
  | 60 => ⟨S8192x1, .f32⟩
  | 61 => ⟨S_, .f32⟩
  | 62 => ⟨S8192x1, .f32⟩
  | 63 => ⟨S8192x1, .f32⟩
  | 64 => ⟨S8192x64, .f32⟩
  | 65 => ⟨S8192x64, .f32⟩
  | 66 => ⟨S8192x64, .f32⟩
  | 67 => ⟨S_, .f32⟩
  | 68 => ⟨S8192, .f32⟩
  | 69 => ⟨S8192x1, .f32⟩
  | 70 => ⟨S8192x1, .f32⟩
  | 71 => ⟨S_, .f32⟩
  | 72 => ⟨S8192x1, .f32⟩
  | 73 => ⟨S8192x1, .f32⟩
  | 74 => ⟨S8192x64, .f32⟩
  | 75 => ⟨S8192x64, .f32⟩
  | 76 => ⟨S64x8192, .f32⟩
  | 77 => ⟨S8192x8192, .f32⟩
  | 78 => ⟨S_, .f32⟩
  | 79 => ⟨S8192x8192, .f32⟩
  | 80 => ⟨S8192x8192, .f32⟩
  | 81 => ⟨S8192x8192, .f32⟩
  | 82 => ⟨S_, .f32⟩
  | 83 => ⟨S8192, .f32⟩
  | 84 => ⟨S8192x1, .f32⟩
  | 85 => ⟨S_, .f32⟩
  | 86 => ⟨S8192x1, .f32⟩
  | 87 => ⟨S8192x1, .f32⟩
  | 88 => ⟨S8192x8192, .f32⟩
  | 89 => ⟨S8192x8192, .f32⟩
  | 90 => ⟨S8192x8192, .f32⟩
  | 91 => ⟨S_, .f32⟩
  | 92 => ⟨S8192, .f32⟩
  | 93 => ⟨S8192, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S8192, .f32⟩
  | 101 => ⟨S8192x1, .f32⟩
  | 102 => ⟨S_, .f32⟩
  | 103 => ⟨S8192x1, .f32⟩
  | 104 => ⟨S8192x1, .f32⟩
  | 105 => ⟨S8192x8192, .f32⟩
  | 106 => ⟨S8192x8192, .f32⟩
  | 107 => ⟨S8192x8192, .f32⟩
  | 108 => ⟨S_, .f32⟩
  | 109 => ⟨S8192, .f32⟩
  | 110 => ⟨S8192, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S8192, .f32⟩
  | 119 => ⟨S8192x1, .f32⟩
  | 120 => ⟨S_, .f32⟩
  | 121 => ⟨S8192x1, .f32⟩
  | 122 => ⟨S8192x1, .f32⟩
  | 123 => ⟨S8192x8192, .f32⟩
  | 124 => ⟨S8192x8192, .f32⟩
  | 125 => ⟨S8192x8192, .f32⟩
  | 126 => ⟨S_, .f32⟩
  | 127 => ⟨S8192, .f32⟩
  | _ => ⟨S8192x64, .f32⟩

abbrev hbmTy0_1 (i : Nat) : BufTy := match i % 128 with
  | 0 => ⟨S8192, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S8192x8192, .f32⟩
  | 14 => ⟨S8192x8192, .f32⟩
  | 15 => ⟨S8192x8192, .f32⟩
  | 16 => ⟨S_, .f32⟩
  | 17 => ⟨S8192, .f32⟩
  | 18 => ⟨S8192, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | _ => ⟨S8192x64, .f32⟩

abbrev hbmTy (i : Nat) : BufTy := match i / 128 with
  | 0 => hbmTy0_0 i
  | 1 => hbmTy0_1 i
  | _ => ⟨S8192x64, .f32⟩

abbrev bufTy : (tb : Table) → Fin (tcTables nBuf tb) → BufTy
  | .hbm, ⟨i, _⟩ => hbmTy i
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_7 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_8 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_9 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_10 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_11 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_12 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_13 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_14 : Ref sig .tc := ⟨.hbm, 82, rfl⟩
abbrev main_v64 : Ref sig .tc := ⟨.hbm, 83, rfl⟩
abbrev main_v65 : Ref sig .tc := ⟨.hbm, 84, rfl⟩
abbrev main_cst_15 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_16 : Ref sig .tc := ⟨.hbm, 91, rfl⟩
abbrev main_v71 : Ref sig .tc := ⟨.hbm, 92, rfl⟩
abbrev main_v72 : Ref sig .tc := ⟨.hbm, 93, rfl⟩
abbrev main_cst_17 : Ref sig .tc := ⟨.hbm, 94, rfl⟩
abbrev main_v73 : Ref sig .tc := ⟨.hbm, 95, rfl⟩
abbrev main_cst_18 : Ref sig .tc := ⟨.hbm, 96, rfl⟩
abbrev main_v74 : Ref sig .tc := ⟨.hbm, 97, rfl⟩
abbrev main_v75 : Ref sig .tc := ⟨.hbm, 98, rfl⟩
abbrev main_cst_19 : Ref sig .tc := ⟨.hbm, 99, rfl⟩
abbrev main_v76 : Ref sig .tc := ⟨.hbm, 100, rfl⟩
abbrev main_v77 : Ref sig .tc := ⟨.hbm, 101, rfl⟩
abbrev main_cst_20 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_21 : Ref sig .tc := ⟨.hbm, 108, rfl⟩
abbrev main_v83 : Ref sig .tc := ⟨.hbm, 109, rfl⟩
abbrev main_v84 : Ref sig .tc := ⟨.hbm, 110, rfl⟩
abbrev main_cst_22 : Ref sig .tc := ⟨.hbm, 111, rfl⟩
abbrev main_v85 : Ref sig .tc := ⟨.hbm, 112, rfl⟩
abbrev main_cst_23 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_24 : Ref sig .tc := ⟨.hbm, 117, rfl⟩
abbrev main_v89 : Ref sig .tc := ⟨.hbm, 118, rfl⟩
abbrev main_v90 : Ref sig .tc := ⟨.hbm, 119, rfl⟩
abbrev main_cst_25 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_26 : Ref sig .tc := ⟨.hbm, 126, rfl⟩
abbrev main_v96 : Ref sig .tc := ⟨.hbm, 127, rfl⟩
abbrev main_v97 : Ref sig .tc := ⟨.hbm, 128, rfl⟩
abbrev main_cst_27 : Ref sig .tc := ⟨.hbm, 129, rfl⟩
abbrev main_v98 : Ref sig .tc := ⟨.hbm, 130, rfl⟩
abbrev main_cst_28 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_cst_29 : Ref sig .tc := ⟨.hbm, 135, rfl⟩
abbrev main_v102 : Ref sig .tc := ⟨.hbm, 136, rfl⟩
abbrev main_v103 : Ref sig .tc := ⟨.hbm, 137, rfl⟩
abbrev main_cst_30 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_cst_31 : Ref sig .tc := ⟨.hbm, 144, rfl⟩
abbrev main_v109 : Ref sig .tc := ⟨.hbm, 145, rfl⟩
abbrev main_v110 : Ref sig .tc := ⟨.hbm, 146, rfl⟩
abbrev main_cst_32 : Ref sig .tc := ⟨.hbm, 147, rfl⟩
abbrev main_v111 : Ref sig .tc := ⟨.hbm, 148, rfl⟩
abbrev main_cst_33 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  transposes_S8192x64_S64x8192_1_0 : S8192x64.Transposes [1, 0] S64x8192
  bcast_S_S8192x8192 : S_.BroadcastsInDim S8192x8192 (![] : Fin 0 → Fin S8192x8192.rank)
  transposes_S8192x8192_S8192x8192_1_0 : S8192x8192.Transposes [1, 0] S8192x8192
  reducesTo_S8192x8192_S8192_d1 : S8192x8192.ReducesTo [1] S8192
  bcast_S8192x1_S8192x8192_0_1 : S8192x1.BroadcastsInDim S8192x8192 (![0, 1] : Fin 2 → Fin S8192x8192.rank)
  reducesTo_S8192_S_d0 : S8192.ReducesTo [0] S_
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.KBody.lean ====
/-
  What one grid point of the kernel computes, as pure functions of what the point finds.

  At grid point (i, j) the body finds row block i and row block j of each normalised input, the block (i, j) of the
  weights, and a 1024 x 8 accumulator. It adds to the accumulator, column by column, the row sums over the block's
  1024 columns of the four matrices of exponentials and of their products with the weights (`accNext`); at j = 0 the
  accumulator is first set to zero (`accZero`), and at j = 7 the output block is computed from the eight columns of the
  accumulator (`outOf`): the sum of the four logarithms of a weighted sum over a row sum plus a constant.
-/
import proofs.«118719_j43404939493422_2_alg».proof.Proof.Gen.KernelIdeal.Skeleton
import proofs.«118719_j43404939493422_2_alg».proof.Proof.Gen.KernelIdeal.Points
import proofs.«118719_j43404939493422_2_alg».proof.Proof.Gen.KernelIdeal.Launch
import Idealize.ShloMosaic.Lib.Pipeline.FrameBody

noncomputable section

namespace Cert.KernelIdeal.KB

open Cert.KernelIdeal Cert.KernelIdeal.Gen
open Idealize.ShloMosaic Idealize.ShloMosaic.TcCoe Idealize.SL.Sem

variable {F : FTy → Type} [FloatOps F]

/-- The body's first condition: the point is the first of its row of the grid (j = 0). -/
abbrev condInit (i : grid0.Coords) : Prop :=
  (Scalar.cmpi .ne (Scalar.extui (Scalar.cmpi .eq (BitVec.ofNat 32 (i 1).val) 0#32)) 0#32) = 1#1
/-- The body's second condition: the point is the last of its row of the grid (j = 7). -/
abbrev condLast (i : grid0.Coords) : Prop := k0_cond2 i = 1#1

/-- Point t of the 8 x 8 grid has j = t mod 8: the first condition holds where that is 0, -/
theorem hcondInit : ∀ t : Fin cfg0.N, condInit (grid0.coords t) ↔ t.val % 8 = 0 :=
  (by decide +kernel : ∀ t : Fin grid0.N, condInit (grid0.coords t) ↔ t.val % 8 = 0)
/-- and the second where it is 7. -/
theorem hcondLast : ∀ t : Fin cfg0.N, condLast (grid0.coords t) ↔ t.val % 8 = 7 :=
  (by decide +kernel : ∀ t : Fin grid0.N, condLast (grid0.coords t) ↔ t.val % 8 = 7)

/-- The accumulator set to zero. -/
def accZero : Vec F S1024x8 .f32 := k0_pay3 (F := F)

/-- The accumulator after a point: what it held plus the eight row sums of the point's block
    (x0, x1: row blocks i and j of the first input; x2, x3: of the second; x4: the weights' block). -/
def accNext (x0 x1 x2 x3 : Vec F S1024x64 .f32) (x4 : Vec F S1024x1024 .f32) (s : Vec F S1024x8 .f32) : Vec F S1024x8 .f32 :=
  k0_pay1 (k0_pay6 x2) (k0_pay7 x3) x4 (k0_pay9 x0 x3) (k0_pay10 x0 x3 x4) (k0_pay12 x1 x2) (k0_pay13 x1 x2 x4) (k0_pay14 x0 x1) s

/-- Column k of the accumulator, as a 1024 x 1 block. -/
def col (s : Vec F S1024x8 .f32) (k : Nat) (h : ∀ a, (![0, k] : Fin 2 → Nat) a + S1024x1.size a ≤ S1024x8.size a) : Vec F S1024x1 .f32 :=
  View.ld s (Rect.unit (s := S1024x8) ![0, k] S1024x1.size h)

/-- The output block computed from the accumulator's eight columns. -/
def outOf (s : Vec F S1024x8 .f32) : Vec F S1024x1 .f32 :=
  k0_pay2 (col s 0 inb_S1024x8_S1024x1_0_0) (col s 1 inb_S1024x8_S1024x1_0_1) (col s 2 inb_S1024x8_S1024x1_0_2) (col s 3 inb_S1024x8_S1024x1_0_3)
    (col s 4 inb_S1024x8_S1024x1_0_4) (col s 5 inb_S1024x8_S1024x1_0_5) (col s 6 inb_S1024x8_S1024x1_0_6) (col s 7 inb_S1024x8_S1024x1_0_7)

end Cert.KernelIdeal.KB

end
-- ==== Proof.KDat.lean ====
/-
  The proof data of the kernel's one pipelined region.

  The 8 x 8 grid is run row by row: point t has row block i = t / 8 and column block j = t mod 8. The accumulator after
  point t (`accAt`) is `accNext` of the point's five input blocks and of what the point before left, or of zero when the
  point opens a grid row. The inputs' staging buffers hold their blocks at every point; the output's buffer, stored
  only at the last point of a grid row and written back there, holds `outOf` of the accumulator then.
-/
import proofs.«118719_j43404939493422_2_alg».proof.Proof.KBody
import Idealize.ShloMosaic.Lib.Pipeline.Kit
import Idealize.ShloMosaic.Lib.Pipeline.Frame
import Idealize.ShloMosaic.Lib.Pipeline.Regions

noncomputable section

namespace Cert.KernelIdeal.KB

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffers' contents when the region is entered: after the twenty host operations before it. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The accumulator after point n. -/
def accAt (c : Dev nD) : (n : ℕ) → n < cfg0.N → Vec F S1024x8 .f32
  | 0, hn => accNext (iblk m c 0 ⟨0, hn⟩) (iblk m c 1 ⟨0, hn⟩) (iblk m c 2 ⟨0, hn⟩) (iblk m c 3 ⟨0, hn⟩) (iblk m c 4 ⟨0, hn⟩) accZero
  | n + 1, hn => accNext (iblk m c 0 ⟨n + 1, hn⟩) (iblk m c 1 ⟨n + 1, hn⟩) (iblk m c 2 ⟨n + 1, hn⟩) (iblk m c 3 ⟨n + 1, hn⟩) (iblk m c 4 ⟨n + 1, hn⟩)
      (if (n + 1) % 8 = 0 then accZero else accAt c n (Nat.lt_of_succ_lt hn))

/-- The accumulator after a point, from the one before (at the first point of a grid row, from zero). -/
theorem accAt_eq (c : Dev nD) (t : Fin cfg0.N) :
    accAt m c t.val t.isLt = accNext (iblk m c 0 t) (iblk m c 1 t) (iblk m c 2 t) (iblk m c 3 t) (iblk m c 4 t)
      (if t.val % 8 = 0 then accZero else accAt m c (t.val - 1) (Nat.lt_of_le_of_lt (Nat.sub_le _ _) t.isLt)) := by
  obtain ⟨n, hn⟩ := t
  cases n with
  | zero => rfl
  | succ n => rfl

/-- The scratch accumulator as a memref. -/
abbrev scM : Memref sig .tc .vmem S1024x8 .f32 := Memref.whole cc0_scratch0

/-- The region's invariant before position n: the accumulator at anything before the first point, afterwards at what
    the point before left in it. -/
def PhiS (c : Dev nD) : (n : ℕ) → n ≤ cfg0.N → sProp 𝕄
  | 0, _ => iprop(∃ d, owns (c : Thread nD τ) scM fullShare d)
  | n + 1, hn => owns (c : Thread nD τ) scM fullShare (accAt m c n hn)

theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-- The proof data: the arrays as the region finds them; each input's buffer at its block; the output's at `outOf` of
    the accumulator; the two windows on one array each hold half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outOf (accAt m c t.val t.isLt)
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outOf (accAt m c t.val t.isLt) := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

end Cert.KernelIdeal.KB

end
-- ==== Proof.KRun.lean ====
/-
  The run of the kernel's program: twenty host operations, the pipelined region, five host operations.

  The two normalised inputs are each read by the region through TWO windows (row block i and row block j), so each of
  those arrays is held by its two windows half and half; the halves are put together again when the region is left.
-/
import proofs.«118719_j43404939493422_2_alg».proof.Proof.KDat
import Idealize.ShloMosaic.Lib.Pipeline.FrameSuffix

noncomputable section

namespace Cert.KernelIdeal.KB

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers' contents at launch, as a valuation. -/
abbrev Vin (c : Dev nD) : Valuation τ sig (Elt F) := fun b => m (c, b)

/-- What the region leaves in the output array. -/
def outArr (c : Dev nD) : Buf (Elt F) ((c : Thread nD τ).loc main_v16) := (dats m 0 c).arrAt 5 cfg0.N

/-- The buffers' contents when the region is left: as it found them, but for the output array. -/
def V1 (c : Dev nD) : Valuation τ sig (Elt F) := Function.update (V0 m c) (Proc.devRef .tc main_v16) (outArr m c)

/-- Each window's share of its array's buffer, spelled out. -/
theorem arrays_chain (c : Dev nD) (G : (w : Fin cfg0.W) → Buf (Elt F) ((cfg0.win w).arr.view.loc (c : Thread nD τ))) :
    ((dats m 0 c).arrays G : sProp 𝕄)
      = iprop((((c : Thread nD τ).loc main_v7) ↦{fullShare.left} G 0) ∗ (((c : Thread nD τ).loc main_v7) ↦{fullShare.right} G 1)
          ∗ (((c : Thread nD τ).loc main_v15) ↦{fullShare.left} G 2) ∗ (((c : Thread nD τ).loc main_v15) ↦{fullShare.right} G 3)
          ∗ (((c : Thread nD τ).loc main_arg2) ↦{fullShare} G 4) ∗ (((c : Thread nD τ).loc main_v16) ↦{fullShare} G 5)) := by
  unfold Dat.arrays
  rw [bigSep_W0]
  rw [(arr_whole0 0).set_eq_univ, (arr_whole0 2).set_eq_univ, (arr_whole0 4).set_eq_univ, (arr_whole0 5).set_eq_univ]
  rfl

/-- The four buffers behind the six windows, one by one. -/
theorem arrBufs_chain (c : Dev nD) (W : (b : Ref sig .tc) → Buf (Elt F) ((c : Thread nD τ).loc b)) :
    (Pipeline.arrBufs spec0 c W : sProp 𝕄)
      = iprop((((c : Thread nD τ).loc main_v7) ↦{fullShare} W main_v7) ∗ (((c : Thread nD τ).loc main_v15) ↦{fullShare} W main_v15)
          ∗ (((c : Thread nD τ).loc main_arg2) ↦{fullShare} W main_arg2) ∗ (((c : Thread nD τ).loc main_v16) ↦{fullShare} W main_v16)) := by
  unfold Pipeline.arrBufs
  exact bigSep_eq_bigSepL_of_eq [main_v7, main_v15, main_arg2, main_v16] (by decide) (by decide) _

/-- Entering the region: each normalised input's buffer is halved between its two windows. -/
theorem enter (c : Dev nD) :
    (Pipeline.arrBufs spec0 c (V m c) : sProp 𝕄) ⊢ (dats m 0 c).arrays ((dats m 0 c).arrAt · 0) := by
  rw [arrBufs_chain, arrays_chain]
  iintro ⟨H7, H15, H2, H16⟩
  ihave H7 := (pointsTo_share (PosShare.mem_left_op_right fullShare)).1 $$ H7
  icases H7 with ⟨H7a, H7b⟩
  ihave H15 := (pointsTo_share (PosShare.mem_left_op_right fullShare)).1 $$ H15
  icases H15 with ⟨H15a, H15b⟩
  isplitl [H7a]; · iexact H7a
  isplitl [H7b]; · iexact H7b
  isplitl [H15a]; · iexact H15a
  isplitl [H15b]; · iexact H15b
  isplitl [H2]; · iexact H2
  iexact H16

/-- Leaving it: the halves are joined; the inputs' arrays are as the region found them. -/
theorem leave (c : Dev nD) :
    ((dats m 0 c).arrays ((dats m 0 c).arrAt · cfg0.N) : sProp 𝕄)
      ⊢ iprop((((c : Thread nD τ).loc main_v7) ↦{fullShare} V m c main_v7) ∗ (((c : Thread nD τ).loc main_v15) ↦{fullShare} V m c main_v15)
          ∗ (((c : Thread nD τ).loc main_arg2) ↦{fullShare} V m c main_arg2) ∗ (((c : Thread nD τ).loc main_v16) ↦{fullShare} outArr m c)) := by
  rw [arrays_chain]
  rw [(dats m 0 c).arrAt_in 0 rfl, (dats m 0 c).arrAt_in 1 rfl, (dats m 0 c).arrAt_in 2 rfl, (dats m 0 c).arrAt_in 3 rfl, (dats m 0 c).arrAt_in 4 rfl]
  iintro ⟨H7a, H7b, H15a, H15b, H2, H16⟩
  isplitl [H7a H7b]
  · iapply (pointsTo_share (PosShare.mem_left_op_right fullShare)).2
    isplitl [H7a]; · iexact H7a
    iexact H7b
  isplitl [H15a H15b]
  · iapply (pointsTo_share (PosShare.mem_left_op_right fullShare)).2
    isplitl [H15a]; · iexact H15a
    iexact H15b
  isplitl [H2]; · iexact H2
  iexact H16

/-! ## The segments of the program and the launch -/

abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
/-- No table is prefetched. -/
abbrev adm : (p : Fin 1) → (pcfgs (F := F) p).Adm := fun p => (cfgs p).toPCfg_adm
/-- What rides beside the buffers through the host operations: the core owes nothing. -/
abbrev R (c : Dev nD) : sProp 𝕄 := iprop(∃ W, owes (c : Thread nD τ) (0 : CellTallies nD τ sig Unit) W)

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- The twenty host operations before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) hostOps0_fresh (Vin m) R

/-- The five after it. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) hostOps1_fresh (V1 m) R

theorem V1_out (c : Dev nD) : V1 m c (Proc.devRef .tc main_v16) = outArr m c := Function.update_self _ _ _
theorem V1_of_ne (c : Dev nD) (b : DevRef τ sig) (h : b ≠ Proc.devRef .tc main_v16) : V1 m c b = V0 m c b :=
  Function.update_of_ne h _ _

/-- The buffers no window reads or writes are untouched by the region. -/
theorem rest_V1 (c : Dev nD) :
    (Pipeline.unscopedRest spec0 c (fun b => V1 m c (Proc.devRef .tc b)) : sProp 𝕄) = Pipeline.unscopedRest spec0 c (V m c) := by
  unfold Pipeline.unscopedRest
  refine bigSep_congr fun b hb => ?_
  beta_reduce
  rw [V1_of_ne m c _ (StableHlo.devRef_ne_of_ne fun e => (Finset.mem_sdiff.mp hb).2 (Finset.mem_image.mpr ⟨5, Finset.mem_univ _, e.symm⟩))]

set_option backward.isDefEq.respectTransparency.types false in
/-- The region: entered from what the first host operations left, the four arrays into the pipeline (the shared ones
    halved), the scratch accumulator into the invariant, every other buffer bypassing; left with the output array at
    what the pipeline wrote back and everything else as found. -/
def reg0 (hbody : ∀ c, BodyObligation (dats m 0 c) (defs₀ (F := F)) 𝒱₀ () Set.univ) :
    Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (hbody c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m c) ∗ R c)
  X _ := iprop(emp)
  Y _ := iprop(emp)
  Z c := Pipeline.unscopedRest spec0 c (V m c)
  hentry c := by
    rw [show StableHlo.held (c : Thread nD τ) (Pipeline.ucRefs τ sig) (V0 m c) = unscopedBufs c (V m c) from (Pipeline.unscopedBufs_held c _).symm,
      Pipeline.ownSems0_none, Pipeline.unscopedBufs_split₀ cfgs 0 winFacts₀0.arr_unscoped c (V m c)]
    iintro ⟨⟨⟨Hab, Hur⟩, HO⟩, -, -⟩
    ihave Ha := (enter m c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hur
  hin c := by
    refine (show _ ⊢ (Pipeline.scopedRest (Ix := Unit) (Name := ℕ) (U := UR sig nD τ) (Lvl := ℕ) (Val := Elt F) spec0 c : sProp 𝕄) from by
      iintro ⟨-, -, Hr⟩; iexact Hr).trans ?_
    rw [scopedRest0_eq, show (dats m 0 c).Φ 0 = iprop(∃ d, owns (c : Thread nD τ) scM fullShare d) from rfl]
    simp only [scM, owns_whole]
    exact .rfl
  hout c := by
    rw [Pipeline.ownSems0_none, show (dats m 0 c).Φ (Fin.last cfg0.N) = PhiS m c cfg0.N (le_refl _) from rfl,
      PhiS_pos m c _ _ (by rw [show cfg0.N = 64 from N_0]; decide), scopedRest0_eq]
    simp only [scM, owns_whole]
    iintro H
    isplitr; · iempintro
    isplitr; · iempintro
    iexists _; iexact H
  hexit c := by
    iintro ⟨Ha, HO, -, HZ⟩
    ihave Hb := (leave m c) $$ Ha
    imodintro
    isplitr [HO]
    · rw [show StableHlo.held (c : Thread nD τ) (Pipeline.ucRefs τ sig) (V1 m c) = unscopedBufs c (fun b => V1 m c (Proc.devRef .tc b)) from (Pipeline.unscopedBufs_held c _).symm,
        Pipeline.unscopedBufs_split₀ cfgs 0 winFacts₀0.arr_unscoped c _, arrBufs_chain, rest_V1,
        V1_out, V1_of_ne m c _ (StableHlo.devRef_ne_of_ne (by decide : main_v7 ≠ main_v16)),
        V1_of_ne m c _ (StableHlo.devRef_ne_of_ne (by decide : main_v15 ≠ main_v16)),
        V1_of_ne m c _ (StableHlo.devRef_ne_of_ne (by decide : main_arg2 ≠ main_v16))]
      isplitl [Hb]; · iexact Hb
      iexact HZ
    · unfold Pipeline.Dat.owesAt Pipeline.owesWithin
      icases HO with ⟨%W, -, HO⟩; iexists W; iexact HO

/-- @main as the list of the three segments. -/
abbrev segs (hbody : ∀ c, BodyObligation (dats m 0 c) (defs₀ (F := F)) 𝒱₀ () Set.univ) :
    List (Pipeline.Seg (pcfgs (F := F)) adm (dats m) () defs₀ 𝒱₀ L lv) :=
  [.host (seg0 m), .region (reg0 m hbody), .host (seg1 m)]

/-- The buffers' contents at the end: the five last host operations run from what the region left. -/
abbrev Vfin (c : Dev nD) : Valuation τ sig (Elt F) := StableHlo.after hostOps1 (V1 m c)

set_option backward.isDefEq.respectTransparency.types false in
/-- From any memory with zero counters every weakly fair execution of the program terminates, faulting nowhere, and
    every unscoped buffer ends at `Vfin`. -/
theorem run_main (hbody : ∀ c, BodyObligation (dats m 0 c) (defs₀ (F := F)) 𝒱₀ () Set.univ) :
    θ_run defs (onTc (τ := τ) (main (F := F))) ⟨m, fun _ => 0, ρ⟩
      (fun r => ∀ c : Dev nD, ∀ b ∈ Pipeline.ucRefs τ sig, r.2.mem ((c : Thread nD τ).1, b) = Vfin m c b) :=
  Pipeline.θ_run_regions_kit (pcfgs (F := F)) adm (dats m) () cellOf_inj EP defs₀ 𝒱₀ L lv m ρ main (segs m hbody)
    (fun c Q => by rw [main_segs adm (dats m) () 𝒱₀ L lv (seg0 m) (seg1 m) (reg0 m hbody) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vin m c) ∗ R c))
    (Tₙ := fun c => StableHlo.held (c : Thread nD τ) (Pipeline.ucRefs τ sig) (Vfin m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Vin m c) from Pipeline.unscopedBufs_held c (Vin m c)]
      iintro ⟨⟨Hh, -, HO, -, -, -⟩, -⟩
      imodintro
      isplitl [Hh]; · iexact Hh
      iexists ∅; iexact HO)
    (QY := fun c s => ∀ b ∈ Pipeline.ucRefs τ sig, s.mem ((c : Thread nD τ).1, b) = Vfin m c b)
    (hfin := fun c s' => by
      iintro ⟨Ha, HSI⟩
      unfold StableHlo.held
      ihave Hr := (pointsTo_read_all (Pipeline.ucRefs τ sig) (fun b => ((c : Thread nD τ).1, b)) (Vfin m c) s') $$ [Ha HSI]
      · isplitl [Ha] <;> iassumption
      icases Hr with ⟨%ha, HSI⟩
      imodintro
      isplitr; · ipureintro; exact ha
      iexact HSI)
    (hQ := fun _ h => h)

end Cert.KernelIdeal.KB

end
-- ==== Proof.KBodyRunA.lean ====
/-
  The kernel body's run at one grid point, part 1: what a buffer holds after a store of the whole buffer, and the two
  cases in which the point is the first of its grid row (the accumulator is set to zero before it is added into).

  Every store in the body is of a whole buffer at offset zero, so a buffer's contents after the body are the payload of
  its last store, and a load of column k of the accumulator after its last store reads that payload's column k.
-/
import proofs.«118719_j43404939493422_2_alg».proof.Proof.KBody
import Idealize.ShloMosaic.Lib.Pipeline.Kit
import Idealize.ShloMosaic.Lib.Exec
import Idealize.ShloMosaic.Lib.Tactic
import Idealize.ShloMosaic.Lib.Pipeline.Value

noncomputable section

namespace Cert.KernelIdeal.KB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Both offsets zero, in the spelling the stores and loads of whole buffers use. -/
theorem hz2 : (![0, 0] : Fin 2 → Nat) = fun _ => 0 := funext fun a => by fin_cases a <;> rfl

section views
variable {Val : EltTy → Type} [∀ e, Nonempty (Val e)] {sig' : RefSig} {κ' : Kind} {sp' : Space} {e' : EltTy}

/-- A buffer whose last store was of the whole buffer reads as that store's payload. -/
theorem read_writes_whole (S : Shape) (v : View sig' κ' sp' S e') (f : v.ty.Contents Val) {off : Fin S.rank → Nat}
    (h : off = fun _ => 0) (inb : ∀ a, off a + S.size a ≤ S.size a) (w : S.Idx → Val e') (L : List (View.Piece Val S e')) :
    v.read Val (v.writes Val f ((⟨Rect.unit off S.size inb, w⟩ : View.Piece Val S e') :: L)) = w := by
  rw [View.read_writes_eq_canon v f _ (fun y => ⟨_, List.mem_cons_self, View.mem_set_unit_zero h inb y⟩),
    View.canon_cons_unit_zero h inb w L]

/-- A load, through any rectangle, of a buffer whose last store was of the whole buffer reads that store's payload there. -/
theorem readCov_whole (S : Shape) (v : View sig' κ' sp' S e') {off : Fin S.rank → Nat}
    (h : off = fun _ => 0) (inb : ∀ a, off a + S.size a ≤ S.size a) (w : S.Idx → Val e') (L : List (View.Piece Val S e')) (r : Rect S) :
    v.readCov ((⟨Rect.unit off S.size inb, w⟩ : View.Piece Val S e') :: L) r.toLoadRect = View.ld w r := by
  rw [View.readCov_eq_canon_ld v _ r (fun y => ⟨_, List.mem_cons_self, View.mem_set_unit_zero h inb y⟩),
    View.canon_cons_unit_zero h inb w L]

end views

open Classical in
/-- The body at a point that is both the first and the last of its grid row: the accumulator is set to zero, added into, and the output block is computed from it. -/
theorem body_run_first_last (c : Dev nD) (i : grid0.Coords) (hI : condInit i) (hL : condLast i)
    (arg2 : Memref sig .tc .vmem S1024x64 .f32) (harg2 : arg2.IsWhole) (arg3 : Memref sig .tc .vmem S1024x64 .f32) (harg3 : arg3.IsWhole)
    (arg4 : Memref sig .tc .vmem S1024x64 .f32) (harg4 : arg4.IsWhole) (arg5 : Memref sig .tc .vmem S1024x64 .f32) (harg5 : arg5.IsWhole)
    (arg6 : Memref sig .tc .vmem S1024x1024 .f32) (harg6 : arg6.IsWhole) (arg7 : Memref sig .tc .vmem S1024x1 .f32) (harg7 : arg7.IsWhole)
    (arg8 : Memref sig .tc .vmem S1024x8 .f32) (harg8 : arg8.IsWhole)
    (x0 x1 x2 x3 : Vec F S1024x64 .f32) (x4 : Vec F S1024x1024 .f32) (o : Vec F S1024x1 .f32) (s : Vec F S1024x8 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare o
        ∗ owns (c : Thread nD τ) arg8 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (if condLast i then outOf (accNext x0 x1 x2 x3 x4 (if condInit i then accZero else s)) else o)
            ∗ owns (c : Thread nD τ) arg8 fullShare (accNext x0 x1 x2 x3 x4 (if condInit i then accZero else s))) -∗ K ⟨⟩))
      ⊢ wp frame (wpE (defs₀ (F := F)) Variants.none c none) E
          (cc0__contrast_kernel i arg2 harg2 arg3 harg3 arg4 harg4 arg5 harg5 arg6 harg6 arg7 harg7 arg8 harg8) K := by
  rw [if_pos hI, if_pos hL]
  simp only [cc0__contrast_kernel_eq_skeleton]; unfold cc0__contrast_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5; obtain rfl := harg8.eq_unread hf6
  sl_exec (disch := first | exact hI | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    sl_unfold_run_names
    simp only [View.readAt_eq_ld, Memref.IsWhole.read_unread, View.ld_unit_zero (S := S1024x64) hz2, View.ld_unit_zero (S := S1024x1024) hz2, View.ld_unit_zero (S := S1024x8) hz2, View.readCov_unit_zero (S := S1024x8) _ hz2, readCov_whole S1024x8 _ hz2]
    rw [read_writes_whole S1024x1 _ _ hz2]
    rfl
  · iexists _; isplitr
    swap; · iexact H6
    ipureintro
    sl_unfold_run_names
    simp only [View.readAt_eq_ld, Memref.IsWhole.read_unread, View.ld_unit_zero (S := S1024x64) hz2, View.ld_unit_zero (S := S1024x1024) hz2, View.ld_unit_zero (S := S1024x8) hz2, View.readCov_unit_zero (S := S1024x8) _ hz2]
    rw [read_writes_whole S1024x8 _ _ hz2]
    rfl

open Classical in
/-- The body at the first point of a grid row that is not its last: the accumulator is set to zero and added into; the output's buffer is left as found. -/
theorem body_run_first (c : Dev nD) (i : grid0.Coords) (hI : condInit i) (hL : ¬condLast i)
    (arg2 : Memref sig .tc .vmem S1024x64 .f32) (harg2 : arg2.IsWhole) (arg3 : Memref sig .tc .vmem S1024x64 .f32) (harg3 : arg3.IsWhole)
    (arg4 : Memref sig .tc .vmem S1024x64 .f32) (harg4 : arg4.IsWhole) (arg5 : Memref sig .tc .vmem S1024x64 .f32) (harg5 : arg5.IsWhole)
    (arg6 : Memref sig .tc .vmem S1024x1024 .f32) (harg6 : arg6.IsWhole) (arg7 : Memref sig .tc .vmem S1024x1 .f32) (harg7 : arg7.IsWhole)
    (arg8 : Memref sig .tc .vmem S1024x8 .f32) (harg8 : arg8.IsWhole)
    (x0 x1 x2 x3 : Vec F S1024x64 .f32) (x4 : Vec F S1024x1024 .f32) (o : Vec F S1024x1 .f32) (s : Vec F S1024x8 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare o
        ∗ owns (c : Thread nD τ) arg8 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (if condLast i then outOf (accNext x0 x1 x2 x3 x4 (if condInit i then accZero else s)) else o)
            ∗ owns (c : Thread nD τ) arg8 fullShare (accNext x0 x1 x2 x3 x4 (if condInit i then accZero else s))) -∗ K ⟨⟩))
      ⊢ wp frame (wpE (defs₀ (F := F)) Variants.none c none) E
          (cc0__contrast_kernel i arg2 harg2 arg3 harg3 arg4 harg4 arg5 harg5 arg6 harg6 arg7 harg7 arg8 harg8) K := by
  rw [if_pos hI, if_neg hL]
  simp only [cc0__contrast_kernel_eq_skeleton]; unfold cc0__contrast_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5; obtain rfl := harg8.eq_unread hf6
  sl_exec (disch := first | exact hI | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    exact harg7.read_unread _
  · iexists _; isplitr
    swap; · iexact H6
    ipureintro
    sl_unfold_run_names
    simp only [View.readAt_eq_ld, Memref.IsWhole.read_unread, View.ld_unit_zero (S := S1024x64) hz2, View.ld_unit_zero (S := S1024x1024) hz2, View.ld_unit_zero (S := S1024x8) hz2, View.readCov_unit_zero (S := S1024x8) _ hz2]
    rw [read_writes_whole S1024x8 _ _ hz2]
    rfl

end Cert.KernelIdeal.KB

end
-- ==== Proof.KBodyRun.lean ====
/-
  The kernel body's run at one grid point, part 2: the two cases in which the point is not the first of its grid row
  (the accumulator is added into as found), and the four cases together: on whole buffers holding x0 .. x4, o and s the
  body leaves the inputs as found, the accumulator at accNext of what it held (of zero at the first point of a grid
  row) and the output's buffer at outOf of the new accumulator at the last point of a grid row, as found elsewhere.
-/
import proofs.«118719_j43404939493422_2_alg».proof.Proof.KBodyRunA
import Idealize.ShloMosaic.Lib.Pipeline.Kit
import Idealize.ShloMosaic.Lib.Exec
import Idealize.ShloMosaic.Lib.Tactic
import Idealize.ShloMosaic.Lib.Pipeline.Value

noncomputable section

namespace Cert.KernelIdeal.KB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Classical in
/-- The body at the last point of a grid row that is not its first: the accumulator is added into and the output block is computed from it. -/
theorem body_run_last (c : Dev nD) (i : grid0.Coords) (hI : ¬condInit i) (hL : condLast i)
    (arg2 : Memref sig .tc .vmem S1024x64 .f32) (harg2 : arg2.IsWhole) (arg3 : Memref sig .tc .vmem S1024x64 .f32) (harg3 : arg3.IsWhole)
    (arg4 : Memref sig .tc .vmem S1024x64 .f32) (harg4 : arg4.IsWhole) (arg5 : Memref sig .tc .vmem S1024x64 .f32) (harg5 : arg5.IsWhole)
    (arg6 : Memref sig .tc .vmem S1024x1024 .f32) (harg6 : arg6.IsWhole) (arg7 : Memref sig .tc .vmem S1024x1 .f32) (harg7 : arg7.IsWhole)
    (arg8 : Memref sig .tc .vmem S1024x8 .f32) (harg8 : arg8.IsWhole)
    (x0 x1 x2 x3 : Vec F S1024x64 .f32) (x4 : Vec F S1024x1024 .f32) (o : Vec F S1024x1 .f32) (s : Vec F S1024x8 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare o
        ∗ owns (c : Thread nD τ) arg8 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (if condLast i then outOf (accNext x0 x1 x2 x3 x4 (if condInit i then accZero else s)) else o)
            ∗ owns (c : Thread nD τ) arg8 fullShare (accNext x0 x1 x2 x3 x4 (if condInit i then accZero else s))) -∗ K ⟨⟩))
      ⊢ wp frame (wpE (defs₀ (F := F)) Variants.none c none) E
          (cc0__contrast_kernel i arg2 harg2 arg3 harg3 arg4 harg4 arg5 harg5 arg6 harg6 arg7 harg7 arg8 harg8) K := by
  rw [if_neg hI, if_pos hL]
  simp only [cc0__contrast_kernel_eq_skeleton]; unfold cc0__contrast_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5; obtain rfl := harg8.eq_unread hf6
  sl_exec (disch := first | exact hI | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    sl_unfold_run_names
    simp only [View.readAt_eq_ld, Memref.IsWhole.read_unread, View.ld_unit_zero (S := S1024x64) hz2, View.ld_unit_zero (S := S1024x1024) hz2, View.ld_unit_zero (S := S1024x8) hz2, View.readCov_unit_zero (S := S1024x8) _ hz2, readCov_whole S1024x8 _ hz2]
    rw [read_writes_whole S1024x1 _ _ hz2]
    rfl
  · iexists _; isplitr
    swap; · iexact H6
    ipureintro
    sl_unfold_run_names
    simp only [View.readAt_eq_ld, Memref.IsWhole.read_unread, View.ld_unit_zero (S := S1024x64) hz2, View.ld_unit_zero (S := S1024x1024) hz2, View.ld_unit_zero (S := S1024x8) hz2, View.readCov_unit_zero (S := S1024x8) _ hz2]
    rw [read_writes_whole S1024x8 _ _ hz2]
    rfl

open Classical in
/-- The body at a point that is neither the first nor the last of its grid row: the accumulator is added into; the output's buffer is left as found. -/
theorem body_run_mid (c : Dev nD) (i : grid0.Coords) (hI : ¬condInit i) (hL : ¬condLast i)
    (arg2 : Memref sig .tc .vmem S1024x64 .f32) (harg2 : arg2.IsWhole) (arg3 : Memref sig .tc .vmem S1024x64 .f32) (harg3 : arg3.IsWhole)
    (arg4 : Memref sig .tc .vmem S1024x64 .f32) (harg4 : arg4.IsWhole) (arg5 : Memref sig .tc .vmem S1024x64 .f32) (harg5 : arg5.IsWhole)
    (arg6 : Memref sig .tc .vmem S1024x1024 .f32) (harg6 : arg6.IsWhole) (arg7 : Memref sig .tc .vmem S1024x1 .f32) (harg7 : arg7.IsWhole)
    (arg8 : Memref sig .tc .vmem S1024x8 .f32) (harg8 : arg8.IsWhole)
    (x0 x1 x2 x3 : Vec F S1024x64 .f32) (x4 : Vec F S1024x1024 .f32) (o : Vec F S1024x1 .f32) (s : Vec F S1024x8 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare o
        ∗ owns (c : Thread nD τ) arg8 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (if condLast i then outOf (accNext x0 x1 x2 x3 x4 (if condInit i then accZero else s)) else o)
            ∗ owns (c : Thread nD τ) arg8 fullShare (accNext x0 x1 x2 x3 x4 (if condInit i then accZero else s))) -∗ K ⟨⟩))
      ⊢ wp frame (wpE (defs₀ (F := F)) Variants.none c none) E
          (cc0__contrast_kernel i arg2 harg2 arg3 harg3 arg4 harg4 arg5 harg5 arg6 harg6 arg7 harg7 arg8 harg8) K := by
  rw [if_neg hI, if_neg hL]
  simp only [cc0__contrast_kernel_eq_skeleton]; unfold cc0__contrast_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5; obtain rfl := harg8.eq_unread hf6
  sl_exec (disch := first | exact hI | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    exact harg7.read_unread _
  · iexists _; isplitr
    swap; · iexact H6
    ipureintro
    sl_unfold_run_names
    simp only [View.readAt_eq_ld, Memref.IsWhole.read_unread, View.ld_unit_zero (S := S1024x64) hz2, View.ld_unit_zero (S := S1024x1024) hz2, View.ld_unit_zero (S := S1024x8) hz2, View.readCov_unit_zero (S := S1024x8) _ hz2]
    rw [read_writes_whole S1024x8 _ _ hz2]
    rfl

open Classical in
/-- The body at one grid point, on whole staging buffers: the inputs' buffers come back as found; the accumulator
    ends at `accNext` of what it held (of zero, at the first point of a grid row); the output's buffer is overwritten
    with `outOf` of the new accumulator at the last point of a grid row and left as found elsewhere. -/
theorem body_run (c : Dev nD) (i : grid0.Coords)
    (arg2 : Memref sig .tc .vmem S1024x64 .f32) (harg2 : arg2.IsWhole) (arg3 : Memref sig .tc .vmem S1024x64 .f32) (harg3 : arg3.IsWhole)
    (arg4 : Memref sig .tc .vmem S1024x64 .f32) (harg4 : arg4.IsWhole) (arg5 : Memref sig .tc .vmem S1024x64 .f32) (harg5 : arg5.IsWhole)
    (arg6 : Memref sig .tc .vmem S1024x1024 .f32) (harg6 : arg6.IsWhole) (arg7 : Memref sig .tc .vmem S1024x1 .f32) (harg7 : arg7.IsWhole)
    (arg8 : Memref sig .tc .vmem S1024x8 .f32) (harg8 : arg8.IsWhole)
    (x0 x1 x2 x3 : Vec F S1024x64 .f32) (x4 : Vec F S1024x1024 .f32) (o : Vec F S1024x1 .f32) (s : Vec F S1024x8 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare o
        ∗ owns (c : Thread nD τ) arg8 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (if condLast i then outOf (accNext x0 x1 x2 x3 x4 (if condInit i then accZero else s)) else o)
            ∗ owns (c : Thread nD τ) arg8 fullShare (accNext x0 x1 x2 x3 x4 (if condInit i then accZero else s))) -∗ K ⟨⟩))
      ⊢ wp frame (wpE (defs₀ (F := F)) Variants.none c none) E
          (cc0__contrast_kernel i arg2 harg2 arg3 harg3 arg4 harg4 arg5 harg5 arg6 harg6 arg7 harg7 arg8 harg8) K := by
  by_cases hI : condInit i <;> by_cases hL : condLast i
  · exact body_run_first_last c i hI hL arg2 harg2 arg3 harg3 arg4 harg4 arg5 harg5 arg6 harg6 arg7 harg7 arg8 harg8 x0 x1 x2 x3 x4 o s E K
  · exact body_run_first c i hI hL arg2 harg2 arg3 harg3 arg4 harg4 arg5 harg5 arg6 harg6 arg7 harg7 arg8 harg8 x0 x1 x2 x3 x4 o s E K
  · exact body_run_last c i hI hL arg2 harg2 arg3 harg3 arg4 harg4 arg5 harg5 arg6 harg6 arg7 harg7 arg8 harg8 x0 x1 x2 x3 x4 o s E K
  · exact body_run_mid c i hI hL arg2 harg2 arg3 harg3 arg4 harg4 arg5 harg5 arg6 harg6 arg7 harg7 arg8 harg8 x0 x1 x2 x3 x4 o s E K

end Cert.KernelIdeal.KB

end
-- ==== Proof.KOblig.lean ====
/-
  The body obligation of the pipelined region: at every grid point the body, run on the windows' current staging
  buffers and the accumulator as the point before left it, leaves the inputs' buffers as found, the accumulator at the
  next partial sums, and the output's buffer stored at the last point of a grid row and untouched elsewhere.
-/
import proofs.«118719_j43404939493422_2_alg».proof.Proof.KDat
import proofs.«118719_j43404939493422_2_alg».proof.Proof.KBodyRun

noncomputable section

namespace Cert.KernelIdeal.KB

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The output window is idle (the body stores nothing into it) away from the last point of a grid row, -/
theorem idleAt5 : ∀ t : Fin cfg0.N, ¬ t.val % 8 = 7 → cfg0.idle 5 (grid0.coords t) = true :=
  (by decide +kernel : ∀ t : Fin grid0.N, ¬ t.val % 8 = 7 → idle0 5 (grid0.coords t) = true)
/-- live there, -/
theorem liveAt5 : ∀ t : Fin cfg0.N, t.val % 8 = 7 → cfg0.idle 5 (grid0.coords t) = false :=
  (by decide +kernel : ∀ t : Fin grid0.N, t.val % 8 = 7 → idle0 5 (grid0.coords t) = false)
/-- and written back only there. -/
theorem noFlush5 (t : Fin cfg0.N) (h : ¬ t.val % 8 = 7) : (cfg0.win 5).flush t = false := by
  cases hf : (cfg0.win 5).flush t with
  | false => rfl
  | true => exact absurd ((flush0_5 t).mp hf) h

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves_in0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after0]
theorem leaves_in1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after1]
theorem leaves_in2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after2]
theorem leaves_in3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after3]
theorem leaves_in4 (c : Dev nD) (t : Fin cfg0.N) : (dats m 0 c).leavesExact 4 t = owns (c : Thread nD τ) (st0_4 t) fullShare (iblk m c 4 t) := by
  unfold Dat.leavesExact; rw [show cfg0.idle 4 (grid0.coords t) = false from rfl, after4]
theorem leaves_out_live (c : Dev nD) (t : Fin cfg0.N) (h : t.val % 8 = 7) :
    (dats m 0 c).leavesExact 5 t = owns (c : Thread nD τ) (st0_5 t) fullShare (outOf (accAt m c t.val t.isLt)) := by
  unfold Dat.leavesExact; rw [liveAt5 t h, after5]
theorem leaves_out_idle (c : Dev nD) (t : Fin cfg0.N) (h : ¬ t.val % 8 = 7) :
    (dats m 0 c).leavesExact 5 t = iprop(∃ d, owns (c : Thread nD τ) (st0_5 t) fullShare ((dats m 0 c).before 5 t d)) :=
  Dat.leavesExact_idle (dats m 0 c) 5 t (idleAt5 t h) (noFlush5 t h)

/-- The invariant at a point's start, restated at the point's number. -/
theorem Phi_castSucc (c : Dev nD) (t : Fin cfg0.N) : (dats m 0 c).Φ t.castSucc = PhiS m c t.val (Nat.le_of_lt t.isLt) := by
  dsimp only [dats]; simp only [Fin.coe_castSucc]

theorem PhiS_zero (c : Dev nD) (n : ℕ) (h : n ≤ cfg0.N) (hz : n = 0) :
    PhiS m c n h = iprop(∃ d, owns (c : Thread nD τ) scM fullShare d) := by
  subst hz; rfl

/-- The body at point t on the windows' current staging buffers, the inputs' at their blocks, the output's at anything
    (`o`), the accumulator at anything (`s`): the conditions read off the point's number. -/
theorem point_run (c : Dev nD) (t : Fin cfg0.N) (s : Vec F S1024x8 .f32) (o : Vec F S1024x1 .f32) (K : PUnit → sProp 𝕄) :
    iprop(owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare (iblk m c 4 t) ∗ owns (c : Thread nD τ) (st0_5 t) fullShare o
        ∗ owns (c : Thread nD τ) scM fullShare s
        ∗ (iprop(owns (c : Thread nD τ) (st0_0 t) fullShare (iblk m c 0 t) ∗ owns (c : Thread nD τ) (st0_1 t) fullShare (iblk m c 1 t)
            ∗ owns (c : Thread nD τ) (st0_2 t) fullShare (iblk m c 2 t) ∗ owns (c : Thread nD τ) (st0_3 t) fullShare (iblk m c 3 t)
            ∗ owns (c : Thread nD τ) (st0_4 t) fullShare (iblk m c 4 t)
            ∗ owns (c : Thread nD τ) (st0_5 t) fullShare
                (if t.val % 8 = 7 then outOf (accNext (iblk m c 0 t) (iblk m c 1 t) (iblk m c 2 t) (iblk m c 3 t) (iblk m c 4 t) (if t.val % 8 = 0 then accZero else s)) else o)
            ∗ owns (c : Thread nD τ) scM fullShare
                (accNext (iblk m c 0 t) (iblk m c 1 t) (iblk m c 2 t) (iblk m c 3 t) (iblk m c 4 t) (if t.val % 8 = 0 then accZero else s))) -∗ K ⟨⟩))
      ⊢ wp frame (wpE (defs₀ (F := F)) Variants.none c none) Set.univ (bodyAt0 t) K := by
  have h := body_run (F := F) c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4))
    (win0_5.stage (cfg0.slots t 5)) (hstage0_5 ((cfg0.slots t 5).cast nbuf0_5)) (Memref.whole cc0_scratch0) (Memref.isWhole_whole _)
    (iblk m c 0 t) (iblk m c 1 t) (iblk m c 2 t) (iblk m c 3 t) (iblk m c 4 t) o s Set.univ K
  by_cases h0 : t.val % 8 = 0
  · have h7 : ¬ t.val % 8 = 7 := by omega
    rw [if_pos ((hcondInit t).mpr h0), if_neg (fun hc => h7 ((hcondLast t).mp hc))] at h
    rw [if_pos h0, if_neg h7]
    exact h
  · by_cases h7 : t.val % 8 = 7
    · rw [if_neg (fun hc => h0 ((hcondInit t).mp hc)), if_pos ((hcondLast t).mpr h7)] at h
      rw [if_neg h0, if_pos h7]
      exact h
    · rw [if_neg (fun hc => h0 ((hcondInit t).mp hc)), if_neg (fun hc => h7 ((hcondLast t).mp hc))] at h
      rw [if_neg h0, if_neg h7]
      exact h

/-- The body obligation at point t: the accumulator is handed over at what the point before left (at anything before
    the first point), the output's buffer at what it holds, and both come back as the proof data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4]
  rw [show (dats m 0 c).owesAt () t.succ = (dats m 0 c).owesAt () t.castSucc from rfl,
    show (dats m 0 c).Φ t.succ = owns (c : Thread nD τ) scM fullShare (accAt m c t.val t.isLt) from rfl,
    leaves_in0, leaves_in1, leaves_in2, leaves_in3, leaves_in4, Phi_castSucc]
  by_cases h7 : t.val % 8 = 7
  · have h0 : ¬ t.val % 8 = 0 := by omega
    have hz : t.val ≠ 0 := by omega
    rw [leaves_out_live m c t h7, accAt_eq, if_neg h0, PhiS_pos m c _ _ hz]
    iintro ⟨HS, Ho, ⟨%d0, H0⟩, ⟨%d1, H1⟩, ⟨%d2, H2⟩, ⟨%d3, H3⟩, ⟨%d4, H4⟩, ⟨%d5, H5⟩⟩
    iapply (point_run m c t (accAt m c (t.val - 1) (Nat.lt_of_le_of_lt (Nat.sub_le _ _) t.isLt)) ((dats m 0 c).before 5 t d5) _)
    rw [if_pos h7, if_neg h0]
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    iexact H5
  · rw [leaves_out_idle m c t h7, accAt_eq]
    by_cases hz : t.val = 0
    · have h0 : t.val % 8 = 0 := by omega
      rw [if_pos h0, PhiS_zero m c _ _ hz]
      iintro ⟨⟨%ds, HS⟩, Ho, ⟨%d0, H0⟩, ⟨%d1, H1⟩, ⟨%d2, H2⟩, ⟨%d3, H3⟩, ⟨%d4, H4⟩, ⟨%d5, H5⟩⟩
      iapply (point_run m c t ds ((dats m 0 c).before 5 t d5) _)
      rw [if_neg h7, if_pos h0]
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_pos m c _ _ hz]
      iintro ⟨HS, Ho, ⟨%d0, H0⟩, ⟨%d1, H1⟩, ⟨%d2, H2⟩, ⟨%d3, H3⟩, ⟨%d4, H4⟩, ⟨%d5, H5⟩⟩
      iapply (point_run m c t (accAt m c (t.val - 1) (Nat.lt_of_le_of_lt (Nat.sub_le _ _) t.isLt)) ((dats m 0 c).before 5 t d5) _)
      rw [if_neg h7]
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.KB

end
-- ==== Proof.KFrame.lean ====
/-
  What the run of the kernel's program leaves: the result buffer at the five last host operations' value of the
  region's output array, and the three argument arrays as they were (no operation and no window writes them).
-/
import proofs.«118719_j43404939493422_2_alg».proof.Proof.KRun
import proofs.«118719_j43404939493422_2_alg».proof.Proof.KOblig

noncomputable section

namespace Cert.KernelIdeal.KB

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- No host operation before the region writes an argument array, -/
theorem not_written0 (b : Ref sig .tc) (hb : b = main_arg0 ∨ b = main_arg1 ∨ b = main_arg2) :
    ∀ op ∈ (hostOps0 : List (HloOp τ sig (Elt F))), Proc.devRef .tc b ∉ op.writes := by
  intro op hop
  simp only [List.mem_cons, List.mem_nil_iff, or_false] at hop
  rcases hb with rfl | rfl | rfl <;>
  rcases hop with rfl | rfl | rfl | rfl | rfl | rfl | rfl | rfl | rfl | rfl | rfl | rfl | rfl | rfl | rfl | rfl | rfl | rfl | rfl | rfl <;>
    simp only [StableHlo.unary_writes, StableHlo.binary_writes, StableHlo.nullary_writes, Finset.mem_singleton] <;>
    exact StableHlo.devRef_ne_of_ne (by decide)

/-- nor does one after it. -/
theorem not_written1 (b : Ref sig .tc) (hb : b = main_arg0 ∨ b = main_arg1 ∨ b = main_arg2) :
    ∀ op ∈ (hostOps1 : List (HloOp τ sig (Elt F))), Proc.devRef .tc b ∉ op.writes := by
  intro op hop
  simp only [List.mem_cons, List.mem_nil_iff, or_false] at hop
  rcases hb with rfl | rfl | rfl <;>
  rcases hop with rfl | rfl | rfl | rfl | rfl <;>
    simp only [StableHlo.unary_writes, StableHlo.binary_writes, StableHlo.nullary_writes, Finset.mem_singleton] <;>
    exact StableHlo.devRef_ne_of_ne (by decide)

/-- An argument array ends as it was launched. -/
theorem Vfin_arg (c : Dev nD) (b : Ref sig .tc) (hb : b = main_arg0 ∨ b = main_arg1 ∨ b = main_arg2) :
    Vfin m c (Proc.devRef .tc b) = m ((c : Thread nD τ).loc b) := by
  have hne : b ≠ main_v16 := by rcases hb with rfl | rfl | rfl <;> decide
  show StableHlo.after hostOps1 (V1 m c) (Proc.devRef .tc b) = _
  rw [StableHlo.after_of_forall_not_mem hostOps1 _ (not_written1 b hb), V1_of_ne m c _ (StableHlo.devRef_ne_of_ne hne)]
  exact StableHlo.after_of_forall_not_mem hostOps0 _ (not_written0 b hb)

theorem mem_uc (b : Ref sig .tc) (h : b.isScoped = false) : Proc.devRef .tc b ∈ Pipeline.ucRefs τ sig :=
  Finset.mem_filter.mpr ⟨Finset.mem_map.mpr ⟨b, Finset.mem_univ _, rfl⟩, by simpa using h⟩

/-- The run: the result buffer ends at the last host operations' value, the arguments unchanged. -/
theorem run_result :
    θ_run defs (onTc (τ := τ) (main (F := F))) ⟨m, fun _ => 0, ρ⟩ (fun r => ∀ c : Dev nD,
      r.2.mem ((c.tc : Thread nD τ).loc main_v19) = Vfin m c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨h c _ (mem_uc main_v19 rfl),
       (h c _ (mem_uc main_arg0 rfl)).trans (Vfin_arg m c main_arg0 (.inl rfl)),
       (h c _ (mem_uc main_arg1 rfl)).trans (Vfin_arg m c main_arg1 (.inr (.inl rfl))),
       (h c _ (mem_uc main_arg2 rfl)).trans (Vfin_arg m c main_arg2 (.inr (.inr rfl)))⟩)
    (run_main m ρ (body_obligation m))

/-- The frame: the program runs to the end, faulting nowhere, and its argument arrays end unchanged. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_result m ρ)

end Cert.KernelIdeal.KB

end
-- ==== Proof.BKBody.lean ====
/-
  What one grid point of the kernel computes, as pure functions of what the point finds.

  At grid point (i, j) the body finds row block i and row block j of each normalised input, the block (i, j) of the
  weights, and a 1024 x 8 accumulator. It adds to the accumulator, column by column, the row sums over the block's
  1024 columns of the four matrices of exponentials and of their products with the weights (`accNext`); at j = 0 the
  accumulator is first set to zero (`accZero`), and at j = 7 the output block is computed from the eight columns of the
  accumulator (`outOf`): the sum of the four logarithms of a weighted sum over a row sum plus a constant.
-/
import proofs.«118719_j43404939493422_2_alg».proof.Proof.Gen.Kernel.Skeleton
import proofs.«118719_j43404939493422_2_alg».proof.Proof.Gen.Kernel.Points
import proofs.«118719_j43404939493422_2_alg».proof.Proof.Gen.Kernel.Launch
import Idealize.ShloMosaic.Lib.Pipeline.FrameBody

noncomputable section

namespace Cert.Kernel.KB

open Cert.Kernel Cert.Kernel.Gen
open Idealize.ShloMosaic Idealize.ShloMosaic.TcCoe Idealize.SL.Sem

variable {F : FTy → Type} [FloatOps F]

/-- The body's first condition: the point is the first of its row of the grid (j = 0). -/
abbrev condInit (i : grid0.Coords) : Prop :=
  (Scalar.cmpi .ne (Scalar.extui (Scalar.cmpi .eq (BitVec.ofNat 32 (i 1).val) 0#32)) 0#32) = 1#1
/-- The body's second condition: the point is the last of its row of the grid (j = 7). -/
abbrev condLast (i : grid0.Coords) : Prop := k0_cond2 i = 1#1

/-- Point t of the 8 x 8 grid has j = t mod 8: the first condition holds where that is 0, -/
theorem hcondInit : ∀ t : Fin cfg0.N, condInit (grid0.coords t) ↔ t.val % 8 = 0 :=
  (by decide +kernel : ∀ t : Fin grid0.N, condInit (grid0.coords t) ↔ t.val % 8 = 0)
/-- and the second where it is 7. -/
theorem hcondLast : ∀ t : Fin cfg0.N, condLast (grid0.coords t) ↔ t.val % 8 = 7 :=
  (by decide +kernel : ∀ t : Fin grid0.N, condLast (grid0.coords t) ↔ t.val % 8 = 7)

/-- The accumulator set to zero. -/
def accZero : Vec F S1024x8 .f32 := k0_pay3 (F := F)

/-- The accumulator after a point: what it held plus the eight row sums of the point's block
    (x0, x1: row blocks i and j of the first input; x2, x3: of the second; x4: the weights' block). -/
def accNext (x0 x1 x2 x3 : Vec F S1024x64 .f32) (x4 : Vec F S1024x1024 .f32) (s : Vec F S1024x8 .f32) : Vec F S1024x8 .f32 :=
  k0_pay1 (k0_pay6 x2) (k0_pay7 x3) x4 (k0_pay9 x0 x3) (k0_pay10 x0 x3 x4) (k0_pay12 x1 x2) (k0_pay13 x1 x2 x4) (k0_pay14 x0 x1) s

/-- Column k of the accumulator, as a 1024 x 1 block. -/
def col (s : Vec F S1024x8 .f32) (k : Nat) (h : ∀ a, (![0, k] : Fin 2 → Nat) a + S1024x1.size a ≤ S1024x8.size a) : Vec F S1024x1 .f32 :=
  View.ld s (Rect.unit (s := S1024x8) ![0, k] S1024x1.size h)

/-- The output block computed from the accumulator's eight columns. -/
def outOf (s : Vec F S1024x8 .f32) : Vec F S1024x1 .f32 :=
  k0_pay2 (col s 0 inb_S1024x8_S1024x1_0_0) (col s 1 inb_S1024x8_S1024x1_0_1) (col s 2 inb_S1024x8_S1024x1_0_2) (col s 3 inb_S1024x8_S1024x1_0_3)
    (col s 4 inb_S1024x8_S1024x1_0_4) (col s 5 inb_S1024x8_S1024x1_0_5) (col s 6 inb_S1024x8_S1024x1_0_6) (col s 7 inb_S1024x8_S1024x1_0_7)

end Cert.Kernel.KB

end
-- ==== Proof.BKDat.lean ====
/-
  The proof data of the kernel's one pipelined region.

  The 8 x 8 grid is run row by row: point t has row block i = t / 8 and column block j = t mod 8. The accumulator after
  point t (`accAt`) is `accNext` of the point's five input blocks and of what the point before left, or of zero when the
  point opens a grid row. The inputs' staging buffers hold their blocks at every point; the output's buffer, stored
  only at the last point of a grid row and written back there, holds `outOf` of the accumulator then.
-/
import proofs.«118719_j43404939493422_2_alg».proof.Proof.BKBody
import Idealize.ShloMosaic.Lib.Pipeline.Kit
import Idealize.ShloMosaic.Lib.Pipeline.Frame
import Idealize.ShloMosaic.Lib.Pipeline.Regions

noncomputable section

namespace Cert.Kernel.KB

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffers' contents when the region is entered: after the twenty host operations before it. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The accumulator after point n. -/
def accAt (c : Dev nD) : (n : ℕ) → n < cfg0.N → Vec F S1024x8 .f32
  | 0, hn => accNext (iblk m c 0 ⟨0, hn⟩) (iblk m c 1 ⟨0, hn⟩) (iblk m c 2 ⟨0, hn⟩) (iblk m c 3 ⟨0, hn⟩) (iblk m c 4 ⟨0, hn⟩) accZero
  | n + 1, hn => accNext (iblk m c 0 ⟨n + 1, hn⟩) (iblk m c 1 ⟨n + 1, hn⟩) (iblk m c 2 ⟨n + 1, hn⟩) (iblk m c 3 ⟨n + 1, hn⟩) (iblk m c 4 ⟨n + 1, hn⟩)
      (if (n + 1) % 8 = 0 then accZero else accAt c n (Nat.lt_of_succ_lt hn))

/-- The accumulator after a point, from the one before (at the first point of a grid row, from zero). -/
theorem accAt_eq (c : Dev nD) (t : Fin cfg0.N) :
    accAt m c t.val t.isLt = accNext (iblk m c 0 t) (iblk m c 1 t) (iblk m c 2 t) (iblk m c 3 t) (iblk m c 4 t)
      (if t.val % 8 = 0 then accZero else accAt m c (t.val - 1) (Nat.lt_of_le_of_lt (Nat.sub_le _ _) t.isLt)) := by
  obtain ⟨n, hn⟩ := t
  cases n with
  | zero => rfl
  | succ n => rfl

/-- The scratch accumulator as a memref. -/
abbrev scM : Memref sig .tc .vmem S1024x8 .f32 := Memref.whole cc0_scratch0

/-- The region's invariant before position n: the accumulator at anything before the first point, afterwards at what
    the point before left in it. -/
def PhiS (c : Dev nD) : (n : ℕ) → n ≤ cfg0.N → sProp 𝕄
  | 0, _ => iprop(∃ d, owns (c : Thread nD τ) scM fullShare d)
  | n + 1, hn => owns (c : Thread nD τ) scM fullShare (accAt m c n hn)

theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-- The proof data: the arrays as the region finds them; each input's buffer at its block; the output's at `outOf` of
    the accumulator; the two windows on one array each hold half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outOf (accAt m c t.val t.isLt)
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outOf (accAt m c t.val t.isLt) := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

end Cert.Kernel.KB

end
-- ==== Proof.BKRun.lean ====
/-
  The run of the kernel's program: twenty host operations, the pipelined region, five host operations.

  The two normalised inputs are each read by the region through TWO windows (row block i and row block j), so each of
  those arrays is held by its two windows half and half; the halves are put together again when the region is left.
-/
import proofs.«118719_j43404939493422_2_alg».proof.Proof.BKDat
import Idealize.ShloMosaic.Lib.Pipeline.FrameSuffix

noncomputable section

namespace Cert.Kernel.KB

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers' contents at launch, as a valuation. -/
abbrev Vin (c : Dev nD) : Valuation τ sig (Elt F) := fun b => m (c, b)

/-- What the region leaves in the output array. -/
def outArr (c : Dev nD) : Buf (Elt F) ((c : Thread nD τ).loc main_v16) := (dats m 0 c).arrAt 5 cfg0.N

/-- The buffers' contents when the region is left: as it found them, but for the output array. -/
def V1 (c : Dev nD) : Valuation τ sig (Elt F) := Function.update (V0 m c) (Proc.devRef .tc main_v16) (outArr m c)

/-- Each window's share of its array's buffer, spelled out. -/
theorem arrays_chain (c : Dev nD) (G : (w : Fin cfg0.W) → Buf (Elt F) ((cfg0.win w).arr.view.loc (c : Thread nD τ))) :
    ((dats m 0 c).arrays G : sProp 𝕄)
      = iprop((((c : Thread nD τ).loc main_v7) ↦{fullShare.left} G 0) ∗ (((c : Thread nD τ).loc main_v7) ↦{fullShare.right} G 1)
          ∗ (((c : Thread nD τ).loc main_v15) ↦{fullShare.left} G 2) ∗ (((c : Thread nD τ).loc main_v15) ↦{fullShare.right} G 3)
          ∗ (((c : Thread nD τ).loc main_arg2) ↦{fullShare} G 4) ∗ (((c : Thread nD τ).loc main_v16) ↦{fullShare} G 5)) := by
  unfold Dat.arrays
  rw [bigSep_W0]
  rw [(arr_whole0 0).set_eq_univ, (arr_whole0 2).set_eq_univ, (arr_whole0 4).set_eq_univ, (arr_whole0 5).set_eq_univ]
  rfl

/-- The four buffers behind the six windows, one by one. -/
theorem arrBufs_chain (c : Dev nD) (W : (b : Ref sig .tc) → Buf (Elt F) ((c : Thread nD τ).loc b)) :
    (Pipeline.arrBufs spec0 c W : sProp 𝕄)
      = iprop((((c : Thread nD τ).loc main_v7) ↦{fullShare} W main_v7) ∗ (((c : Thread nD τ).loc main_v15) ↦{fullShare} W main_v15)
          ∗ (((c : Thread nD τ).loc main_arg2) ↦{fullShare} W main_arg2) ∗ (((c : Thread nD τ).loc main_v16) ↦{fullShare} W main_v16)) := by
  unfold Pipeline.arrBufs
  exact bigSep_eq_bigSepL_of_eq [main_v7, main_v15, main_arg2, main_v16] (by decide) (by decide) _

/-- Entering the region: each normalised input's buffer is halved between its two windows. -/
theorem enter (c : Dev nD) :
    (Pipeline.arrBufs spec0 c (V m c) : sProp 𝕄) ⊢ (dats m 0 c).arrays ((dats m 0 c).arrAt · 0) := by
  rw [arrBufs_chain, arrays_chain]
  iintro ⟨H7, H15, H2, H16⟩
  ihave H7 := (pointsTo_share (PosShare.mem_left_op_right fullShare)).1 $$ H7
  icases H7 with ⟨H7a, H7b⟩
  ihave H15 := (pointsTo_share (PosShare.mem_left_op_right fullShare)).1 $$ H15
  icases H15 with ⟨H15a, H15b⟩
  isplitl [H7a]; · iexact H7a
  isplitl [H7b]; · iexact H7b
  isplitl [H15a]; · iexact H15a
  isplitl [H15b]; · iexact H15b
  isplitl [H2]; · iexact H2
  iexact H16

/-- Leaving it: the halves are joined; the inputs' arrays are as the region found them. -/
theorem leave (c : Dev nD) :
    ((dats m 0 c).arrays ((dats m 0 c).arrAt · cfg0.N) : sProp 𝕄)
      ⊢ iprop((((c : Thread nD τ).loc main_v7) ↦{fullShare} V m c main_v7) ∗ (((c : Thread nD τ).loc main_v15) ↦{fullShare} V m c main_v15)
          ∗ (((c : Thread nD τ).loc main_arg2) ↦{fullShare} V m c main_arg2) ∗ (((c : Thread nD τ).loc main_v16) ↦{fullShare} outArr m c)) := by
  rw [arrays_chain]
  rw [(dats m 0 c).arrAt_in 0 rfl, (dats m 0 c).arrAt_in 1 rfl, (dats m 0 c).arrAt_in 2 rfl, (dats m 0 c).arrAt_in 3 rfl, (dats m 0 c).arrAt_in 4 rfl]
  iintro ⟨H7a, H7b, H15a, H15b, H2, H16⟩
  isplitl [H7a H7b]
  · iapply (pointsTo_share (PosShare.mem_left_op_right fullShare)).2
    isplitl [H7a]; · iexact H7a
    iexact H7b
  isplitl [H15a H15b]
  · iapply (pointsTo_share (PosShare.mem_left_op_right fullShare)).2
    isplitl [H15a]; · iexact H15a
    iexact H15b
  isplitl [H2]; · iexact H2
  iexact H16

/-! ## The segments of the program and the launch -/

abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
/-- No table is prefetched. -/
abbrev adm : (p : Fin 1) → (pcfgs (F := F) p).Adm := fun p => (cfgs p).toPCfg_adm
/-- What rides beside the buffers through the host operations: the core owes nothing. -/
abbrev R (c : Dev nD) : sProp 𝕄 := iprop(∃ W, owes (c : Thread nD τ) (0 : CellTallies nD τ sig Unit) W)

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- The twenty host operations before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) hostOps0_fresh (Vin m) R

/-- The five after it. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) hostOps1_fresh (V1 m) R

theorem V1_out (c : Dev nD) : V1 m c (Proc.devRef .tc main_v16) = outArr m c := Function.update_self _ _ _
theorem V1_of_ne (c : Dev nD) (b : DevRef τ sig) (h : b ≠ Proc.devRef .tc main_v16) : V1 m c b = V0 m c b :=
  Function.update_of_ne h _ _

/-- The buffers no window reads or writes are untouched by the region. -/
theorem rest_V1 (c : Dev nD) :
    (Pipeline.unscopedRest spec0 c (fun b => V1 m c (Proc.devRef .tc b)) : sProp 𝕄) = Pipeline.unscopedRest spec0 c (V m c) := by
  unfold Pipeline.unscopedRest
  refine bigSep_congr fun b hb => ?_
  beta_reduce
  rw [V1_of_ne m c _ (StableHlo.devRef_ne_of_ne fun e => (Finset.mem_sdiff.mp hb).2 (Finset.mem_image.mpr ⟨5, Finset.mem_univ _, e.symm⟩))]

set_option backward.isDefEq.respectTransparency.types false in
/-- The region: entered from what the first host operations left, the four arrays into the pipeline (the shared ones
    halved), the scratch accumulator into the invariant, every other buffer bypassing; left with the output array at
    what the pipeline wrote back and everything else as found. -/
def reg0 (hbody : ∀ c, BodyObligation (dats m 0 c) (defs₀ (F := F)) 𝒱₀ () Set.univ) :
    Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (hbody c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m c) ∗ R c)
  X _ := iprop(emp)
  Y _ := iprop(emp)
  Z c := Pipeline.unscopedRest spec0 c (V m c)
  hentry c := by
    rw [show StableHlo.held (c : Thread nD τ) (Pipeline.ucRefs τ sig) (V0 m c) = unscopedBufs c (V m c) from (Pipeline.unscopedBufs_held c _).symm,
      Pipeline.ownSems0_none, Pipeline.unscopedBufs_split₀ cfgs 0 winFacts₀0.arr_unscoped c (V m c)]
    iintro ⟨⟨⟨Hab, Hur⟩, HO⟩, -, -⟩
    ihave Ha := (enter m c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hur
  hin c := by
    refine (show _ ⊢ (Pipeline.scopedRest (Ix := Unit) (Name := ℕ) (U := UR sig nD τ) (Lvl := ℕ) (Val := Elt F) spec0 c : sProp 𝕄) from by
      iintro ⟨-, -, Hr⟩; iexact Hr).trans ?_
    rw [scopedRest0_eq, show (dats m 0 c).Φ 0 = iprop(∃ d, owns (c : Thread nD τ) scM fullShare d) from rfl]
    simp only [scM, owns_whole]
    exact .rfl
  hout c := by
    rw [Pipeline.ownSems0_none, show (dats m 0 c).Φ (Fin.last cfg0.N) = PhiS m c cfg0.N (le_refl _) from rfl,
      PhiS_pos m c _ _ (by rw [show cfg0.N = 64 from N_0]; decide), scopedRest0_eq]
    simp only [scM, owns_whole]
    iintro H
    isplitr; · iempintro
    isplitr; · iempintro
    iexists _; iexact H
  hexit c := by
    iintro ⟨Ha, HO, -, HZ⟩
    ihave Hb := (leave m c) $$ Ha
    imodintro
    isplitr [HO]
    · rw [show StableHlo.held (c : Thread nD τ) (Pipeline.ucRefs τ sig) (V1 m c) = unscopedBufs c (fun b => V1 m c (Proc.devRef .tc b)) from (Pipeline.unscopedBufs_held c _).symm,
        Pipeline.unscopedBufs_split₀ cfgs 0 winFacts₀0.arr_unscoped c _, arrBufs_chain, rest_V1,
        V1_out, V1_of_ne m c _ (StableHlo.devRef_ne_of_ne (by decide : main_v7 ≠ main_v16)),
        V1_of_ne m c _ (StableHlo.devRef_ne_of_ne (by decide : main_v15 ≠ main_v16)),
        V1_of_ne m c _ (StableHlo.devRef_ne_of_ne (by decide : main_arg2 ≠ main_v16))]
      isplitl [Hb]; · iexact Hb
      iexact HZ
    · unfold Pipeline.Dat.owesAt Pipeline.owesWithin
      icases HO with ⟨%W, -, HO⟩; iexists W; iexact HO

/-- @main as the list of the three segments. -/
abbrev segs (hbody : ∀ c, BodyObligation (dats m 0 c) (defs₀ (F := F)) 𝒱₀ () Set.univ) :
    List (Pipeline.Seg (pcfgs (F := F)) adm (dats m) () defs₀ 𝒱₀ L lv) :=
  [.host (seg0 m), .region (reg0 m hbody), .host (seg1 m)]

/-- The buffers' contents at the end: the five last host operations run from what the region left. -/
abbrev Vfin (c : Dev nD) : Valuation τ sig (Elt F) := StableHlo.after hostOps1 (V1 m c)

set_option backward.isDefEq.respectTransparency.types false in
/-- From any memory with zero counters every weakly fair execution of the program terminates, faulting nowhere, and
    every unscoped buffer ends at `Vfin`. -/
theorem run_main (hbody : ∀ c, BodyObligation (dats m 0 c) (defs₀ (F := F)) 𝒱₀ () Set.univ) :
    θ_run defs (onTc (τ := τ) (main (F := F))) ⟨m, fun _ => 0, ρ⟩
      (fun r => ∀ c : Dev nD, ∀ b ∈ Pipeline.ucRefs τ sig, r.2.mem ((c : Thread nD τ).1, b) = Vfin m c b) :=
  Pipeline.θ_run_regions_kit (pcfgs (F := F)) adm (dats m) () cellOf_inj EP defs₀ 𝒱₀ L lv m ρ main (segs m hbody)
    (fun c Q => by rw [main_segs adm (dats m) () 𝒱₀ L lv (seg0 m) (seg1 m) (reg0 m hbody) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vin m c) ∗ R c))
    (Tₙ := fun c => StableHlo.held (c : Thread nD τ) (Pipeline.ucRefs τ sig) (Vfin m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Vin m c) from Pipeline.unscopedBufs_held c (Vin m c)]
      iintro ⟨⟨Hh, -, HO, -, -, -⟩, -⟩
      imodintro
      isplitl [Hh]; · iexact Hh
      iexists ∅; iexact HO)
    (QY := fun c s => ∀ b ∈ Pipeline.ucRefs τ sig, s.mem ((c : Thread nD τ).1, b) = Vfin m c b)
    (hfin := fun c s' => by
      iintro ⟨Ha, HSI⟩
      unfold StableHlo.held
      ihave Hr := (pointsTo_read_all (Pipeline.ucRefs τ sig) (fun b => ((c : Thread nD τ).1, b)) (Vfin m c) s') $$ [Ha HSI]
      · isplitl [Ha] <;> iassumption
      icases Hr with ⟨%ha, HSI⟩
      imodintro
      isplitr; · ipureintro; exact ha
      iexact HSI)
    (hQ := fun _ h => h)

end Cert.Kernel.KB

end
-- ==== Proof.BKBodyRunA.lean ====
/-
  The kernel body's run at one grid point, part 1: what a buffer holds after a store of the whole buffer, and the two
  cases in which the point is the first of its grid row (the accumulator is set to zero before it is added into).

  Every store in the body is of a whole buffer at offset zero, so a buffer's contents after the body are the payload of
  its last store, and a load of column k of the accumulator after its last store reads that payload's column k.
-/
import proofs.«118719_j43404939493422_2_alg».proof.Proof.BKBody
import Idealize.ShloMosaic.Lib.Pipeline.Kit
import Idealize.ShloMosaic.Lib.Exec
import Idealize.ShloMosaic.Lib.Tactic
import Idealize.ShloMosaic.Lib.Pipeline.Value

noncomputable section

namespace Cert.Kernel.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Both offsets zero, in the spelling the stores and loads of whole buffers use. -/
theorem hz2 : (![0, 0] : Fin 2 → Nat) = fun _ => 0 := funext fun a => by fin_cases a <;> rfl

section views
variable {Val : EltTy → Type} [∀ e, Nonempty (Val e)] {sig' : RefSig} {κ' : Kind} {sp' : Space} {e' : EltTy}

/-- A buffer whose last store was of the whole buffer reads as that store's payload. -/
theorem read_writes_whole (S : Shape) (v : View sig' κ' sp' S e') (f : v.ty.Contents Val) {off : Fin S.rank → Nat}
    (h : off = fun _ => 0) (inb : ∀ a, off a + S.size a ≤ S.size a) (w : S.Idx → Val e') (L : List (View.Piece Val S e')) :
    v.read Val (v.writes Val f ((⟨Rect.unit off S.size inb, w⟩ : View.Piece Val S e') :: L)) = w := by
  rw [View.read_writes_eq_canon v f _ (fun y => ⟨_, List.mem_cons_self, View.mem_set_unit_zero h inb y⟩),
    View.canon_cons_unit_zero h inb w L]

/-- A load, through any rectangle, of a buffer whose last store was of the whole buffer reads that store's payload there. -/
theorem readCov_whole (S : Shape) (v : View sig' κ' sp' S e') {off : Fin S.rank → Nat}
    (h : off = fun _ => 0) (inb : ∀ a, off a + S.size a ≤ S.size a) (w : S.Idx → Val e') (L : List (View.Piece Val S e')) (r : Rect S) :
    v.readCov ((⟨Rect.unit off S.size inb, w⟩ : View.Piece Val S e') :: L) r.toLoadRect = View.ld w r := by
  rw [View.readCov_eq_canon_ld v _ r (fun y => ⟨_, List.mem_cons_self, View.mem_set_unit_zero h inb y⟩),
    View.canon_cons_unit_zero h inb w L]

end views

open Classical in
/-- The body at a point that is both the first and the last of its grid row: the accumulator is set to zero, added into, and the output block is computed from it. -/
theorem body_run_first_last (c : Dev nD) (i : grid0.Coords) (hI : condInit i) (hL : condLast i)
    (arg2 : Memref sig .tc .vmem S1024x64 .f32) (harg2 : arg2.IsWhole) (arg3 : Memref sig .tc .vmem S1024x64 .f32) (harg3 : arg3.IsWhole)
    (arg4 : Memref sig .tc .vmem S1024x64 .f32) (harg4 : arg4.IsWhole) (arg5 : Memref sig .tc .vmem S1024x64 .f32) (harg5 : arg5.IsWhole)
    (arg6 : Memref sig .tc .vmem S1024x1024 .f32) (harg6 : arg6.IsWhole) (arg7 : Memref sig .tc .vmem S1024x1 .f32) (harg7 : arg7.IsWhole)
    (arg8 : Memref sig .tc .vmem S1024x8 .f32) (harg8 : arg8.IsWhole)
    (x0 x1 x2 x3 : Vec F S1024x64 .f32) (x4 : Vec F S1024x1024 .f32) (o : Vec F S1024x1 .f32) (s : Vec F S1024x8 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare o
        ∗ owns (c : Thread nD τ) arg8 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (if condLast i then outOf (accNext x0 x1 x2 x3 x4 (if condInit i then accZero else s)) else o)
            ∗ owns (c : Thread nD τ) arg8 fullShare (accNext x0 x1 x2 x3 x4 (if condInit i then accZero else s))) -∗ K ⟨⟩))
      ⊢ wp frame (wpE (defs₀ (F := F)) Variants.none c none) E
          (cc0__contrast_kernel i arg2 harg2 arg3 harg3 arg4 harg4 arg5 harg5 arg6 harg6 arg7 harg7 arg8 harg8) K := by
  rw [if_pos hI, if_pos hL]
  simp only [cc0__contrast_kernel_eq_skeleton]; unfold cc0__contrast_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5; obtain rfl := harg8.eq_unread hf6
  sl_exec (disch := first | exact hI | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    sl_unfold_run_names
    simp only [View.readAt_eq_ld, Memref.IsWhole.read_unread, View.ld_unit_zero (S := S1024x64) hz2, View.ld_unit_zero (S := S1024x1024) hz2, View.ld_unit_zero (S := S1024x8) hz2, View.readCov_unit_zero (S := S1024x8) _ hz2, readCov_whole S1024x8 _ hz2]
    rw [read_writes_whole S1024x1 _ _ hz2]
    rfl
  · iexists _; isplitr
    swap; · iexact H6
    ipureintro
    sl_unfold_run_names
    simp only [View.readAt_eq_ld, Memref.IsWhole.read_unread, View.ld_unit_zero (S := S1024x64) hz2, View.ld_unit_zero (S := S1024x1024) hz2, View.ld_unit_zero (S := S1024x8) hz2, View.readCov_unit_zero (S := S1024x8) _ hz2]
    rw [read_writes_whole S1024x8 _ _ hz2]
    rfl

open Classical in
/-- The body at the first point of a grid row that is not its last: the accumulator is set to zero and added into; the output's buffer is left as found. -/
theorem body_run_first (c : Dev nD) (i : grid0.Coords) (hI : condInit i) (hL : ¬condLast i)
    (arg2 : Memref sig .tc .vmem S1024x64 .f32) (harg2 : arg2.IsWhole) (arg3 : Memref sig .tc .vmem S1024x64 .f32) (harg3 : arg3.IsWhole)
    (arg4 : Memref sig .tc .vmem S1024x64 .f32) (harg4 : arg4.IsWhole) (arg5 : Memref sig .tc .vmem S1024x64 .f32) (harg5 : arg5.IsWhole)
    (arg6 : Memref sig .tc .vmem S1024x1024 .f32) (harg6 : arg6.IsWhole) (arg7 : Memref sig .tc .vmem S1024x1 .f32) (harg7 : arg7.IsWhole)
    (arg8 : Memref sig .tc .vmem S1024x8 .f32) (harg8 : arg8.IsWhole)
    (x0 x1 x2 x3 : Vec F S1024x64 .f32) (x4 : Vec F S1024x1024 .f32) (o : Vec F S1024x1 .f32) (s : Vec F S1024x8 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare o
        ∗ owns (c : Thread nD τ) arg8 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (if condLast i then outOf (accNext x0 x1 x2 x3 x4 (if condInit i then accZero else s)) else o)
            ∗ owns (c : Thread nD τ) arg8 fullShare (accNext x0 x1 x2 x3 x4 (if condInit i then accZero else s))) -∗ K ⟨⟩))
      ⊢ wp frame (wpE (defs₀ (F := F)) Variants.none c none) E
          (cc0__contrast_kernel i arg2 harg2 arg3 harg3 arg4 harg4 arg5 harg5 arg6 harg6 arg7 harg7 arg8 harg8) K := by
  rw [if_pos hI, if_neg hL]
  simp only [cc0__contrast_kernel_eq_skeleton]; unfold cc0__contrast_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5; obtain rfl := harg8.eq_unread hf6
  sl_exec (disch := first | exact hI | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    exact harg7.read_unread _
  · iexists _; isplitr
    swap; · iexact H6
    ipureintro
    sl_unfold_run_names
    simp only [View.readAt_eq_ld, Memref.IsWhole.read_unread, View.ld_unit_zero (S := S1024x64) hz2, View.ld_unit_zero (S := S1024x1024) hz2, View.ld_unit_zero (S := S1024x8) hz2, View.readCov_unit_zero (S := S1024x8) _ hz2]
    rw [read_writes_whole S1024x8 _ _ hz2]
    rfl

end Cert.Kernel.KB

end
-- ==== Proof.BKBodyRun.lean ====
/-
  The kernel body's run at one grid point, part 2: the two cases in which the point is not the first of its grid row
  (the accumulator is added into as found), and the four cases together: on whole buffers holding x0 .. x4, o and s the
  body leaves the inputs as found, the accumulator at accNext of what it held (of zero at the first point of a grid
  row) and the output's buffer at outOf of the new accumulator at the last point of a grid row, as found elsewhere.
-/
import proofs.«118719_j43404939493422_2_alg».proof.Proof.BKBodyRunA
import Idealize.ShloMosaic.Lib.Pipeline.Kit
import Idealize.ShloMosaic.Lib.Exec
import Idealize.ShloMosaic.Lib.Tactic
import Idealize.ShloMosaic.Lib.Pipeline.Value

noncomputable section

namespace Cert.Kernel.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Classical in
/-- The body at the last point of a grid row that is not its first: the accumulator is added into and the output block is computed from it. -/
theorem body_run_last (c : Dev nD) (i : grid0.Coords) (hI : ¬condInit i) (hL : condLast i)
    (arg2 : Memref sig .tc .vmem S1024x64 .f32) (harg2 : arg2.IsWhole) (arg3 : Memref sig .tc .vmem S1024x64 .f32) (harg3 : arg3.IsWhole)
    (arg4 : Memref sig .tc .vmem S1024x64 .f32) (harg4 : arg4.IsWhole) (arg5 : Memref sig .tc .vmem S1024x64 .f32) (harg5 : arg5.IsWhole)
    (arg6 : Memref sig .tc .vmem S1024x1024 .f32) (harg6 : arg6.IsWhole) (arg7 : Memref sig .tc .vmem S1024x1 .f32) (harg7 : arg7.IsWhole)
    (arg8 : Memref sig .tc .vmem S1024x8 .f32) (harg8 : arg8.IsWhole)
    (x0 x1 x2 x3 : Vec F S1024x64 .f32) (x4 : Vec F S1024x1024 .f32) (o : Vec F S1024x1 .f32) (s : Vec F S1024x8 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare o
        ∗ owns (c : Thread nD τ) arg8 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (if condLast i then outOf (accNext x0 x1 x2 x3 x4 (if condInit i then accZero else s)) else o)
            ∗ owns (c : Thread nD τ) arg8 fullShare (accNext x0 x1 x2 x3 x4 (if condInit i then accZero else s))) -∗ K ⟨⟩))
      ⊢ wp frame (wpE (defs₀ (F := F)) Variants.none c none) E
          (cc0__contrast_kernel i arg2 harg2 arg3 harg3 arg4 harg4 arg5 harg5 arg6 harg6 arg7 harg7 arg8 harg8) K := by
  rw [if_neg hI, if_pos hL]
  simp only [cc0__contrast_kernel_eq_skeleton]; unfold cc0__contrast_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5; obtain rfl := harg8.eq_unread hf6
  sl_exec (disch := first | exact hI | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    sl_unfold_run_names
    simp only [View.readAt_eq_ld, Memref.IsWhole.read_unread, View.ld_unit_zero (S := S1024x64) hz2, View.ld_unit_zero (S := S1024x1024) hz2, View.ld_unit_zero (S := S1024x8) hz2, View.readCov_unit_zero (S := S1024x8) _ hz2, readCov_whole S1024x8 _ hz2]
    rw [read_writes_whole S1024x1 _ _ hz2]
    rfl
  · iexists _; isplitr
    swap; · iexact H6
    ipureintro
    sl_unfold_run_names
    simp only [View.readAt_eq_ld, Memref.IsWhole.read_unread, View.ld_unit_zero (S := S1024x64) hz2, View.ld_unit_zero (S := S1024x1024) hz2, View.ld_unit_zero (S := S1024x8) hz2, View.readCov_unit_zero (S := S1024x8) _ hz2]
    rw [read_writes_whole S1024x8 _ _ hz2]
    rfl

open Classical in
/-- The body at a point that is neither the first nor the last of its grid row: the accumulator is added into; the output's buffer is left as found. -/
theorem body_run_mid (c : Dev nD) (i : grid0.Coords) (hI : ¬condInit i) (hL : ¬condLast i)
    (arg2 : Memref sig .tc .vmem S1024x64 .f32) (harg2 : arg2.IsWhole) (arg3 : Memref sig .tc .vmem S1024x64 .f32) (harg3 : arg3.IsWhole)
    (arg4 : Memref sig .tc .vmem S1024x64 .f32) (harg4 : arg4.IsWhole) (arg5 : Memref sig .tc .vmem S1024x64 .f32) (harg5 : arg5.IsWhole)
    (arg6 : Memref sig .tc .vmem S1024x1024 .f32) (harg6 : arg6.IsWhole) (arg7 : Memref sig .tc .vmem S1024x1 .f32) (harg7 : arg7.IsWhole)
    (arg8 : Memref sig .tc .vmem S1024x8 .f32) (harg8 : arg8.IsWhole)
    (x0 x1 x2 x3 : Vec F S1024x64 .f32) (x4 : Vec F S1024x1024 .f32) (o : Vec F S1024x1 .f32) (s : Vec F S1024x8 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare o
        ∗ owns (c : Thread nD τ) arg8 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (if condLast i then outOf (accNext x0 x1 x2 x3 x4 (if condInit i then accZero else s)) else o)
            ∗ owns (c : Thread nD τ) arg8 fullShare (accNext x0 x1 x2 x3 x4 (if condInit i then accZero else s))) -∗ K ⟨⟩))
      ⊢ wp frame (wpE (defs₀ (F := F)) Variants.none c none) E
          (cc0__contrast_kernel i arg2 harg2 arg3 harg3 arg4 harg4 arg5 harg5 arg6 harg6 arg7 harg7 arg8 harg8) K := by
  rw [if_neg hI, if_neg hL]
  simp only [cc0__contrast_kernel_eq_skeleton]; unfold cc0__contrast_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5; obtain rfl := harg8.eq_unread hf6
  sl_exec (disch := first | exact hI | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    exact harg7.read_unread _
  · iexists _; isplitr
    swap; · iexact H6
    ipureintro
    sl_unfold_run_names
    simp only [View.readAt_eq_ld, Memref.IsWhole.read_unread, View.ld_unit_zero (S := S1024x64) hz2, View.ld_unit_zero (S := S1024x1024) hz2, View.ld_unit_zero (S := S1024x8) hz2, View.readCov_unit_zero (S := S1024x8) _ hz2]
    rw [read_writes_whole S1024x8 _ _ hz2]
    rfl

open Classical in
/-- The body at one grid point, on whole staging buffers: the inputs' buffers come back as found; the accumulator
    ends at `accNext` of what it held (of zero, at the first point of a grid row); the output's buffer is overwritten
    with `outOf` of the new accumulator at the last point of a grid row and left as found elsewhere. -/
theorem body_run (c : Dev nD) (i : grid0.Coords)
    (arg2 : Memref sig .tc .vmem S1024x64 .f32) (harg2 : arg2.IsWhole) (arg3 : Memref sig .tc .vmem S1024x64 .f32) (harg3 : arg3.IsWhole)
    (arg4 : Memref sig .tc .vmem S1024x64 .f32) (harg4 : arg4.IsWhole) (arg5 : Memref sig .tc .vmem S1024x64 .f32) (harg5 : arg5.IsWhole)
    (arg6 : Memref sig .tc .vmem S1024x1024 .f32) (harg6 : arg6.IsWhole) (arg7 : Memref sig .tc .vmem S1024x1 .f32) (harg7 : arg7.IsWhole)
    (arg8 : Memref sig .tc .vmem S1024x8 .f32) (harg8 : arg8.IsWhole)
    (x0 x1 x2 x3 : Vec F S1024x64 .f32) (x4 : Vec F S1024x1024 .f32) (o : Vec F S1024x1 .f32) (s : Vec F S1024x8 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare o
        ∗ owns (c : Thread nD τ) arg8 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (if condLast i then outOf (accNext x0 x1 x2 x3 x4 (if condInit i then accZero else s)) else o)
            ∗ owns (c : Thread nD τ) arg8 fullShare (accNext x0 x1 x2 x3 x4 (if condInit i then accZero else s))) -∗ K ⟨⟩))
      ⊢ wp frame (wpE (defs₀ (F := F)) Variants.none c none) E
          (cc0__contrast_kernel i arg2 harg2 arg3 harg3 arg4 harg4 arg5 harg5 arg6 harg6 arg7 harg7 arg8 harg8) K := by
  by_cases hI : condInit i <;> by_cases hL : condLast i
  · exact body_run_first_last c i hI hL arg2 harg2 arg3 harg3 arg4 harg4 arg5 harg5 arg6 harg6 arg7 harg7 arg8 harg8 x0 x1 x2 x3 x4 o s E K
  · exact body_run_first c i hI hL arg2 harg2 arg3 harg3 arg4 harg4 arg5 harg5 arg6 harg6 arg7 harg7 arg8 harg8 x0 x1 x2 x3 x4 o s E K
  · exact body_run_last c i hI hL arg2 harg2 arg3 harg3 arg4 harg4 arg5 harg5 arg6 harg6 arg7 harg7 arg8 harg8 x0 x1 x2 x3 x4 o s E K
  · exact body_run_mid c i hI hL arg2 harg2 arg3 harg3 arg4 harg4 arg5 harg5 arg6 harg6 arg7 harg7 arg8 harg8 x0 x1 x2 x3 x4 o s E K

end Cert.Kernel.KB

end
-- ==== Proof.BKOblig.lean ====
/-
  The body obligation of the pipelined region: at every grid point the body, run on the windows' current staging
  buffers and the accumulator as the point before left it, leaves the inputs' buffers as found, the accumulator at the
  next partial sums, and the output's buffer stored at the last point of a grid row and untouched elsewhere.
-/
import proofs.«118719_j43404939493422_2_alg».proof.Proof.BKDat
import proofs.«118719_j43404939493422_2_alg».proof.Proof.BKBodyRun

noncomputable section

namespace Cert.Kernel.KB

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The output window is idle (the body stores nothing into it) away from the last point of a grid row, -/
theorem idleAt5 : ∀ t : Fin cfg0.N, ¬ t.val % 8 = 7 → cfg0.idle 5 (grid0.coords t) = true :=
  (by decide +kernel : ∀ t : Fin grid0.N, ¬ t.val % 8 = 7 → idle0 5 (grid0.coords t) = true)
/-- live there, -/
theorem liveAt5 : ∀ t : Fin cfg0.N, t.val % 8 = 7 → cfg0.idle 5 (grid0.coords t) = false :=
  (by decide +kernel : ∀ t : Fin grid0.N, t.val % 8 = 7 → idle0 5 (grid0.coords t) = false)
/-- and written back only there. -/
theorem noFlush5 (t : Fin cfg0.N) (h : ¬ t.val % 8 = 7) : (cfg0.win 5).flush t = false := by
  cases hf : (cfg0.win 5).flush t with
  | false => rfl
  | true => exact absurd ((flush0_5 t).mp hf) h

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves_in0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after0]
theorem leaves_in1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after1]
theorem leaves_in2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after2]
theorem leaves_in3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after3]
theorem leaves_in4 (c : Dev nD) (t : Fin cfg0.N) : (dats m 0 c).leavesExact 4 t = owns (c : Thread nD τ) (st0_4 t) fullShare (iblk m c 4 t) := by
  unfold Dat.leavesExact; rw [show cfg0.idle 4 (grid0.coords t) = false from rfl, after4]
theorem leaves_out_live (c : Dev nD) (t : Fin cfg0.N) (h : t.val % 8 = 7) :
    (dats m 0 c).leavesExact 5 t = owns (c : Thread nD τ) (st0_5 t) fullShare (outOf (accAt m c t.val t.isLt)) := by
  unfold Dat.leavesExact; rw [liveAt5 t h, after5]
theorem leaves_out_idle (c : Dev nD) (t : Fin cfg0.N) (h : ¬ t.val % 8 = 7) :
    (dats m 0 c).leavesExact 5 t = iprop(∃ d, owns (c : Thread nD τ) (st0_5 t) fullShare ((dats m 0 c).before 5 t d)) :=
  Dat.leavesExact_idle (dats m 0 c) 5 t (idleAt5 t h) (noFlush5 t h)

/-- The invariant at a point's start, restated at the point's number. -/
theorem Phi_castSucc (c : Dev nD) (t : Fin cfg0.N) : (dats m 0 c).Φ t.castSucc = PhiS m c t.val (Nat.le_of_lt t.isLt) := by
  dsimp only [dats]; simp only [Fin.coe_castSucc]

theorem PhiS_zero (c : Dev nD) (n : ℕ) (h : n ≤ cfg0.N) (hz : n = 0) :
    PhiS m c n h = iprop(∃ d, owns (c : Thread nD τ) scM fullShare d) := by
  subst hz; rfl

/-- The body at point t on the windows' current staging buffers, the inputs' at their blocks, the output's at anything
    (`o`), the accumulator at anything (`s`): the conditions read off the point's number. -/
theorem point_run (c : Dev nD) (t : Fin cfg0.N) (s : Vec F S1024x8 .f32) (o : Vec F S1024x1 .f32) (K : PUnit → sProp 𝕄) :
    iprop(owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare (iblk m c 4 t) ∗ owns (c : Thread nD τ) (st0_5 t) fullShare o
        ∗ owns (c : Thread nD τ) scM fullShare s
        ∗ (iprop(owns (c : Thread nD τ) (st0_0 t) fullShare (iblk m c 0 t) ∗ owns (c : Thread nD τ) (st0_1 t) fullShare (iblk m c 1 t)
            ∗ owns (c : Thread nD τ) (st0_2 t) fullShare (iblk m c 2 t) ∗ owns (c : Thread nD τ) (st0_3 t) fullShare (iblk m c 3 t)
            ∗ owns (c : Thread nD τ) (st0_4 t) fullShare (iblk m c 4 t)
            ∗ owns (c : Thread nD τ) (st0_5 t) fullShare
                (if t.val % 8 = 7 then outOf (accNext (iblk m c 0 t) (iblk m c 1 t) (iblk m c 2 t) (iblk m c 3 t) (iblk m c 4 t) (if t.val % 8 = 0 then accZero else s)) else o)
            ∗ owns (c : Thread nD τ) scM fullShare
                (accNext (iblk m c 0 t) (iblk m c 1 t) (iblk m c 2 t) (iblk m c 3 t) (iblk m c 4 t) (if t.val % 8 = 0 then accZero else s))) -∗ K ⟨⟩))
      ⊢ wp frame (wpE (defs₀ (F := F)) Variants.none c none) Set.univ (bodyAt0 t) K := by
  have h := body_run (F := F) c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4))
    (win0_5.stage (cfg0.slots t 5)) (hstage0_5 ((cfg0.slots t 5).cast nbuf0_5)) (Memref.whole cc0_scratch0) (Memref.isWhole_whole _)
    (iblk m c 0 t) (iblk m c 1 t) (iblk m c 2 t) (iblk m c 3 t) (iblk m c 4 t) o s Set.univ K
  by_cases h0 : t.val % 8 = 0
  · have h7 : ¬ t.val % 8 = 7 := by omega
    rw [if_pos ((hcondInit t).mpr h0), if_neg (fun hc => h7 ((hcondLast t).mp hc))] at h
    rw [if_pos h0, if_neg h7]
    exact h
  · by_cases h7 : t.val % 8 = 7
    · rw [if_neg (fun hc => h0 ((hcondInit t).mp hc)), if_pos ((hcondLast t).mpr h7)] at h
      rw [if_neg h0, if_pos h7]
      exact h
    · rw [if_neg (fun hc => h0 ((hcondInit t).mp hc)), if_neg (fun hc => h7 ((hcondLast t).mp hc))] at h
      rw [if_neg h0, if_neg h7]
      exact h

/-- The body obligation at point t: the accumulator is handed over at what the point before left (at anything before
    the first point), the output's buffer at what it holds, and both come back as the proof data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4]
  rw [show (dats m 0 c).owesAt () t.succ = (dats m 0 c).owesAt () t.castSucc from rfl,
    show (dats m 0 c).Φ t.succ = owns (c : Thread nD τ) scM fullShare (accAt m c t.val t.isLt) from rfl,
    leaves_in0, leaves_in1, leaves_in2, leaves_in3, leaves_in4, Phi_castSucc]
  by_cases h7 : t.val % 8 = 7
  · have h0 : ¬ t.val % 8 = 0 := by omega
    have hz : t.val ≠ 0 := by omega
    rw [leaves_out_live m c t h7, accAt_eq, if_neg h0, PhiS_pos m c _ _ hz]
    iintro ⟨HS, Ho, ⟨%d0, H0⟩, ⟨%d1, H1⟩, ⟨%d2, H2⟩, ⟨%d3, H3⟩, ⟨%d4, H4⟩, ⟨%d5, H5⟩⟩
    iapply (point_run m c t (accAt m c (t.val - 1) (Nat.lt_of_le_of_lt (Nat.sub_le _ _) t.isLt)) ((dats m 0 c).before 5 t d5) _)
    rw [if_pos h7, if_neg h0]
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    iexact H5
  · rw [leaves_out_idle m c t h7, accAt_eq]
    by_cases hz : t.val = 0
    · have h0 : t.val % 8 = 0 := by omega
      rw [if_pos h0, PhiS_zero m c _ _ hz]
      iintro ⟨⟨%ds, HS⟩, Ho, ⟨%d0, H0⟩, ⟨%d1, H1⟩, ⟨%d2, H2⟩, ⟨%d3, H3⟩, ⟨%d4, H4⟩, ⟨%d5, H5⟩⟩
      iapply (point_run m c t ds ((dats m 0 c).before 5 t d5) _)
      rw [if_neg h7, if_pos h0]
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_pos m c _ _ hz]
      iintro ⟨HS, Ho, ⟨%d0, H0⟩, ⟨%d1, H1⟩, ⟨%d2, H2⟩, ⟨%d3, H3⟩, ⟨%d4, H4⟩, ⟨%d5, H5⟩⟩
      iapply (point_run m c t (accAt m c (t.val - 1) (Nat.lt_of_le_of_lt (Nat.sub_le _ _) t.isLt)) ((dats m 0 c).before 5 t d5) _)
      rw [if_neg h7]
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.KB

end
-- ==== Proof.BKFrame.lean ====
/-
  What the run of the kernel's program leaves: the result buffer at the five last host operations' value of the
  region's output array, and the three argument arrays as they were (no operation and no window writes them).
-/
import proofs.«118719_j43404939493422_2_alg».proof.Proof.BKRun
import proofs.«118719_j43404939493422_2_alg».proof.Proof.BKOblig

noncomputable section

namespace Cert.Kernel.KB

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- No host operation before the region writes an argument array, -/
theorem not_written0 (b : Ref sig .tc) (hb : b = main_arg0 ∨ b = main_arg1 ∨ b = main_arg2) :
    ∀ op ∈ (hostOps0 : List (HloOp τ sig (Elt F))), Proc.devRef .tc b ∉ op.writes := by
  intro op hop
  simp only [List.mem_cons, List.mem_nil_iff, or_false] at hop
  rcases hb with rfl | rfl | rfl <;>
  rcases hop with rfl | rfl | rfl | rfl | rfl | rfl | rfl | rfl | rfl | rfl | rfl | rfl | rfl | rfl | rfl | rfl | rfl | rfl | rfl | rfl <;>
    simp only [StableHlo.unary_writes, StableHlo.binary_writes, StableHlo.nullary_writes, Finset.mem_singleton] <;>
    exact StableHlo.devRef_ne_of_ne (by decide)

/-- nor does one after it. -/
theorem not_written1 (b : Ref sig .tc) (hb : b = main_arg0 ∨ b = main_arg1 ∨ b = main_arg2) :
    ∀ op ∈ (hostOps1 : List (HloOp τ sig (Elt F))), Proc.devRef .tc b ∉ op.writes := by
  intro op hop
  simp only [List.mem_cons, List.mem_nil_iff, or_false] at hop
  rcases hb with rfl | rfl | rfl <;>
  rcases hop with rfl | rfl | rfl | rfl | rfl <;>
    simp only [StableHlo.unary_writes, StableHlo.binary_writes, StableHlo.nullary_writes, Finset.mem_singleton] <;>
    exact StableHlo.devRef_ne_of_ne (by decide)

/-- An argument array ends as it was launched. -/
theorem Vfin_arg (c : Dev nD) (b : Ref sig .tc) (hb : b = main_arg0 ∨ b = main_arg1 ∨ b = main_arg2) :
    Vfin m c (Proc.devRef .tc b) = m ((c : Thread nD τ).loc b) := by
  have hne : b ≠ main_v16 := by rcases hb with rfl | rfl | rfl <;> decide
  show StableHlo.after hostOps1 (V1 m c) (Proc.devRef .tc b) = _
  rw [StableHlo.after_of_forall_not_mem hostOps1 _ (not_written1 b hb), V1_of_ne m c _ (StableHlo.devRef_ne_of_ne hne)]
  exact StableHlo.after_of_forall_not_mem hostOps0 _ (not_written0 b hb)

theorem mem_uc (b : Ref sig .tc) (h : b.isScoped = false) : Proc.devRef .tc b ∈ Pipeline.ucRefs τ sig :=
  Finset.mem_filter.mpr ⟨Finset.mem_map.mpr ⟨b, Finset.mem_univ _, rfl⟩, by simpa using h⟩

/-- The run: the result buffer ends at the last host operations' value, the arguments unchanged. -/
theorem run_result :
    θ_run defs (onTc (τ := τ) (main (F := F))) ⟨m, fun _ => 0, ρ⟩ (fun r => ∀ c : Dev nD,
      r.2.mem ((c.tc : Thread nD τ).loc main_v19) = Vfin m c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨h c _ (mem_uc main_v19 rfl),
       (h c _ (mem_uc main_arg0 rfl)).trans (Vfin_arg m c main_arg0 (.inl rfl)),
       (h c _ (mem_uc main_arg1 rfl)).trans (Vfin_arg m c main_arg1 (.inr (.inl rfl))),
       (h c _ (mem_uc main_arg2 rfl)).trans (Vfin_arg m c main_arg2 (.inr (.inr rfl)))⟩)
    (run_main m ρ (body_obligation m))

/-- The frame: the program runs to the end, faulting nowhere, and its argument arrays end unchanged. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_result m ρ)

end Cert.Kernel.KB

end
-- ==== Proof.Spec.lean ====
/-
  The mathematics of the certificate, stated once over plain index sets, with no program in sight.

  Both programs first divide every row of the two 8192 x 64 inputs by its Euclidean length (clamped below by a small
  constant): `nrm`. From the normalised rows `a`, `b` they form four 8192 x 8192 matrices of exponentials of scaled
  inner products, E(a,b)(r,c) = exp (<a_r, b_c> / T) with T = 1/2, and for each matrix M and the weights `p` the mean over the
  rows r of  - log ( (sum_c M(r,c) p(r,c)) / (sum_c M(r,c) + eps) ).
  The kernel multiplies the inner product by 2 and divides the weighted row sum by the row sum once (`GK`); the
  reference divides the inner product by 1/2, divides every entry of the row by the row sum before weighting, and
  takes the four means separately (`GR`).
-/
import Idealize.ShloMosaic.PureOps.Ideal
import Idealize.ShloMosaic.Lib.ValueIdx

noncomputable section

open scoped BigOperators

namespace Cert.Spec

open Idealize.ShloMosaic Idealize.ShloMosaic.ValueIdx

/-- The shapes the statement speaks of. -/
abbrev R64 : Shape := ⟨2, ![8192, 64]⟩
abbrev RR : Shape := ⟨2, ![8192, 8192]⟩
abbrev R1 : Shape := ⟨2, ![8192, 1]⟩
abbrev Rv : Shape := ⟨1, ![8192]⟩
abbrev S0 : Shape := ⟨0, ![]⟩

theorem red_R64_Rv : R64.ReducesTo [1] Rv := by decide
theorem pos_S0 : 0 < S0.numel := by decide
theorem bc_Rv_R1 : Rv.BroadcastsInDim R1 (![0] : Fin 1 → Fin R1.rank) := by decide
theorem bc_S0_R1 : S0.BroadcastsInDim R1 (![] : Fin 0 → Fin R1.rank) := by decide
theorem bc_R1_R64 : R1.BroadcastsInDim R64 (![0, 1] : Fin 2 → Fin R64.rank) := by decide

/-- Every row divided by its length, the length clamped below by the constant 1e-12 (as a float32 word):
    x / max (sqrt (sum_k x_k^2)) eps, written with the host's whole-array operations. -/
def nrm (x : FVec Ideal R64 .f32) : FVec Ideal R64 .f32 :=
  Host.divf (F := Ideal) x
    (broadcastInDim R64 ![0, 1] bc_R1_R64
      (maximumf (F := Ideal)
        (Host.sqrt (F := Ideal)
          (broadcastInDim R1 ![0] bc_Rv_R1
            (Host.reduceAdd (F := Ideal) (mulf (F := Ideal) x x) (constant (F := Ideal) S0 .f32 0x00000000#32) red_R64_Rv pos_S0)))
        (broadcastInDim R1 ![] bc_S0_R1 (constant (F := Ideal) S0 .f32 0x2B8CBCCC#32))))

/-- The constants, as the float32 words both programs carry. -/
def two : EReal := Ideal.ofBits .f32 0x40000000#32
def half : EReal := Ideal.ofBits .f32 0x3F000000#32
def epsRow : EReal := Ideal.ofBits .f32 0x322BCC77#32
def nRows : EReal := Ideal.ofBits .f32 0x46000000#32

/-- The inner product of row `r` of `a` with row `c` of `b`. -/
def dotT (a b : FVec Ideal R64 .f32) (r c : Fin 8192) : EReal := ∑ k : Fin 64, a (ix2 r k) * b (ix2 c k)

/-- exp (2 <a_r, b_c>): the kernel's spelling of the similarity. -/
def EK (a b : FVec Ideal R64 .f32) (r c : Fin 8192) : EReal := Ideal.exp (dotT a b r c * two)
/-- exp (<a_r, b_c> / (1/2)): the reference's spelling. -/
def ER (a b : FVec Ideal R64 .f32) (r c : Fin 8192) : EReal := Ideal.exp (Ideal.div (dotT a b r c) half)

/-- The kernel's row term: log of the weighted row sum over the row sum plus eps. -/
def rowK (M : Fin 8192 → Fin 8192 → EReal) (p : FVec Ideal RR .f32) (r : Fin 8192) : EReal :=
  Ideal.log (Ideal.div (∑ c : Fin 8192, M r c * p (ix2 r c)) ((∑ c : Fin 8192, M r c) + epsRow))

/-- The kernel's result: minus the mean over the rows of the sum of the four row terms. -/
def GK (a b : FVec Ideal R64 .f32) (p : FVec Ideal RR .f32) : EReal :=
  - Ideal.div (∑ r : Fin 8192, (((rowK (EK a b) p r + rowK (EK b a) p r) + rowK (EK a a) p r) + rowK (EK b b) p r)) nRows

/-- The reference's term for one matrix: minus the mean over the rows of the log of the weighted sum of the
    row divided entry by entry by its sum plus eps. -/
def termR (M : Fin 8192 → Fin 8192 → EReal) (p : FVec Ideal RR .f32) : EReal :=
  - Ideal.div (∑ r : Fin 8192, Ideal.log (∑ c : Fin 8192, Ideal.div (M r c) ((∑ c' : Fin 8192, M r c') + epsRow) * p (ix2 r c))) nRows

/-- The reference's result: the four terms added, the second matrix the transpose of the first. -/
def GR (a b : FVec Ideal R64 .f32) (p : FVec Ideal RR .f32) : EReal :=
  ((termR (ER a b) p + termR (fun r c => ER a b c r) p) + termR (ER a a) p) + termR (ER b b) p

end Cert.Spec

end
-- ==== Proof.KVSpec.lean ====
/-
  One grid point's contribution, at the ideal instance, entry by entry.

  For row p of the point's row block and each of the eight accumulator columns, the point adds the sum over the
  block's 1024 columns q of exp (2 <row p, row q>) for one of the four pairings of the inputs' row blocks, or of that
  times the weight at (p, q).
-/
import proofs.«118719_j43404939493422_2_alg».proof.Proof.KBody
import proofs.«118719_j43404939493422_2_alg».proof.Proof.Spec

noncomputable section

open scoped BigOperators

namespace Cert.KernelIdeal.KV

open Cert.KernelIdeal Idealize.ShloMosaic Idealize.ShloMosaic.ValueIdx

/-- The inner product of row p of block a with row q of block b. -/
def bdot (a b : Vec Ideal S1024x64 .f32) (p q : Fin 1024) : EReal := ∑ k : Fin 64, a (ix2 p k) * b (ix2 q k)

/-- exp (2 <a_p, b_q>). -/
def bexp (a b : Vec Ideal S1024x64 .f32) (p q : Fin 1024) : EReal := Ideal.exp (bdot a b p q * Cert.Spec.two)

/-- What one grid point adds to row p of the accumulator, column by column
    (x0, x1: row blocks i and j of the first input; x2, x3: of the second; x4: the weights' block). -/
def part (x0 x1 x2 x3 : Vec Ideal S1024x64 .f32) (x4 : Vec Ideal S1024x1024 .f32) (p : Fin 1024) : Fin 8 → EReal
  | ⟨0, _⟩ => ∑ q : Fin 1024, bexp x0 x3 p q
  | ⟨1, _⟩ => ∑ q : Fin 1024, bexp x0 x3 p q * x4 (ix2 p q)
  | ⟨2, _⟩ => ∑ q : Fin 1024, bexp x2 x1 p q
  | ⟨3, _⟩ => ∑ q : Fin 1024, bexp x2 x1 p q * x4 (ix2 p q)
  | ⟨4, _⟩ => ∑ q : Fin 1024, bexp x0 x1 p q
  | ⟨5, _⟩ => ∑ q : Fin 1024, bexp x0 x1 p q * x4 (ix2 p q)
  | ⟨6, _⟩ => ∑ q : Fin 1024, bexp x2 x3 p q
  | ⟨7, _⟩ => ∑ q : Fin 1024, bexp x2 x3 p q * x4 (ix2 p q)

/-- The output entry computed from one row of the accumulator. -/
def outRow (s : Fin 8 → EReal) : EReal :=
  ((Ideal.log (Ideal.div (s 1) (s 0 + Cert.Spec.epsRow)) + Ideal.log (Ideal.div (s 3) (s 2 + Cert.Spec.epsRow)))
      + Ideal.log (Ideal.div (s 5) (s 4 + Cert.Spec.epsRow))) + Ideal.log (Ideal.div (s 7) (s 6 + Cert.Spec.epsRow))

end Cert.KernelIdeal.KV

end
-- ==== Proof.KValCols.lean ====
/-
  The accumulator's eight columns, over the whole arrays. For a row r of the 8192 and a column c, column k of the
  accumulator collects one of eight functions of (r, c): exp (2 <a_r, b_c>), the same for the pairs (b, a), (a, a),
  (b, b), and each of these times the weight at (r, c). One grid point adds the 1024 columns c of its column block;
  the eight column blocks of a row of the grid add up to the sum over all 8192 columns, and the output entry of row r
  is then the sum of the specification's four row terms.
-/
import proofs.«118719_j43404939493422_2_alg».proof.Proof.KVSpec

noncomputable section

open scoped BigOperators

namespace Cert.KernelIdeal.KV

open Cert.KernelIdeal Idealize.ShloMosaic Idealize.ShloMosaic.ValueIdx
open Cert.Spec (R64 RR EK dotT rowK)

/-- Row p of block n of an array of 8192 rows. -/
def row (n : Fin 8) (p : Fin 1024) : Fin 8192 := ⟨1024 * n.val + p.val, by have := n.isLt; have := p.isLt; omega⟩

/-- What column k of the accumulator collects at row r, as a function of the column c. -/
def colF (a b : FVec Ideal R64 .f32) (w : FVec Ideal RR .f32) (r : Fin 8192) : Fin 8 → Fin 8192 → EReal
  | ⟨0, _⟩ => fun c => EK a b r c
  | ⟨1, _⟩ => fun c => EK a b r c * w (ix2 r c)
  | ⟨2, _⟩ => fun c => EK b a r c
  | ⟨3, _⟩ => fun c => EK b a r c * w (ix2 r c)
  | ⟨4, _⟩ => fun c => EK a a r c
  | ⟨5, _⟩ => fun c => EK a a r c * w (ix2 r c)
  | ⟨6, _⟩ => fun c => EK b b r c
  | ⟨7, _⟩ => fun c => EK b b r c * w (ix2 r c)

/-- The exponential of a pair of row blocks is the arrays' exponential at the blocks' rows. -/
theorem bexp_rows (A B : FVec Ideal R64 .f32) (x y : Vec Ideal S1024x64 .f32) (i j : Fin 8)
    (hx : ∀ (p : Fin 1024) (k : Fin 64), x (ix2 p k) = A (ix2 (row i p) k))
    (hy : ∀ (p : Fin 1024) (k : Fin 64), y (ix2 p k) = B (ix2 (row j p) k)) (p q : Fin 1024) :
    bexp x y p q = EK A B (row i p) (row j q) := by
  unfold bexp bdot EK dotT
  simp only [hx, hy]

/-- What one grid point adds, over the whole arrays: the 1024 columns of column block j, at row p of row block i. -/
theorem part_blocks (a b : FVec Ideal R64 .f32) (w : FVec Ideal RR .f32)
    (x0 x1 x2 x3 : Vec Ideal S1024x64 .f32) (x4 : Vec Ideal S1024x1024 .f32) (i j : Fin 8)
    (h0 : ∀ (p : Fin 1024) (k : Fin 64), x0 (ix2 p k) = a (ix2 (row i p) k))
    (h1 : ∀ (p : Fin 1024) (k : Fin 64), x1 (ix2 p k) = a (ix2 (row j p) k))
    (h2 : ∀ (p : Fin 1024) (k : Fin 64), x2 (ix2 p k) = b (ix2 (row i p) k))
    (h3 : ∀ (p : Fin 1024) (k : Fin 64), x3 (ix2 p k) = b (ix2 (row j p) k))
    (h4 : ∀ p q : Fin 1024, x4 (ix2 p q) = w (ix2 (row i p) (row j q)))
    (p : Fin 1024) (k : Fin 8) :
    part x0 x1 x2 x3 x4 p k = ∑ q : Fin 1024, colF a b w (row i p) k (row j q) := by
  match k with
  | ⟨0, _⟩ => exact Finset.sum_congr rfl fun q _ => bexp_rows a b x0 x3 i j h0 h3 p q
  | ⟨1, _⟩ => exact Finset.sum_congr rfl fun q _ => congrArg₂ (· * ·) (bexp_rows a b x0 x3 i j h0 h3 p q) (h4 p q)
  | ⟨2, _⟩ => exact Finset.sum_congr rfl fun q _ => bexp_rows b a x2 x1 i j h2 h1 p q
  | ⟨3, _⟩ => exact Finset.sum_congr rfl fun q _ => congrArg₂ (· * ·) (bexp_rows b a x2 x1 i j h2 h1 p q) (h4 p q)
  | ⟨4, _⟩ => exact Finset.sum_congr rfl fun q _ => bexp_rows a a x0 x1 i j h0 h1 p q
  | ⟨5, _⟩ => exact Finset.sum_congr rfl fun q _ => congrArg₂ (· * ·) (bexp_rows a a x0 x1 i j h0 h1 p q) (h4 p q)
  | ⟨6, _⟩ => exact Finset.sum_congr rfl fun q _ => bexp_rows b b x2 x3 i j h2 h3 p q
  | ⟨7, _⟩ => exact Finset.sum_congr rfl fun q _ => congrArg₂ (· * ·) (bexp_rows b b x2 x3 i j h2 h3 p q) (h4 p q)

/-- A function of the 8192 columns, continued by zero to all naturals. -/
def colN (f : Fin 8192 → EReal) (n : ℕ) : EReal := if h : n < 8192 then f ⟨n, h⟩ else 0

/-- The sum over the first n column blocks. -/
def psum (f : Fin 8192 → EReal) (n : ℕ) : EReal := ∑ x ∈ Finset.range (n * 1024), colN f x

theorem psum_zero (f : Fin 8192 → EReal) : psum f 0 = 0 := by
  unfold psum; rw [Nat.zero_mul, Finset.range_zero, Finset.sum_empty]

/-- One more column block adds its 1024 columns. -/
theorem psum_succ (f : Fin 8192 → EReal) (j : ℕ) (hj : j < 8) :
    psum f (j + 1) = psum f j + ∑ q : Fin 1024, f (row ⟨j, hj⟩ q) := by
  unfold psum
  rw [Nat.add_mul, Nat.one_mul, Finset.sum_range_add]
  refine congrArg (_ + ·) ?_
  rw [Finset.sum_range]
  refine Finset.sum_congr rfl fun q _ => ?_
  have hq := q.isLt
  unfold colN
  rw [dif_pos (by omega)]
  exact congrArg f (Fin.ext (by show j * 1024 + q.val = 1024 * j + q.val; omega))

/-- All eight column blocks are all 8192 columns. -/
theorem psum_eight (f : Fin 8192 → EReal) : psum f 8 = ∑ c : Fin 8192, f c := by
  unfold psum
  rw [show 8 * 1024 = 8192 from rfl, Finset.sum_range]
  exact Finset.sum_congr rfl fun c _ => by unfold colN; rw [dif_pos c.isLt]

/-- The output entry of row r from the eight full column sums: the sum of the specification's four row terms. -/
theorem outRow_cols (a b : FVec Ideal R64 .f32) (w : FVec Ideal RR .f32) (r : Fin 8192) :
    outRow (fun k => ∑ c : Fin 8192, colF a b w r k c)
      = ((rowK (EK a b) w r + rowK (EK b a) w r) + rowK (EK a a) w r) + rowK (EK b b) w r := rfl

end Cert.KernelIdeal.KV

end
-- ==== Proof.KValIn.lean ====
/-
  What the region finds. The two arrays its first four windows read are the row-normalised inputs, and the fifth is
  the weights, untouched. Grid point t has row block i = t / 8 and column block j = t mod 8; the five input blocks at
  t are rows 1024 i .. 1024 i + 1023 and rows 1024 j .. 1024 j + 1023 of each normalised input, and the square
  (i, j) of side 1024 of the weights.
-/
import proofs.«118719_j43404939493422_2_alg».proof.Proof.KDat
import proofs.«118719_j43404939493422_2_alg».proof.Proof.KValCols

noncomputable section

open scoped BigOperators

namespace Cert.KernelIdeal.KV

open Cert.KernelIdeal Cert.KernelIdeal.Gen Cert.KernelIdeal.KB
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (c : Dev nD)

/-- The first normalised input, as the region finds it. -/
theorem V_v7 :
    (V m c main_v7 : S8192x64.Idx → EReal) = Cert.Spec.nrm (m ((c : Thread nD τ).loc main_arg0)) := by
  show StableHlo.after hostOps0 (fun b => m (c, b)) (Proc.devRef .tc main_v7) = _
  after_results
  rfl

/-- The second normalised input. -/
theorem V_v15 :
    (V m c main_v15 : S8192x64.Idx → EReal) = Cert.Spec.nrm (m ((c : Thread nD τ).loc main_arg1)) := by
  show StableHlo.after hostOps0 (fun b => m (c, b)) (Proc.devRef .tc main_v15) = _
  after_results
  rfl

/-- The weights are the third argument. -/
theorem V_arg2 :
    (V m c main_arg2 : S8192x8192.Idx → EReal) = m ((c : Thread nD τ).loc main_arg2) := by
  show StableHlo.after hostOps0 (fun b => m (c, b)) (Proc.devRef .tc main_arg2) = _
  after_results

/-- The grid has 64 points. -/
theorem lt64 (t : Fin cfg0.N) : t.val < 64 := lt_of_lt_of_eq t.isLt N_0

/-- The row block and the column block of a grid point. -/
def gi (t : Fin cfg0.N) : Fin 8 := ⟨t.val / 8, by have := lt64 t; omega⟩
def gj (t : Fin cfg0.N) : Fin 8 := ⟨t.val % 8, by omega⟩

/-- The windows' block indices at a point, decided over the grid. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = t.val % 8 ∧ win0_3.index t (1 : Fin 2) = 0
    ∧ win0_4.index t (0 : Fin 2) = t.val / 8 ∧ win0_4.index t (1 : Fin 2) = t.val % 8
    ∧ win0_5.index t (0 : Fin 2) = t.val / 8 ∧ win0_5.index t (1 : Fin 2) = 0 :=
  (by decide +kernel : ∀ t : Fin grid0.N, _)

theorem iblk0_apply (t : Fin cfg0.N) (p : Fin 1024) (k : Fin 64) :
    (iblk m c 0 t : S1024x64.Idx → EReal) (ix2 p k) = (V m c main_v7 : S8192x64.Idx → EReal) (ix2 (row (gi t) p) k) := by
  show (V m c main_v7 : S8192x64.Idx → EReal) (((cfg0.win 0).blk t).view.emb (ix2 p k)) = _
  refine congrArg (V m c main_v7 : S8192x64.Idx → EReal) (funext fun a => Fin.ext ?_)
  obtain ⟨e0, e1, -⟩ := idx_facts t
  match a with
  | ⟨0, _⟩ => show win0_0.index t (0 : Fin 2) * 1024 + 1 * p.val = 1024 * (t.val / 8) + p.val; omega
  | ⟨1, _⟩ => show win0_0.index t (1 : Fin 2) * 64 + 1 * k.val = k.val; omega

theorem iblk1_apply (t : Fin cfg0.N) (p : Fin 1024) (k : Fin 64) :
    (iblk m c 1 t : S1024x64.Idx → EReal) (ix2 p k) = (V m c main_v7 : S8192x64.Idx → EReal) (ix2 (row (gj t) p) k) := by
  show (V m c main_v7 : S8192x64.Idx → EReal) (((cfg0.win 1).blk t).view.emb (ix2 p k)) = _
  refine congrArg (V m c main_v7 : S8192x64.Idx → EReal) (funext fun a => Fin.ext ?_)
  obtain ⟨-, -, e0, e1, -⟩ := idx_facts t
  match a with
  | ⟨0, _⟩ => show win0_1.index t (0 : Fin 2) * 1024 + 1 * p.val = 1024 * (t.val % 8) + p.val; omega
  | ⟨1, _⟩ => show win0_1.index t (1 : Fin 2) * 64 + 1 * k.val = k.val; omega

theorem iblk2_apply (t : Fin cfg0.N) (p : Fin 1024) (k : Fin 64) :
    (iblk m c 2 t : S1024x64.Idx → EReal) (ix2 p k) = (V m c main_v15 : S8192x64.Idx → EReal) (ix2 (row (gi t) p) k) := by
  show (V m c main_v15 : S8192x64.Idx → EReal) (((cfg0.win 2).blk t).view.emb (ix2 p k)) = _
  refine congrArg (V m c main_v15 : S8192x64.Idx → EReal) (funext fun a => Fin.ext ?_)
  obtain ⟨-, -, -, -, e0, e1, -⟩ := idx_facts t
  match a with
  | ⟨0, _⟩ => show win0_2.index t (0 : Fin 2) * 1024 + 1 * p.val = 1024 * (t.val / 8) + p.val; omega
  | ⟨1, _⟩ => show win0_2.index t (1 : Fin 2) * 64 + 1 * k.val = k.val; omega

theorem iblk3_apply (t : Fin cfg0.N) (p : Fin 1024) (k : Fin 64) :
    (iblk m c 3 t : S1024x64.Idx → EReal) (ix2 p k) = (V m c main_v15 : S8192x64.Idx → EReal) (ix2 (row (gj t) p) k) := by
  show (V m c main_v15 : S8192x64.Idx → EReal) (((cfg0.win 3).blk t).view.emb (ix2 p k)) = _
  refine congrArg (V m c main_v15 : S8192x64.Idx → EReal) (funext fun a => Fin.ext ?_)
  obtain ⟨-, -, -, -, -, -, e0, e1, -⟩ := idx_facts t
  match a with
  | ⟨0, _⟩ => show win0_3.index t (0 : Fin 2) * 1024 + 1 * p.val = 1024 * (t.val % 8) + p.val; omega
  | ⟨1, _⟩ => show win0_3.index t (1 : Fin 2) * 64 + 1 * k.val = k.val; omega

theorem iblk4_apply (t : Fin cfg0.N) (p q : Fin 1024) :
    (iblk m c 4 t : S1024x1024.Idx → EReal) (ix2 p q)
      = (V m c main_arg2 : S8192x8192.Idx → EReal) (ix2 (row (gi t) p) (row (gj t) q)) := by
  show (V m c main_arg2 : S8192x8192.Idx → EReal) (((cfg0.win 4).blk t).view.emb (ix2 p q)) = _
  refine congrArg (V m c main_arg2 : S8192x8192.Idx → EReal) (funext fun a => Fin.ext ?_)
  obtain ⟨-, -, -, -, -, -, -, -, e0, e1, -⟩ := idx_facts t
  match a with
  | ⟨0, _⟩ => show win0_4.index t (0 : Fin 2) * 1024 + 1 * p.val = 1024 * (t.val / 8) + p.val; omega
  | ⟨1, _⟩ => show win0_4.index t (1 : Fin 2) * 1024 + 1 * q.val = 1024 * (t.val % 8) + q.val; omega

end Cert.KernelIdeal.KV

end
-- ==== Proof.LibMatmulSumT.lean ====
/-
  A matrix product with the RIGHT operand contracted on its axis 1,  [n, K] x [w, K] -> [n, w]  (the left matrix against
  the transpose of the right one), at the ideal values, for any contraction length K and whichever record of dimension
  numbers spells it: the sum over the record's own contraction index, read at entry (p, q), is the sum over k < K of
  left(p, k) * right(q, k).  A kernel's matrix-unit product into a zero accumulator is that sum.
  The record enters only through six facts about its index maps (one contracted axis of extent K; both operands
  contracted on their axis 1; the result's axes the left's axis 0 and the right's axis 0).
-/
import Idealize.ShloMosaic.PureOps.Ideal.Laws
import Idealize.ShloMosaic.Lib.Pipeline.Value
import Idealize.ShloMosaic.Lib.ValueIdx

noncomputable section

namespace Cert.LibMatmulSumT

open Idealize.ShloMosaic Idealize.ShloMosaic.ValueIdx

/-- The index facts of a product against a transposed right operand, with contraction length `K`. -/
structure PlainT {n K w : ℕ} (d : DotDims ⟨2, ![n, K]⟩ ⟨2, ![w, K]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (i 1).val
  r1 : ∀ (i : (⟨2, ![n, w]⟩ : Shape).Idx) (q : d.contr.Idx), (d.rhsIdx i q 1).val = (q ⟨0, by rw [rank]; exact Nat.one_pos⟩).val

/-- The contraction sum at entry (p, q), re-indexed by k < K. -/
theorem sum_eq_T {n K w : ℕ} {d : DotDims ⟨2, ![n, K]⟩ ⟨2, ![w, K]⟩ ⟨2, ![n, w]⟩} (hd : PlainT d)
    (l : (⟨2, ![n, K]⟩ : Shape).Idx → EReal) (r : (⟨2, ![w, K]⟩ : Shape).Idx → EReal) (p : Fin n) (q : Fin w) :
    (∑ k : d.contr.Idx, l (d.lhsIdx (ix2 p q) k) * r (d.rhsIdx (ix2 p q) k)) = ∑ k : Fin K, l (ix2 p k) * r (ix2 q k) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 q k := funext fun a => Fin.ext (by
    match a with
    | ⟨0, _⟩ => exact hd.r0 _ _
    | ⟨1, _⟩ => exact (hd.r1 _ _).trans hk)
  rw [el, er]

/-- A matrix-unit product into the zero accumulator, at entry (p, q). -/
theorem matmul_zero_at_T {n K w : ℕ} {d : DotDims ⟨2, ![n, K]⟩ ⟨2, ![w, K]⟩ ⟨2, ![n, w]⟩} (hd : PlainT d) {φ₁ φ₂ : FTy}
    (prec : Option ContractPrecision) (l : FVec Ideal ⟨2, ![n, K]⟩ φ₁) (r : FVec Ideal ⟨2, ![w, K]⟩ φ₂) (p : Fin n) (q : Fin w) :
    FloatOps.matmul d prec l r (constant ⟨2, ![n, w]⟩ .f32 0x00000000#32) (ix2 p q) = ∑ k : Fin K, l (ix2 p k) * r (ix2 q k) :=
  (Ideal.matmul_constant_zero_apply d prec l r (ix2 p q)).trans (sum_eq_T hd l r p q)

end Cert.LibMatmulSumT

end
-- ==== Proof.LibKeepdims.lean ====
/-
  Two layout facts for a row-wise reduction kept as a column: a vector of length a read as an a × 1 column, and an a × 1
  column repeated along b columns. Both are stated at an explicit index (row p, column c), over any element type.
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KPayOps.lean ====
/-
  The non-pointwise operations of the kernel body read at an index, at the ideal values and at this kernel's own
  shape records: the matrix product against the transposed right operand into a zero accumulator, the sum along the
  rows of a 1024 x 1024 block kept as a column, the concatenation of eight columns, and a column of the accumulator.
-/
import proofs.«118719_j43404939493422_2_alg».proof.Proof.KVSpec
import proofs.«118719_j43404939493422_2_alg».proof.Proof.LibMatmulSumT
import proofs.«118719_j43404939493422_2_alg».proof.Proof.LibKeepdims
import Idealize.ShloMosaic.PureOps.Ideal.Laws
import Idealize.ShloMosaic.Lib.Pipeline.Value

noncomputable section

open scoped BigOperators

namespace Cert.KernelIdeal.KV

open Cert.KernelIdeal Cert.KernelIdeal.Gen Cert.KernelIdeal.KB Idealize.ShloMosaic Idealize.ShloMosaic.ValueIdx

/-- The kernel's dimension numbers contract axis 1 of both operands, over 64 terms; the result's axes are the left
    operand's axis 0 and the right operand's axis 0. -/
theorem dotPlain : Cert.LibMatmulSumT.PlainT (n := 1024) (K := 64) (w := 1024)
    dot_S1024x64_S1024x64_S1024x1024_1_1_0_0_n_n where
  rank := rfl
  size := rfl
  l0 := fun i q => by
    unfold DotDims.lhsIdx
    rw [dif_neg (show ¬(0 : Fin S1024x64.rank) ∈ dot_S1024x64_S1024x64_S1024x1024_1_1_0_0_n_n.lhsBatch by decide),
      dif_pos (show (0 : Fin S1024x64.rank) ∈ dot_S1024x64_S1024x64_S1024x1024_1_1_0_0_n_n.lhsNonContracting by decide)]
    rfl
  l1 := fun i q => dot_S1024x64_S1024x64_S1024x1024_1_1_0_0_n_n.lhsIdx_val_of_single rfl i q
  r0 := fun i q => by
    unfold DotDims.rhsIdx
    rw [dif_neg (show ¬(0 : Fin S1024x64.rank) ∈ dot_S1024x64_S1024x64_S1024x1024_1_1_0_0_n_n.rhsBatch by decide),
      dif_pos (show (0 : Fin S1024x64.rank) ∈ dot_S1024x64_S1024x64_S1024x1024_1_1_0_0_n_n.rhsNonContracting by decide)]
    rfl
  r1 := fun i q => dot_S1024x64_S1024x64_S1024x1024_1_1_0_0_n_n.rhsIdx_val_of_single rfl i q

/-- The matrix product into the zero accumulator at entry (p, q): the inner product of row p of the left block with
    row q of the right block. -/
theorem mm_apply (l r : FVec Ideal S1024x64 .f32) (p q : Fin 1024) :
    matmul dot_S1024x64_S1024x64_S1024x1024_1_1_0_0_n_n none l r (constant (F := Ideal) S1024x1024 .f32 0x00000000#32) (ix2 p q)
      = bdot l r p q :=
  Cert.LibMatmulSumT.matmul_zero_at_T dotPlain none l r p q

/-- The sum along axis 1 of a 1024 x 1024 block at row p. -/
theorem rowsum_apply (v : FVec Ideal S1024x1024 .f32) (hφ : FKind.Formats .f32)
    (hacc : (0x00000000#32 : BitVec 32) = FKind.add.neutral .f32 hφ) (p : Fin 1024) :
    multiReduction (F := Ideal) .add [1] S1024 v 0x00000000#32 reduces_S1024x1024_S1024 hφ hacc (ix1 p)
      = ∑ q : Fin 1024, v (ix2 p q) := by
  refine (Ideal.multiReduction_add_single v 0x00000000#32 reduces_S1024x1024_S1024 hφ hacc (ix1 p)).trans ?_
  refine Finset.sum_congr rfl fun q _ => congrArg v (funext fun a => Fin.ext ?_)
  match a with
  | ⟨0, _⟩ => rfl
  | ⟨1, _⟩ => rfl

/-- The same sum kept as a 1024 x 1 column, at (p, u). -/
theorem rowsumCol_apply (v : FVec Ideal S1024x1024 .f32) (hφ : FKind.Formats .f32)
    (hacc : (0x00000000#32 : BitVec 32) = FKind.add.neutral .f32 hφ) (p : Fin 1024) (u : Fin 1) :
    shapeCast S1024x1 (multiReduction (F := Ideal) .add [1] S1024 v 0x00000000#32 reduces_S1024x1024_S1024 hφ hacc)
        shapeCasts_S1024_S1024x1 (ix2 p u)
      = ∑ q : Fin 1024, v (ix2 p q) :=
  (shapeCast_a_a1_apply _ shapeCasts_S1024_S1024x1 p u).trans (rowsum_apply v hφ hacc p)

/-- Column k of the accumulator at (p, u) is the accumulator's entry (p, k). -/
theorem col_apply (s : Vec Ideal S1024x8 .f32) (k : Fin 8)
    (h : ∀ a, (![0, k.val] : Fin 2 → Nat) a + S1024x1.size a ≤ S1024x8.size a) (p : Fin 1024) (u : Fin 1) :
    col (F := Ideal) s k.val h (ix2 p u) = s (ix2 p k) := by
  unfold col
  show s _ = s _
  refine congrArg s (funext fun a => Fin.ext ?_)
  have hu : u.val = 0 := by omega
  match a with
  | ⟨0, _⟩ => show 0 + 1 * p.val = p.val; omega
  | ⟨1, _⟩ => show k.val + 1 * u.val = k.val; omega

end Cert.KernelIdeal.KV

end
-- ==== Proof.KPay.lean ====
/-
  The kernel body's arithmetic read at an index, at the ideal values.

  Zeroing the accumulator writes 0 everywhere. One grid point adds to row p of the accumulator, column by column,
  the sums over the block's 1024 columns q of exp (2 <row p, row q>) for the four pairings of the inputs' row blocks,
  and of those times the weight at (p, q). The output entry of row p is the sum of the four logarithms of a weighted
  sum over a row sum plus the constant, read off the accumulator's row p.
-/
import proofs.«118719_j43404939493422_2_alg».proof.Proof.KPayOps

noncomputable section

open scoped BigOperators

namespace Cert.KernelIdeal.KV

open Cert.KernelIdeal Cert.KernelIdeal.Gen Cert.KernelIdeal.KB Idealize.ShloMosaic Idealize.ShloMosaic.ValueIdx

/-! ## The blocks of exponentials and their row sums -/

/-- The block exp (2 l r^T): entry (p, q) is exp (2 <l_p, r_q>). -/
def eblock (l r : FVec Ideal S1024x64 .f32) : FVec Ideal S1024x1024 .f32 :=
  exp (mulf (matmul dot_S1024x64_S1024x64_S1024x1024_1_1_0_0_n_n none l r (constant (F := Ideal) S1024x1024 .f32 0x00000000#32))
    (broadcast S1024x1024 (Scalar.ofBits (F := Ideal) .f32 0x40000000#32)))

theorem eblock_apply (l r : FVec Ideal S1024x64 .f32) (p q : Fin 1024) : eblock l r (ix2 p q) = bexp l r p q := by
  show Ideal.exp (matmul dot_S1024x64_S1024x64_S1024x1024_1_1_0_0_n_n none l r
    (constant (F := Ideal) S1024x1024 .f32 0x00000000#32) (ix2 p q) * Ideal.ofBits .f32 0x40000000#32) = _
  rw [mm_apply]; rfl

/-- The sums along the rows of a block, kept as a column. -/
def rsum (M : FVec Ideal S1024x1024 .f32) : FVec Ideal S1024x1 .f32 :=
  shapeCast S1024x1 (multiReduction (F := Ideal) .add [1] S1024 M 0x00000000#32 reduces_S1024x1024_S1024 (.inl rfl) rfl)
    shapeCasts_S1024_S1024x1

theorem rsum_apply (M : FVec Ideal S1024x1024 .f32) (p : Fin 1024) (u : Fin 1) :
    rsum M (ix2 p u) = ∑ q : Fin 1024, M (ix2 p q) :=
  rowsumCol_apply M _ _ p u

/-! ## The payloads in those terms -/

theorem pay4_eq (a : Vec Ideal S1024x64 .f32) : k0_pay4 (F := Ideal) a = a := shapeCast_self a _
theorem pay5_eq (a : Vec Ideal S1024x64 .f32) : k0_pay5 (F := Ideal) a = a := shapeCast_self a _
theorem pay6_eq (a : Vec Ideal S1024x64 .f32) : k0_pay6 (F := Ideal) a = a := shapeCast_self a _
theorem pay7_eq (a : Vec Ideal S1024x64 .f32) : k0_pay7 (F := Ideal) a = a := shapeCast_self a _

theorem pay8_eq (a b : Vec Ideal S1024x64 .f32) : k0_pay8 (F := Ideal) a b = eblock a b := by
  show eblock (k0_pay4 (F := Ideal) a) (k0_pay7 (F := Ideal) b) = _
  rw [pay4_eq, pay7_eq]

theorem pay11_eq (v5 v7 : Vec Ideal S1024x64 .f32) : k0_pay11 (F := Ideal) v5 v7 = eblock v7 v5 := by
  show eblock (k0_pay6 (F := Ideal) v7) (k0_pay5 (F := Ideal) v5) = _
  rw [pay6_eq, pay5_eq]

theorem pay14_eq (v3 v5 : Vec Ideal S1024x64 .f32) : k0_pay14 (F := Ideal) v3 v5 = eblock v3 v5 := by
  show eblock (k0_pay4 (F := Ideal) v3) (k0_pay5 (F := Ideal) v5) = _
  rw [pay4_eq, pay5_eq]

theorem pay9_eq (a b : Vec Ideal S1024x64 .f32) : k0_pay9 (F := Ideal) a b = rsum (eblock a b) := by
  show rsum (k0_pay8 (F := Ideal) a b) = _
  rw [pay8_eq]

theorem pay10_eq (a b : Vec Ideal S1024x64 .f32) (w : Vec Ideal S1024x1024 .f32) :
    k0_pay10 (F := Ideal) a b w = rsum (mulf (eblock a b) w) := by
  show rsum (mulf (k0_pay8 (F := Ideal) a b) w) = _
  rw [pay8_eq]

theorem pay12_eq (v5 v7 : Vec Ideal S1024x64 .f32) : k0_pay12 (F := Ideal) v5 v7 = rsum (eblock v7 v5) := by
  show rsum (k0_pay11 (F := Ideal) v5 v7) = _
  rw [pay11_eq]

theorem pay13_eq (v5 v7 : Vec Ideal S1024x64 .f32) (w : Vec Ideal S1024x1024 .f32) :
    k0_pay13 (F := Ideal) v5 v7 w = rsum (mulf (eblock v7 v5) w) := by
  show rsum (mulf (k0_pay11 (F := Ideal) v5 v7) w) = _
  rw [pay11_eq]

/-! ## Eight columns side by side -/

/-- One of eight things by its number. -/
def pick8 {α : Type} (c0 c1 c2 c3 c4 c5 c6 c7 : α) : Fin 8 → α
  | ⟨0, _⟩ => c0
  | ⟨1, _⟩ => c1
  | ⟨2, _⟩ => c2
  | ⟨3, _⟩ => c3
  | ⟨4, _⟩ => c4
  | ⟨5, _⟩ => c5
  | ⟨6, _⟩ => c6
  | ⟨7, _⟩ => c7

/-- Eight 1024 x 1 columns concatenated along axis 1, at (p, k): column k at (p, 0). -/
theorem cat8_apply {α : Type} (c0 c1 c2 c3 c4 c5 c6 c7 : S1024x1.Idx → α)
    (h : Shape.Concatenates [S1024x1, S1024x1, S1024x1, S1024x1, S1024x1, S1024x1, S1024x1, S1024x1] S1024x8 1)
    (p : Fin 1024) (k : Fin 8) :
    concatenate S1024x8 1 [⟨S1024x1, c0⟩, ⟨S1024x1, c1⟩, ⟨S1024x1, c2⟩, ⟨S1024x1, c3⟩, ⟨S1024x1, c4⟩, ⟨S1024x1, c5⟩,
        ⟨S1024x1, c6⟩, ⟨S1024x1, c7⟩] h (ix2 p k)
      = pick8 c0 c1 c2 c3 c4 c5 c6 c7 k (ix2 p (0 : Fin 1)) :=
  concatenate_ofFn_unit_apply (t := S1024x8) (s₁ := S1024x1) 1 (pick8 c0 c1 c2 c3 c4 c5 c6 c7) h rfl rfl (ix2 p k) k rfl
    (ix2 p (0 : Fin 1)) (fun b => match b with
      | ⟨0, _⟩ => fun _ => rfl
      | ⟨1, _⟩ => fun hb => absurd rfl hb)

/-! ## The three results -/

theorem accZero_apply (p : Fin 1024) (k : Fin 8) : accZero (F := Ideal) (ix2 p k) = 0 := by
  show shapeCast S1024x8 (broadcast S1024x8 (Scalar.ofBits (F := Ideal) .f32 0x00000000#32)) shapeCasts_S1024x8_S1024x8 (ix2 p k) = 0
  rw [shapeCast_self]
  exact Ideal.ofBits_zero_f32

/-- The accumulating payload at (p, k): what was there plus column k of the eight row sums, at (p, 0). -/
theorem pay1_apply (v8 v10 : FVec Ideal S1024x64 .f32) (v11 : Vec Ideal S1024x1024 .f32)
    (v17 v20 v26 v29 : FVec Ideal S1024x1 .f32) (v33 : FVec Ideal S1024x1024 .f32) (v48 : Vec Ideal S1024x8 .f32)
    (p : Fin 1024) (k : Fin 8) :
    k0_pay1 (F := Ideal) v8 v10 v11 v17 v20 v26 v29 v33 v48 (ix2 p k)
      = v48 (ix2 p k) + pick8 v17 v20 v26 v29 (rsum v33) (rsum (mulf v33 v11)) (rsum (eblock v8 v10))
          (rsum (mulf (eblock v8 v10) v11)) k (ix2 p (0 : Fin 1)) := by
  have h : k0_pay1 (F := Ideal) v8 v10 v11 v17 v20 v26 v29 v33 v48
      = addf v48 (concatenate S1024x8 1 [⟨S1024x1, v17⟩, ⟨S1024x1, v20⟩, ⟨S1024x1, v26⟩, ⟨S1024x1, v29⟩,
          ⟨S1024x1, rsum v33⟩, ⟨S1024x1, rsum (mulf v33 v11)⟩, ⟨S1024x1, rsum (eblock v8 v10)⟩,
          ⟨S1024x1, rsum (mulf (eblock v8 v10) v11)⟩]
          concatenates_S1024x1_S1024x1_S1024x1_S1024x1_S1024x1_S1024x1_S1024x1_S1024x1_S1024x8_d1) :=
    shapeCast_self _ _
  rw [h, addf_apply, cat8_apply]

theorem accNext_apply (x0 x1 x2 x3 : Vec Ideal S1024x64 .f32) (x4 : Vec Ideal S1024x1024 .f32) (s : Vec Ideal S1024x8 .f32)
    (p : Fin 1024) (k : Fin 8) :
    accNext (F := Ideal) x0 x1 x2 x3 x4 s (ix2 p k) = s (ix2 p k) + part x0 x1 x2 x3 x4 p k := by
  unfold accNext
  rw [pay1_apply, pay6_eq, pay7_eq, pay9_eq, pay10_eq, pay12_eq, pay13_eq, pay14_eq]
  refine congrArg (s (ix2 p k) + ·) ?_
  match k with
  | ⟨0, _⟩ =>
    show rsum (eblock x0 x3) (ix2 p 0) = ∑ q : Fin 1024, bexp x0 x3 p q
    rw [rsum_apply]; exact Finset.sum_congr rfl fun q _ => eblock_apply x0 x3 p q
  | ⟨1, _⟩ =>
    show rsum (mulf (eblock x0 x3) x4) (ix2 p 0) = ∑ q : Fin 1024, bexp x0 x3 p q * x4 (ix2 p q)
    rw [rsum_apply]; exact Finset.sum_congr rfl fun q _ => by rw [mulf_apply, eblock_apply]
  | ⟨2, _⟩ =>
    show rsum (eblock x2 x1) (ix2 p 0) = ∑ q : Fin 1024, bexp x2 x1 p q
    rw [rsum_apply]; exact Finset.sum_congr rfl fun q _ => eblock_apply x2 x1 p q
  | ⟨3, _⟩ =>
    show rsum (mulf (eblock x2 x1) x4) (ix2 p 0) = ∑ q : Fin 1024, bexp x2 x1 p q * x4 (ix2 p q)
    rw [rsum_apply]; exact Finset.sum_congr rfl fun q _ => by rw [mulf_apply, eblock_apply]
  | ⟨4, _⟩ =>
    show rsum (eblock x0 x1) (ix2 p 0) = ∑ q : Fin 1024, bexp x0 x1 p q
    rw [rsum_apply]; exact Finset.sum_congr rfl fun q _ => eblock_apply x0 x1 p q
  | ⟨5, _⟩ =>
    show rsum (mulf (eblock x0 x1) x4) (ix2 p 0) = ∑ q : Fin 1024, bexp x0 x1 p q * x4 (ix2 p q)
    rw [rsum_apply]; exact Finset.sum_congr rfl fun q _ => by rw [mulf_apply, eblock_apply]
  | ⟨6, _⟩ =>
    show rsum (eblock x2 x3) (ix2 p 0) = ∑ q : Fin 1024, bexp x2 x3 p q
    rw [rsum_apply]; exact Finset.sum_congr rfl fun q _ => eblock_apply x2 x3 p q
  | ⟨7, _⟩ =>
    show rsum (mulf (eblock x2 x3) x4) (ix2 p 0) = ∑ q : Fin 1024, bexp x2 x3 p q * x4 (ix2 p q)
    rw [rsum_apply]; exact Finset.sum_congr rfl fun q _ => by rw [mulf_apply, eblock_apply]

/-- The output payload at an index: pointwise in its eight columns. -/
theorem pay2_apply (c0 c1 c2 c3 c4 c5 c6 c7 : Vec Ideal S1024x1 .f32) (i : S1024x1.Idx) :
    k0_pay2 (F := Ideal) c0 c1 c2 c3 c4 c5 c6 c7 i
      = ((Ideal.log (Ideal.div (c1 i) (c0 i + Cert.Spec.epsRow)) + Ideal.log (Ideal.div (c3 i) (c2 i + Cert.Spec.epsRow)))
          + Ideal.log (Ideal.div (c5 i) (c4 i + Cert.Spec.epsRow))) + Ideal.log (Ideal.div (c7 i) (c6 i + Cert.Spec.epsRow)) :=
  rfl

theorem outOf_apply (s : Vec Ideal S1024x8 .f32) (p : Fin 1024) (u : Fin 1) :
    outOf (F := Ideal) s (ix2 p u) = outRow (fun k => s (ix2 p k)) := by
  unfold outOf
  rw [pay2_apply,
    col_apply s ⟨0, by omega⟩ inb_S1024x8_S1024x1_0_0 p u, col_apply s ⟨1, by omega⟩ inb_S1024x8_S1024x1_0_1 p u,
    col_apply s ⟨2, by omega⟩ inb_S1024x8_S1024x1_0_2 p u, col_apply s ⟨3, by omega⟩ inb_S1024x8_S1024x1_0_3 p u,
    col_apply s ⟨4, by omega⟩ inb_S1024x8_S1024x1_0_4 p u, col_apply s ⟨5, by omega⟩ inb_S1024x8_S1024x1_0_5 p u,
    col_apply s ⟨6, by omega⟩ inb_S1024x8_S1024x1_0_6 p u, col_apply s ⟨7, by omega⟩ inb_S1024x8_S1024x1_0_7 p u]
  rfl

end Cert.KernelIdeal.KV

end
-- ==== Proof.KValAcc.lean ====
/-
  The accumulator in closed form. After grid point n, entry (p, k) of the accumulator is the sum, over the column
  blocks 0 .. n mod 8 of the grid row n / 8, of what column k collects at row 1024 (n / 8) + p of the whole arrays:
  every point adds its own column block, and the first point of a grid row starts from zero.
-/
import proofs.«118719_j43404939493422_2_alg».proof.Proof.KValIn
import proofs.«118719_j43404939493422_2_alg».proof.Proof.KPay

noncomputable section

open scoped BigOperators

namespace Cert.KernelIdeal.KV

open Cert.KernelIdeal Cert.KernelIdeal.Gen Cert.KernelIdeal.KB
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (c : Dev nD)

/-- The three arrays the region reads. -/
abbrev arrA : FVec Ideal Cert.Spec.R64 .f32 := (V m c main_v7 : S8192x64.Idx → EReal)
abbrev arrB : FVec Ideal Cert.Spec.R64 .f32 := (V m c main_v15 : S8192x64.Idx → EReal)
abbrev arrW : FVec Ideal Cert.Spec.RR .f32 := (V m c main_arg2 : S8192x8192.Idx → EReal)

/-- What point t adds to row p of the accumulator: the 1024 columns of its column block, over the whole arrays. -/
theorem part_at (t : Fin cfg0.N) (p : Fin 1024) (k : Fin 8) :
    part (iblk m c 0 t) (iblk m c 1 t) (iblk m c 2 t) (iblk m c 3 t) (iblk m c 4 t) p k
      = ∑ q : Fin 1024, colF (arrA m c) (arrB m c) (arrW m c) (row (gi t) p) k (row (gj t) q) :=
  part_blocks (arrA m c) (arrB m c) (arrW m c) _ _ _ _ _ (gi t) (gj t) (iblk0_apply m c t) (iblk1_apply m c t)
    (iblk2_apply m c t) (iblk3_apply m c t) (iblk4_apply m c t) p k

/-- The accumulator after point n, entry (p, k): the sum over the column blocks 0 .. n mod 8 of the grid row n / 8. -/
theorem acc_closed : ∀ (n : ℕ) (hn : n < cfg0.N) (p : Fin 1024) (k : Fin 8),
    accAt m c n hn (ix2 p k)
      = psum (colF (arrA m c) (arrB m c) (arrW m c) (row (gi ⟨n, hn⟩) p) k) (n % 8 + 1) := by
  intro n
  induction n with
  | zero =>
    intro hn p k
    show accNext (iblk m c 0 ⟨0, hn⟩) (iblk m c 1 ⟨0, hn⟩) (iblk m c 2 ⟨0, hn⟩) (iblk m c 3 ⟨0, hn⟩) (iblk m c 4 ⟨0, hn⟩)
      accZero (ix2 p k) = _
    rw [accNext_apply, accZero_apply, zero_add, part_at]
    rw [show (0 % 8 + 1) = 0 + 1 from rfl, psum_succ _ 0 (by omega), psum_zero, zero_add]
    rfl
  | succ n ih =>
    intro hn p k
    show accNext (iblk m c 0 ⟨n + 1, hn⟩) (iblk m c 1 ⟨n + 1, hn⟩) (iblk m c 2 ⟨n + 1, hn⟩) (iblk m c 3 ⟨n + 1, hn⟩)
      (iblk m c 4 ⟨n + 1, hn⟩) (if (n + 1) % 8 = 0 then accZero else accAt m c n (Nat.lt_of_succ_lt hn)) (ix2 p k) = _
    rw [accNext_apply, part_at]
    by_cases h : (n + 1) % 8 = 0
    · rw [if_pos h, accZero_apply, zero_add, h, psum_succ _ 0 (by omega), psum_zero, zero_add]
      have e : gj ⟨n + 1, hn⟩ = ⟨0, by omega⟩ := Fin.ext h
      rw [e]
    · rw [if_neg h, ih]
      have e1 : gi ⟨n, Nat.lt_of_succ_lt hn⟩ = gi ⟨n + 1, hn⟩ := Fin.ext (by show n / 8 = (n + 1) / 8; omega)
      have e2 : (n + 1) % 8 + 1 = (n % 8 + 1) + 1 := by omega
      have e3 : gj ⟨n + 1, hn⟩ = ⟨n % 8 + 1, by omega⟩ := Fin.ext (by show (n + 1) % 8 = n % 8 + 1; omega)
      rw [e1, e2, psum_succ _ (n % 8 + 1) (by omega), e3]

end Cert.KernelIdeal.KV

end
-- ==== Proof.KValOut.lean ====
/-
  The output array after the region, and the five host operations after it. Window 5 is written back at the last point
  of every grid row, with the output block computed from the accumulator there; by then the accumulator's eight
  columns are the full sums over all 8192 columns, and the eight write-backs cover the 8192 rows. The tail sums the
  output array, divides by the word for 8192 and negates: minus the mean over the rows of the four row terms.
-/
import proofs.«118719_j43404939493422_2_alg».proof.Proof.KValAcc
import Idealize.ShloMosaic.Lib.Pipeline.Value
import Idealize.ShloMosaic.PureOps.Ideal.Laws

noncomputable section

open scoped BigOperators

namespace Cert.KernelIdeal.KV

open Cert.KernelIdeal Cert.KernelIdeal.Gen Cert.KernelIdeal.KB
open Idealize.ShloMosaic Idealize.ShloMosaic.TcCoe Idealize.ShloMosaic.ValueIdx Idealize.SL.Sem
open Idealize.ShloMosaic.Pipeline (Dat Cfg Window)
open Idealize.ShloMosaic.StableHlo

variable (m : (ℓ : Loc nD τ sig) → Buf (Elt Ideal) ℓ) (c : Dev nD)

/-- The output array, as a function of the index: row r holds the output entry of its eight full column sums. -/
def outG : S8192x1.Idx → EReal :=
  fun i => outRow (fun k => ∑ c' : Fin 8192, colF (arrA m c) (arrB m c) (arrW m c) (i 0) k c')

/-- What a last point of a grid row writes back is its block of that function. -/
theorem flushed5_eq (t : Fin cfg0.N) (hf : (cfg0.win 5).flush t = true) :
    (dats m 0 c).flushed 5 t = ((cfg0.win 5).blk t).view.read (Elt Ideal) (outG m c) := by
  have h7 : t.val % 8 = 7 := (flush0_5 t).1 hf
  show (cfg0.win 5).cut (grid0.coords t) ((dats m 0 c).after 5 t) = _
  rw [after5]
  funext y
  obtain ⟨p, u, rfl⟩ : ∃ (p : Fin 1024) (u : Fin 1), y = ix2 p u := ⟨y 0, y 1, eq_ix2 y⟩
  show outOf (accAt m c t.val t.isLt) (ix2 p u) = outG m c (((cfg0.win 5).blk t).view.emb (ix2 p u))
  rw [outOf_apply]
  have e : (((cfg0.win 5).blk t).view.emb (ix2 p u)) 0 = row (gi t) p := Fin.ext (by
    obtain ⟨-, -, -, -, -, -, -, -, -, -, e0, -⟩ := idx_facts t
    show win0_5.index t (0 : Fin 2) * 1024 + 1 * p.val = 1024 * (t.val / 8) + p.val; omega)
  unfold outG
  rw [e]
  refine congrArg outRow (funext fun k => ?_)
  rw [acc_closed, h7, psum_eight]

/-- An index of the output array is in point t's block iff each coordinate is in the block's range on its axis. -/
theorem mem_blk5 (t : Fin cfg0.N) (i : S8192x1.Idx) :
    i ∈ ((cfg0.win 5).blk t).view.set ↔ ∀ a : Fin 2, win0_5.index t a * S1024x1.size a ≤ (i a).val
      ∧ (i a).val < win0_5.index t a * S1024x1.size a + S1024x1.size a := by
  show i ∈ ((View.whole main_v16).slice (win0_5.rect t)).set ↔ _
  rw [View.set_slice_whole, Rect.mem_set_unit]
  exact Iff.rfl

/-- Every row of the output array is written back by the last point of its grid row. -/
theorem cover5 (i : S8192x1.Idx) :
    ∃ t : Fin cfg0.N, (cfg0.win 5).flush t = true ∧ i ∈ ((cfg0.win 5).blk t).view.set := by
  have hi0 : (i 0).val < 8192 := (i 0).isLt
  have hi1 : (i 1).val < 1 := (i 1).isLt
  obtain ⟨t, ht⟩ : ∃ t : Fin cfg0.N, t.val = 8 * ((i 0).val / 1024) + 7 :=
    ⟨⟨8 * ((i 0).val / 1024) + 7, lt_of_lt_of_eq (by omega) N_0.symm⟩, rfl⟩
  refine ⟨t, (flush0_5 t).2 (by omega), ?_⟩
  rw [mem_blk5]
  obtain ⟨-, -, -, -, -, -, -, -, -, -, e0, e1⟩ := idx_facts t
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 1 ≤ (i 1).val ∧ (i 1).val < win0_5.index t (1 : Fin 2) * 1 + 1
    omega

/-- The output array after the region. -/
theorem arrAt5_eq : ((dats m 0 c).arrAt 5 cfg0.N : S8192x1.Idx → EReal) = outG m c :=
  (dats m 0 c).arrAt_eq_of_cover 5 (outG m c) (flushed5_eq m c) (cover5)

/-- The five operations after the region, run from any contents that hold the output array, at their one index:
    minus the mean over the rows of the output array. -/
theorem tail_apply (Vx : Valuation τ sig (Elt Ideal))
    (h16 : (Vx (Proc.devRef .tc main_v16) : S8192x1.Idx → EReal) = outG m c) (i : S_.Idx) :
    StableHlo.after hostOps1 Vx (Proc.devRef .tc main_v19) i
      = -(Ideal.div (∑ r : Fin 8192, outG m c (ix2 r (0 : Fin 1))) Cert.Spec.nRows) := by
  have e : StableHlo.after hostOps1 Vx (Proc.devRef .tc main_v19)
      = Host.negf (F := Ideal) (Host.divf (F := Ideal)
          (Host.reduceAdd (F := Ideal) (Vx (Proc.devRef .tc main_v16) : S8192x1.Idx → EReal)
            (constant (F := Ideal) S_ .f32 0x00000000#32) reducesTo_S8192x1_S_d0_1 h_S_)
          (constant (F := Ideal) S_ .f32 0x46000000#32)) := by
    after_results
  rw [e, h16]
  show -(Ideal.div (Host.reduceAdd (F := Ideal) (outG m c) (constant (F := Ideal) S_ .f32 0x00000000#32)
      reducesTo_S8192x1_S_d0_1 h_S_ i) Cert.Spec.nRows) = _
  refine congrArg (fun z => -(Ideal.div z Cert.Spec.nRows)) ?_
  simp only [Host.reduceAdd, Ideal.hostReduceAdd_def]
  rw [Ideal.hostReduceAdd_total reducesTo_S8192x1_S_d0_1 (fun b => b.elim0), constant_apply, Ideal.ofBits_zero_f32, zero_add,
    sum_idx2]
  exact Finset.sum_congr rfl fun r _ => Fin.sum_univ_one _

/-- Those operations compute GK of the normalised inputs. -/
theorem tail_GK (Vx : Valuation τ sig (Elt Ideal))
    (h16 : (Vx (Proc.devRef .tc main_v16) : S8192x1.Idx → EReal) = outG m c) :
    StableHlo.after hostOps1 Vx (Proc.devRef .tc main_v19)
      = fun _ => Cert.Spec.GK (Cert.Spec.nrm (m ((c : Thread nD τ).loc main_arg0)))
          (Cert.Spec.nrm (m ((c : Thread nD τ).loc main_arg1))) (m ((c : Thread nD τ).loc main_arg2)) := by
  funext i
  rw [tail_apply m c Vx h16]
  unfold outG
  simp only [outRow_cols]
  rw [show arrA m c = Cert.Spec.nrm (m ((c : Thread nD τ).loc main_arg0)) from V_v7 m c,
    show arrB m c = Cert.Spec.nrm (m ((c : Thread nD τ).loc main_arg1)) from V_v15 m c,
    show arrW m c = m ((c : Thread nD τ).loc main_arg2) from V_arg2 m c]
  rfl

end Cert.KernelIdeal.KV

end
-- ==== Proof.KVal.lean ====
/-
  The kernel's result. When the region is left the buffers are as it found them but for the output array, so the
  five host operations after it compute GK of the row-normalised first two arguments and the third.
-/
import proofs.«118719_j43404939493422_2_alg».proof.Proof.KValOut
import proofs.«118719_j43404939493422_2_alg».proof.Proof.KRun

noncomputable section

open scoped BigOperators

namespace Cert.KernelIdeal.KV

open Cert.KernelIdeal Cert.KernelIdeal.Gen Cert.KernelIdeal.KB
open Idealize.ShloMosaic Idealize.ShloMosaic.TcCoe Idealize.ShloMosaic.ValueIdx Idealize.SL.Sem
open Idealize.ShloMosaic.Pipeline (Dat Cfg Window)
open Idealize.ShloMosaic.StableHlo

variable (m : (ℓ : Loc nD τ sig) → Buf (Elt Ideal) ℓ) (c : Dev nD)

/-- The program's result is GK of the normalised inputs. -/
theorem kernel_val :
    StableHlo.after hostOps1 (Cert.KernelIdeal.KB.V1 m c) (Proc.devRef .tc main_v19)
      = fun _ => Cert.Spec.GK (Cert.Spec.nrm (m ((c : Thread nD τ).loc main_arg0)))
          (Cert.Spec.nrm (m ((c : Thread nD τ).loc main_arg1))) (m ((c : Thread nD τ).loc main_arg2)) :=
  tail_GK m c (V1 m c) (by unfold V1 outArr; rw [Function.update_self]; exact arrAt5_eq m c)

end Cert.KernelIdeal.KV

end
-- ==== Proof.RefOps.lean ====
/-
  The whole-array operations of the reference, each read at one index given by its coordinates: a row sum and a total
  sum started from the zero word, the two broadcasts of a column, a broadcast scalar, the two transposes, and the
  product of an 8192 x 64 array with a 64 x 8192 one as a sum over the 64 shared coordinates.
-/
import proofs.«118719_j43404939493422_2_alg».proof.Proof.Spec
import proofs.«118719_j43404939493422_2_alg».proof.Proof.Gen.ReferenceIdeal.Read

noncomputable section

open scoped BigOperators

namespace Cert.RefSide

open Idealize.ShloMosaic Idealize.ShloMosaic.ValueIdx Cert.ReferenceIdeal Cert.ReferenceIdeal.Gen Cert.ReferenceIdeal.Read

section Pointwise
variable {s : Shape} {φ : FTy}

/-- The host's quotient, exponential, logarithm and negation act entry by entry. -/
theorem hdiv_apply (a b : FVec Ideal s φ) (i : s.Idx) : Host.divf (F := Ideal) a b i = Ideal.div (a i) (b i) := rfl
theorem hexp_apply (a : FVec Ideal s φ) (i : s.Idx) : Host.exp (F := Ideal) a i = Ideal.exp (a i) := rfl
theorem hlog_apply (a : FVec Ideal s φ) (i : s.Idx) : Host.log (F := Ideal) a i = Ideal.log (a i) := rfl
theorem hneg_apply (a : FVec Ideal s φ) (i : s.Idx) : Host.negf (F := Ideal) a i = -(a i) := rfl

end Pointwise

/-- A scalar spread over any shape reads the scalar. -/
theorem scalar_apply {T : Shape} {α : Type} (h : S_.BroadcastsInDim T ![]) (x : S_.Idx → α) (j : T.Idx) :
    broadcastInDim T ![] h x j = x ix0 := by
  unfold broadcastInDim; exact congrArg x (funext fun a => a.elim0)

/-- A vector of 8192 entries written as a column: entry (r, 0) is entry r. -/
theorem col_apply {α : Type} (v : S8192.Idx → α) (r : Fin 8192) (z : Fin 1) :
    broadcastInDim S8192x1 ![0] bcast_S8192_S8192x1_0 v (ix2 r z) = v (ix1 r) :=
  broadcastInDim_apply _ bcast_S8192_S8192x1_0 v (ix2 r z) (ix1 r) (fun a => match a with
    | ⟨0, _⟩ => by show r.val = if (8192 : Nat) = 1 then 0 else r.val; rw [if_neg (by decide)])

/-- A column repeated along every row of the square: entry (r, c) is the column's entry (r, 0). -/
theorem spread_apply {α : Type} (w : S8192x1.Idx → α) (r c : Fin 8192) :
    broadcastInDim S8192x8192 ![0, 1] bcast_S8192x1_S8192x8192_0_1 w (ix2 r c) = w (ix2 r (0 : Fin 1)) :=
  broadcastInDim_apply _ bcast_S8192x1_S8192x8192_0_1 w (ix2 r c) (ix2 r (0 : Fin 1)) (fun a => match a with
    | ⟨0, _⟩ => by show r.val = if (8192 : Nat) = 1 then 0 else r.val; rw [if_neg (by decide)]
    | ⟨1, _⟩ => by show 0 = if (1 : Nat) = 1 then 0 else c.val; rw [if_pos rfl])

/-- The transpose of an 8192 x 64 array: entry (k, c) is entry (c, k). -/
theorem tr64_apply {α : Type} (b : S8192x64.Idx → α) (k : Fin 64) (c : Fin 8192) :
    transpose S64x8192 [1, 0] b transposes_S8192x64_S64x8192_1_0 (ix2 k c) = b (ix2 c k) :=
  transpose_apply [1, 0] b transposes_S8192x64_S64x8192_1_0 (ix2 k c) (ix2 c k) (fun d => match d with
    | ⟨0, _⟩ => rfl
    | ⟨1, _⟩ => rfl)

/-- The transpose of the square: entry (r, c) is entry (c, r). -/
theorem trSq_apply {α : Type} (M : S8192x8192.Idx → α) (r c : Fin 8192) :
    transpose S8192x8192 [1, 0] M transposes_S8192x8192_S8192x8192_1_0 (ix2 r c) = M (ix2 c r) :=
  transpose_apply [1, 0] M transposes_S8192x8192_S8192x8192_1_0 (ix2 r c) (ix2 c r) (fun d => match d with
    | ⟨0, _⟩ => rfl
    | ⟨1, _⟩ => rfl)

/-- The sum of row r of a square array, started from the zero word. -/
theorem rowsum_apply (X : FVec Ideal S8192x8192 .f32) (r : Fin 8192) :
    Host.reduceAdd (F := Ideal) X (constant (F := Ideal) S_ .f32 0x00000000#32) reducesTo_S8192x8192_S8192_d1 h_S_ (ix1 r)
      = ∑ c : Fin 8192, X (ix2 r c) := by
  simp only [Host.reduceAdd, Ideal.hostReduceAdd_def]
  rw [Ideal.hostReduceAdd_single reducesTo_S8192x8192_S8192_d1 (by decide), constant_apply, Ideal.ofBits_zero_f32, zero_add]
  refine Finset.sum_congr rfl fun k _ => ?_
  exact congrArg X (funext fun a => Fin.ext (by match a with | ⟨0, _⟩ => rfl | ⟨1, _⟩ => rfl))

/-- The indices of a vector of 8192 entries are its 8192 coordinates. -/
def rowEquiv : S8192.Idx ≃ Fin 8192 where
  toFun i := i 0
  invFun r := ix1 r
  left_inv i := (eq_ix1 i).symm
  right_inv _ := rfl

/-- The sum of all 8192 entries of a vector, started from the zero word. -/
theorem total_apply (v : FVec Ideal S8192 .f32) (i : S_.Idx) :
    Host.reduceAdd (F := Ideal) v (constant (F := Ideal) S_ .f32 0x00000000#32) reducesTo_S8192_S_d0 h_S_ i
      = ∑ r : Fin 8192, v (ix1 r) := by
  simp only [Host.reduceAdd, Ideal.hostReduceAdd_def]
  rw [Ideal.hostReduceAdd_total reducesTo_S8192_S_d0 (fun b => b.elim0), constant_apply, Ideal.ofBits_zero_f32, zero_add]
  exact (Equiv.sum_comp rowEquiv.symm v).symm

/-- Entry (r, c) of the product of an 8192 x 64 array with a 64 x 8192 one: the sum over the 64 shared coordinates. -/
theorem dot_apply (a : FVec Ideal S8192x64 .f32) (bt : FVec Ideal S64x8192 .f32) (r c : Fin 8192) :
    Host.dotGeneral (F := Ideal) dot_S8192x64_S64x8192_S8192x8192_1_0_0_1_n_n none a bt (ix2 r c)
      = ∑ k : Fin 64, a (ix2 r k) * bt (ix2 k c) := by
  simp only [Host.dotGeneral]
  rw [Ideal.dotGeneral_apply, ← Equiv.sum_comp (ValueIdx.contrEquiv1 dot_S8192x64_S64x8192_S8192x8192_1_0_0_1_n_n 64 rfl rfl).symm]
  refine Finset.sum_congr rfl fun k _ => ?_
  have hk := ValueIdx.contrEquiv1_symm_val dot_S8192x64_S64x8192_S8192x8192_1_0_0_1_n_n 64 rfl rfl k
  have el : dot_S8192x64_S64x8192_S8192x8192_1_0_0_1_n_n.lhsIdx (ix2 r c) ((ValueIdx.contrEquiv1 dot_S8192x64_S64x8192_S8192x8192_1_0_0_1_n_n 64 rfl rfl).symm k) = ix2 r k := funext fun d => Fin.ext (by
    match d with
    | ⟨0, _⟩ => exact lhs_main_v17_0 _ _
    | ⟨1, _⟩ => exact (lhs_main_v17_1 _ _).trans hk)
  have er : dot_S8192x64_S64x8192_S8192x8192_1_0_0_1_n_n.rhsIdx (ix2 r c) ((ValueIdx.contrEquiv1 dot_S8192x64_S64x8192_S8192x8192_1_0_0_1_n_n 64 rfl rfl).symm k) = ix2 k c := funext fun d => Fin.ext (by
    match d with
    | ⟨0, _⟩ => exact (rhs_main_v17_0 _ _).trans hk
    | ⟨1, _⟩ => exact rhs_main_v17_1 _ _)
  rw [el, er]

end Cert.RefSide

end
-- ==== Proof.RefSim.lean ====
/-
  The matrix of exponentials. From two arrays a, b of 8192 rows of 64 entries the reference forms the product of a with
  the transpose of b, divides every entry by the word for 1/2 and takes the exponential: entry (r, c) is
  exp (<a_r, b_c> / (1/2)). Its three matrices are this one function at the normalised inputs, and the fourth is the
  transpose of the first.
-/
import proofs.«118719_j43404939493422_2_alg».proof.Proof.RefOps

noncomputable section

open scoped BigOperators

namespace Cert.RefSide

open Idealize.ShloMosaic Idealize.ShloMosaic.ValueIdx Cert.ReferenceIdeal Cert.ReferenceIdeal.Gen Cert.ReferenceIdeal.Read

/-- exp ((a b^T) / (1/2)), written with the host's whole-array operations. -/
def sim (a b : FVec Ideal S8192x64 .f32) : FVec Ideal S8192x8192 .f32 :=
  Host.exp (F := Ideal) (Host.divf (F := Ideal)
    (Host.dotGeneral (F := Ideal) dot_S8192x64_S64x8192_S8192x8192_1_0_0_1_n_n none a
      (transpose S64x8192 [1, 0] b transposes_S8192x64_S64x8192_1_0))
    (broadcastInDim S8192x8192 ![] bcast_S_S8192x8192 (constant (F := Ideal) S_ .f32 0x3F000000#32)))

/-- Entry (r, c) of the product of a with the transpose of b is the inner product of row r of a with row c of b. -/
theorem dotTr_apply (a b : FVec Ideal S8192x64 .f32) (r c : Fin 8192) :
    Host.dotGeneral (F := Ideal) dot_S8192x64_S64x8192_S8192x8192_1_0_0_1_n_n none a
        (transpose S64x8192 [1, 0] b transposes_S8192x64_S64x8192_1_0) (ix2 r c)
      = Cert.Spec.dotT a b r c :=
  (dot_apply a _ r c).trans (Finset.sum_congr rfl fun k _ => congrArg (a (ix2 r k) * ·) (tr64_apply b k c))

/-- Entry (r, c) of that matrix is the exponential of the inner product of row r of a with row c of b, over 1/2. -/
theorem sim_apply (a b : FVec Ideal S8192x64 .f32) (r c : Fin 8192) :
    sim a b (ix2 r c) = Cert.Spec.ER a b r c := by
  unfold sim
  rw [hexp_apply, hdiv_apply, dotTr_apply, scalar_apply]
  rfl

/-- As a function of the two coordinates it is the specification's matrix. -/
theorem sim_fun (a b : FVec Ideal S8192x64 .f32) : (fun r c : Fin 8192 => sim a b (ix2 r c)) = Cert.Spec.ER a b :=
  funext fun r => funext fun c => sim_apply a b r c

/-- The normalisations the reference repeats are all the one row normalisation. -/
theorem v7_nrm (x0 : FVec Ideal S8192x64 .f32) : val_main_v7 (F := Ideal) x0 = Cert.Spec.nrm x0 := rfl
theorem v15_nrm (x1 : FVec Ideal S8192x64 .f32) : val_main_v15 (F := Ideal) x1 = Cert.Spec.nrm x1 := rfl
theorem v29_nrm (x0 : FVec Ideal S8192x64 .f32) : val_main_v29 (F := Ideal) x0 = Cert.Spec.nrm x0 := rfl
theorem v37_nrm (x0 : FVec Ideal S8192x64 .f32) : val_main_v37 (F := Ideal) x0 = Cert.Spec.nrm x0 := rfl
theorem v50_nrm (x1 : FVec Ideal S8192x64 .f32) : val_main_v50 (F := Ideal) x1 = Cert.Spec.nrm x1 := rfl
theorem v58_nrm (x1 : FVec Ideal S8192x64 .f32) : val_main_v58 (F := Ideal) x1 = Cert.Spec.nrm x1 := rfl

/-- The reference's three matrices of exponentials, and the transposed one. -/
theorem v20_sim (x0 x1 : FVec Ideal S8192x64 .f32) :
    val_main_v20 (F := Ideal) x0 x1 = sim (Cert.Spec.nrm x0) (Cert.Spec.nrm x1) := rfl
theorem v42_sim (x0 : FVec Ideal S8192x64 .f32) :
    val_main_v42 (F := Ideal) x0 = sim (Cert.Spec.nrm x0) (Cert.Spec.nrm x0) := rfl
theorem v63_sim (x1 : FVec Ideal S8192x64 .f32) :
    val_main_v63 (F := Ideal) x1 = sim (Cert.Spec.nrm x1) (Cert.Spec.nrm x1) := rfl
theorem v21_sim (x0 x1 : FVec Ideal S8192x64 .f32) :
    val_main_v21 (F := Ideal) x0 x1
      = transpose S8192x8192 [1, 0] (sim (Cert.Spec.nrm x0) (Cert.Spec.nrm x1)) transposes_S8192x8192_S8192x8192_1_0 := rfl

/-- The transposed matrix as a function of the two coordinates. -/
theorem trSim_fun (a b : FVec Ideal S8192x64 .f32) :
    (fun r c : Fin 8192 => transpose S8192x8192 [1, 0] (sim a b) transposes_S8192x8192_S8192x8192_1_0 (ix2 r c))
      = fun r c => Cert.Spec.ER a b c r :=
  funext fun r => funext fun c => (trSq_apply (sim a b) r c).trans (sim_apply a b c r)

end Cert.RefSide

end
-- ==== Proof.RefTerm.lean ====
/-
  One loss term. From a square matrix M and the weights p the reference forms the row sums of M, adds the word for
  1e-8, divides every entry of M by its row's value, multiplies by p entry by entry, sums every row, takes the
  logarithm, sums the 8192 logarithms, divides by the word for 8192 and negates. Read at its one index this is the
  specification's term for the matrix (r, c) |-> M (r, c).
-/
import proofs.«118719_j43404939493422_2_alg».proof.Proof.RefOps

noncomputable section

open scoped BigOperators

namespace Cert.RefSide

open Idealize.ShloMosaic Idealize.ShloMosaic.ValueIdx Cert.ReferenceIdeal Cert.ReferenceIdeal.Gen Cert.ReferenceIdeal.Read

/-- The row sums plus eps, spread over the square. -/
def denom (M : FVec Ideal S8192x8192 .f32) : FVec Ideal S8192x8192 .f32 :=
  broadcastInDim S8192x8192 ![0, 1] bcast_S8192x1_S8192x8192_0_1
    (addf (F := Ideal)
      (broadcastInDim S8192x1 ![0] bcast_S8192_S8192x1_0
        (Host.reduceAdd (F := Ideal) M (constant (F := Ideal) S_ .f32 0x00000000#32) reducesTo_S8192x8192_S8192_d1 h_S_))
      (broadcastInDim S8192x1 ![] bcast_S_S8192x1 (constant (F := Ideal) S_ .f32 0x322BCC77#32)))

/-- The logarithm of every row's weighted sum of the divided entries. -/
def rowLogs (M p : FVec Ideal S8192x8192 .f32) : FVec Ideal S8192 .f32 :=
  Host.log (F := Ideal)
    (Host.reduceAdd (F := Ideal) (mulf (F := Ideal) (Host.divf (F := Ideal) M (denom M)) p)
      (constant (F := Ideal) S_ .f32 0x00000000#32) reducesTo_S8192x8192_S8192_d1 h_S_)

/-- Minus the mean of the 8192 logarithms. -/
def term (M p : FVec Ideal S8192x8192 .f32) : FVec Ideal S_ .f32 :=
  Host.negf (F := Ideal) (Host.divf (F := Ideal)
    (Host.reduceAdd (F := Ideal) (rowLogs M p) (constant (F := Ideal) S_ .f32 0x00000000#32) reducesTo_S8192_S_d0 h_S_)
    (constant (F := Ideal) S_ .f32 0x46000000#32))

theorem denom_apply (M : FVec Ideal S8192x8192 .f32) (r c : Fin 8192) :
    denom M (ix2 r c) = (∑ c' : Fin 8192, M (ix2 r c')) + Cert.Spec.epsRow := by
  unfold denom
  rw [spread_apply, addf_apply, col_apply, scalar_apply, rowsum_apply]
  rfl

theorem rowLogs_apply (M p : FVec Ideal S8192x8192 .f32) (r : Fin 8192) :
    rowLogs M p (ix1 r)
      = Ideal.log (∑ c : Fin 8192, Ideal.div (M (ix2 r c)) ((∑ c' : Fin 8192, M (ix2 r c')) + Cert.Spec.epsRow) * p (ix2 r c)) := by
  unfold rowLogs
  rw [hlog_apply, rowsum_apply]
  simp only [mulf_apply, hdiv_apply, denom_apply]

/-- The term at its one index is the specification's term. -/
theorem term_apply (M p : FVec Ideal S8192x8192 .f32) (i : S_.Idx) :
    term M p i = Cert.Spec.termR (fun r c => M (ix2 r c)) p := by
  unfold term
  rw [hneg_apply, hdiv_apply, total_apply]
  simp only [rowLogs_apply]
  rfl

end Cert.RefSide

end
-- ==== Proof.RefIsGR.lean ====
/-
  The reference's result is the specification's GR at the normalised inputs. Each of its four loss terms is the one
  term function applied to one of its four matrices of exponentials; the matrices are the specification's E at the
  normalised rows (the second the transpose of the first); the result adds the four terms from the left.
-/
import proofs.«118719_j43404939493422_2_alg».proof.Proof.RefSim
import proofs.«118719_j43404939493422_2_alg».proof.Proof.RefTerm

noncomputable section

open scoped BigOperators

namespace Cert.RefSide

open Idealize.ShloMosaic Idealize.ShloMosaic.ValueIdx Cert.ReferenceIdeal Cert.ReferenceIdeal.Gen Cert.ReferenceIdeal.Read

/-- Each of the four terms is the term function at its matrix. -/
theorem v75_term (x0 x1 : FVec Ideal S8192x64 .f32) (p : FVec Ideal S8192x8192 .f32) :
    val_main_v75 (F := Ideal) x0 x1 p = term (val_main_v20 (F := Ideal) x0 x1) p := rfl
theorem v87_term (x0 x1 : FVec Ideal S8192x64 .f32) (p : FVec Ideal S8192x8192 .f32) :
    val_main_v87 (F := Ideal) x0 x1 p = term (val_main_v21 (F := Ideal) x0 x1) p := rfl
theorem v100_term (x0 : FVec Ideal S8192x64 .f32) (p : FVec Ideal S8192x8192 .f32) :
    val_main_v100 (F := Ideal) x0 p = term (val_main_v42 (F := Ideal) x0) p := rfl
theorem v113_term (x1 : FVec Ideal S8192x64 .f32) (p : FVec Ideal S8192x8192 .f32) :
    val_main_v113 (F := Ideal) x1 p = term (val_main_v63 (F := Ideal) x1) p := rfl

/-- The last stage is the sum of the four terms, added from the left. -/
theorem v114_sum (x0 x1 : FVec Ideal S8192x64 .f32) (p : FVec Ideal S8192x8192 .f32) (i : S_.Idx) :
    val_main_v114 (F := Ideal) x0 x1 p i
      = ((val_main_v75 (F := Ideal) x0 x1 p i + val_main_v87 (F := Ideal) x0 x1 p i) + val_main_v100 (F := Ideal) x0 p i)
          + val_main_v113 (F := Ideal) x1 p i := rfl

/-- The reference computes GR of the normalised inputs. -/
theorem ref_val (x0 x1 : FVec Ideal S8192x64 .f32) (p : FVec Ideal S8192x8192 .f32) :
    val_main_v114 (F := Ideal) x0 x1 p = fun _ => Cert.Spec.GR (Cert.Spec.nrm x0) (Cert.Spec.nrm x1) p := by
  funext i
  rw [v114_sum, v75_term, v87_term, v100_term, v113_term, v20_sim, v21_sim, v42_sim, v63_sim,
    term_apply, term_apply, term_apply, term_apply,
    sim_fun (Cert.Spec.nrm x0) (Cert.Spec.nrm x1), trSim_fun (Cert.Spec.nrm x0) (Cert.Spec.nrm x1),
    sim_fun (Cert.Spec.nrm x0) (Cert.Spec.nrm x0), sim_fun (Cert.Spec.nrm x1) (Cert.Spec.nrm x1)]
  rfl

end Cert.RefSide

end
-- ==== Proof.AlgConst.lean ====
/-
  The float32 words of the statement, evaluated once as extended reals.
-/
import proofs.«118719_j43404939493422_2_alg».proof.Proof.Spec

noncomputable section

namespace Cert.Spec

open Idealize.ShloMosaic

/-- The word 0x40000000 is the real number 2. -/
theorem two_eq : two = ((2 : ℝ) : EReal) := by
  unfold two; simp [Ideal.ofBits, Ideal.ieee, -EReal.coe_mul]; norm_num

/-- The word 0x3F000000 is the real number 1/2. -/
theorem half_eq : half = ((1 / 2 : ℝ) : EReal) := by
  unfold half; simp [Ideal.ofBits, Ideal.ieee, -EReal.coe_mul]; norm_num

/-- The word 0x46000000 is the real number 8192. -/
theorem nRows_eq : nRows = ((8192 : ℝ) : EReal) := by
  unfold nRows; simp [Ideal.ofBits, Ideal.ieee, -EReal.coe_mul]; norm_num

/-- The word 0x322BCC77 is a positive real. -/
theorem epsRow_pos : ∃ e : ℝ, 0 < e ∧ epsRow = (e : EReal) := by
  unfold epsRow
  refine ⟨_, ?_, by simp [Ideal.ofBits, Ideal.ieee, -EReal.coe_mul]; rfl⟩
  positivity

/-- The word 0x2B8CBCCC is a positive real. -/
theorem epsLen_pos : ∃ e : ℝ, 0 < e ∧ Ideal.ofBits .f32 0x2B8CBCCC#32 = (e : EReal) := by
  refine ⟨_, ?_, by simp [Ideal.ofBits, Ideal.ieee, -EReal.coe_mul]; rfl⟩
  positivity

end Cert.Spec

end
-- ==== Proof.AlgReal.lean ====
/-
  Small facts about the extended reals used by the algebra of the statement: sums and products of reals are reals,
  multiplication by a nonnegative real distributes over any finite sum, negation distributes over a sum that has no
  summand equal to the top element, and the row identity  sum_c (M c / d) p c = (sum_c M c p c) / d  for 0 < d.
  Everything is stated over an arbitrary finite index set.
-/
import Idealize.ShloMosaic.PureOps.Ideal

noncomputable section

open scoped BigOperators

namespace Cert.Spec

open Idealize.ShloMosaic

/-- An extended real that is a real number. -/
def IsR (x : EReal) : Prop := ∃ r : ℝ, x = (r : EReal)

theorem IsR.coe (r : ℝ) : IsR (r : EReal) := ⟨r, rfl⟩

theorem IsR.ne_top {x : EReal} (h : IsR x) : x ≠ ⊤ := by
  obtain ⟨r, rfl⟩ := h; exact EReal.coe_ne_top r

theorem IsR.add {x y : EReal} (hx : IsR x) (hy : IsR y) : IsR (x + y) := by
  obtain ⟨r, rfl⟩ := hx; obtain ⟨s, rfl⟩ := hy; exact ⟨r + s, (EReal.coe_add r s).symm⟩

theorem IsR.mul {x y : EReal} (hx : IsR x) (hy : IsR y) : IsR (x * y) := by
  obtain ⟨r, rfl⟩ := hx; obtain ⟨s, rfl⟩ := hy; exact ⟨r * s, (EReal.coe_mul r s).symm⟩

/-- A finite sum of reals is a real. -/
theorem IsR.sum {ι : Type*} (s : Finset ι) (f : ι → EReal) (h : ∀ i ∈ s, IsR (f i)) : IsR (∑ i ∈ s, f i) := by
  classical
  induction s using Finset.induction_on with
  | empty => exact ⟨0, by rw [Finset.sum_empty]; rfl⟩
  | insert a s ha ih =>
    rw [Finset.sum_insert ha]
    exact (h a (Finset.mem_insert_self a s)).add (ih fun i hi => h i (Finset.mem_insert_of_mem hi))

/-- The exponential of a real is a real. -/
theorem IsR.exp {x : EReal} (h : IsR x) : IsR (Ideal.exp x) := by
  obtain ⟨r, rfl⟩ := h; exact ⟨Real.exp r, rfl⟩

/-- The exponential is nonnegative at every extended real. -/
theorem exp_nonneg (x : EReal) : 0 ≤ Ideal.exp x := by
  induction x with
  | bot => exact le_of_eq Ideal.exp_bot.symm
  | top => rw [Ideal.exp_top]; exact le_top
  | coe r => rw [Ideal.exp_coe]; exact EReal.coe_nonneg.2 (Real.exp_nonneg r)

/-- A real divided by a positive real is a real. -/
theorem IsR.div_pos {x : EReal} {d : ℝ} (hx : IsR x) (hd : 0 < d) : IsR (Ideal.div x (d : EReal)) := by
  rw [Ideal.div_coe hd.ne']; exact hx.mul ⟨_, rfl⟩

/-- The logarithm takes the top element only at the top element. -/
theorem log_ne_top {x : EReal} (h : x ≠ ⊤) : Ideal.log x ≠ ⊤ := by
  induction x with
  | bot => rw [Ideal.log_bot]; exact bot_ne_top
  | top => exact absurd rfl h
  | coe r =>
    rw [Ideal.log_coe]
    split_ifs
    · exact bot_ne_top
    · exact EReal.coe_ne_top _

/-- Off zero the quotient is the product with the inverse. -/
theorem div_eq_mul_inv {x d : EReal} (hd : d ≠ 0) : Ideal.div x d = x * d⁻¹ := by
  unfold Ideal.div; rw [if_neg hd]

/-- Multiplication by a nonnegative element other than the top one distributes over every finite sum. -/
theorem sum_mul_nonneg {ι : Type*} (s : Finset ι) (f : ι → EReal) {t : EReal} (ht : 0 ≤ t) (ht' : t ≠ ⊤) :
    ∑ i ∈ s, f i * t = (∑ i ∈ s, f i) * t := by
  classical
  induction s using Finset.induction_on with
  | empty => rw [Finset.sum_empty, Finset.sum_empty, zero_mul]
  | insert a s ha ih =>
    rw [Finset.sum_insert ha, Finset.sum_insert ha, ih, EReal.right_distrib_of_nonneg_of_ne_top ht ht']

/-- The row identity: dividing every entry of a row by a positive d before weighting and summing is dividing the
    weighted sum by d once. The inverse of a positive extended real is a nonnegative real (zero at the top element),
    so it distributes over the sum whatever the summands are. -/
theorem row_div {ι : Type*} (s : Finset ι) (M p : ι → EReal) {d : EReal} (hd : 0 < d) :
    ∑ c ∈ s, Ideal.div (M c) d * p c = Ideal.div (∑ c ∈ s, M c * p c) d := by
  have hd0 : d ≠ 0 := hd.ne'
  rw [div_eq_mul_inv hd0, ← sum_mul_nonneg s _ (EReal.inv_nonneg_of_nonneg hd.le) (EReal.inv_lt_top d).ne]
  refine Finset.sum_congr rfl fun c _ => ?_
  rw [div_eq_mul_inv hd0, mul_right_comm]

/-- Negation distributes over a sum of two elements neither of which is the top one. -/
theorem neg_add_of_ne_top {x y : EReal} (hx : x ≠ ⊤) (hy : y ≠ ⊤) : -(x + y) = -x + -y := by
  rw [EReal.neg_add (Or.inr hy) (Or.inl hx), sub_eq_add_neg]

/-- A finite sum without a top summand is not the top element. -/
theorem sum_ne_top {ι : Type*} (s : Finset ι) (f : ι → EReal) (h : ∀ i ∈ s, f i ≠ ⊤) : ∑ i ∈ s, f i ≠ ⊤ := by
  classical
  induction s using Finset.induction_on with
  | empty => rw [Finset.sum_empty]; exact EReal.zero_ne_top
  | insert a s ha ih =>
    rw [Finset.sum_insert ha]
    exact EReal.add_ne_top (h a (Finset.mem_insert_self a s)) (ih fun i hi => h i (Finset.mem_insert_of_mem hi))

/-- The product of an element other than the top one with a positive real is not the top element. -/
theorem mul_coe_ne_top {x : EReal} (hx : x ≠ ⊤) {t : ℝ} (ht : 0 < t) : x * (t : EReal) ≠ ⊤ := by
  induction x with
  | bot => rw [EReal.bot_mul_coe_of_pos ht]; exact bot_ne_top
  | top => exact absurd rfl hx
  | coe r => rw [← EReal.coe_mul]; exact EReal.coe_ne_top _

/-- The outer rearrangement: minus the mean of a sum of four terms is the sum of the four minus-means, as soon as no
    term is the top element (so that no two opposite infinities meet under the negation). -/
theorem neg_mean_add4 {ι : Type*} (s : Finset ι) (A B C D : ι → EReal)
    (hA : ∀ i ∈ s, A i ≠ ⊤) (hB : ∀ i ∈ s, B i ≠ ⊤) (hC : ∀ i ∈ s, C i ≠ ⊤) (hD : ∀ i ∈ s, D i ≠ ⊤)
    {n : ℝ} (hn : 0 < n) :
    - Ideal.div (∑ r ∈ s, (((A r + B r) + C r) + D r)) (n : EReal)
      = ((- Ideal.div (∑ r ∈ s, A r) (n : EReal) + - Ideal.div (∑ r ∈ s, B r) (n : EReal))
          + - Ideal.div (∑ r ∈ s, C r) (n : EReal)) + - Ideal.div (∑ r ∈ s, D r) (n : EReal) := by
  have ht : 0 < 1 / n := one_div_pos.2 hn
  have ht0 : (0 : EReal) ≤ ((1 / n : ℝ) : EReal) := EReal.coe_nonneg.2 ht.le
  have htt : ((1 / n : ℝ) : EReal) ≠ ⊤ := EReal.coe_ne_top _
  have sA := mul_coe_ne_top (sum_ne_top s A hA) ht
  have sB := mul_coe_ne_top (sum_ne_top s B hB) ht
  have sC := mul_coe_ne_top (sum_ne_top s C hC) ht
  have sD := mul_coe_ne_top (sum_ne_top s D hD) ht
  rw [Ideal.div_coe hn.ne', Ideal.div_coe hn.ne', Ideal.div_coe hn.ne', Ideal.div_coe hn.ne', Ideal.div_coe hn.ne',
    Finset.sum_add_distrib, Finset.sum_add_distrib, Finset.sum_add_distrib,
    EReal.right_distrib_of_nonneg_of_ne_top ht0 htt, EReal.right_distrib_of_nonneg_of_ne_top ht0 htt,
    EReal.right_distrib_of_nonneg_of_ne_top ht0 htt,
    neg_add_of_ne_top (EReal.add_ne_top (EReal.add_ne_top sA sB) sC) sD,
    neg_add_of_ne_top (EReal.add_ne_top sA sB) sC, neg_add_of_ne_top sA sB]

end Cert.Spec

end
-- ==== Proof.Algebra.lean ====
/-
  The algebra of the statement on the extended reals: the kernel-shaped result GK and the reference-shaped
  result GR of the shared specification are one extended real as soon as the three arrays are real-valued.

  Four steps. (1) The inner product is symmetric, so the reference's transposed matrix is the matrix of the swapped
  operands. (2) Multiplying by 2 is dividing by 1/2, so the two spellings of the similarity agree entry by entry.
  (3) In each row the denominator (a sum of exponentials plus a positive constant) is positive, so dividing every
  entry by it before weighting is dividing the weighted sum once. (4) Every row term is a logarithm of a real, hence
  never the top element, so minus the mean of the sum of the four row terms is the sum of the four minus-means.
-/
import proofs.«118719_j43404939493422_2_alg».proof.Proof.Spec
import proofs.«118719_j43404939493422_2_alg».proof.Proof.AlgConst
import proofs.«118719_j43404939493422_2_alg».proof.Proof.AlgReal

noncomputable section

open scoped BigOperators

namespace Cert.Spec

open Idealize.ShloMosaic Idealize.ShloMosaic.ValueIdx

/-- The inner product is symmetric. -/
theorem dotT_comm (a b : FVec Ideal R64 .f32) (r c : Fin 8192) : dotT a b r c = dotT b a c r := by
  unfold dotT; exact Finset.sum_congr rfl fun k _ => mul_comm _ _

/-- Multiplying by 2 is dividing by 1/2: the two spellings of the similarity agree. -/
theorem EK_eq_ER (a b : FVec Ideal R64 .f32) (r c : Fin 8192) : EK a b r c = ER a b r c := by
  unfold EK ER
  have h2 : (1 / (1 / 2) : ℝ) = 2 := by norm_num
  rw [two_eq, half_eq, Ideal.div_coe (by norm_num), h2]

theorem ER_eq_EK (a b : FVec Ideal R64 .f32) : ER a b = EK a b := by
  funext r c; exact (EK_eq_ER a b r c).symm

/-- The transpose of the similarity matrix of (a, b) is the similarity matrix of (b, a). -/
theorem ER_transpose (a b : FVec Ideal R64 .f32) : (fun r c => ER a b c r) = EK b a := by
  funext r c
  show ER a b c r = EK b a r c
  rw [← EK_eq_ER]; unfold EK; rw [dotT_comm a b c r]

/-- Inner products of real rows are real. -/
theorem dotT_real (a b : FVec Ideal R64 .f32) (ha : ∀ i, IsR (a i)) (hb : ∀ i, IsR (b i)) (r c : Fin 8192) :
    IsR (dotT a b r c) :=
  IsR.sum _ _ fun _ _ => (ha _).mul (hb _)

/-- The similarities of real rows are real ... -/
theorem EK_real (a b : FVec Ideal R64 .f32) (ha : ∀ i, IsR (a i)) (hb : ∀ i, IsR (b i)) (r c : Fin 8192) :
    IsR (EK a b r c) := by
  unfold EK; rw [two_eq]; exact ((dotT_real a b ha hb r c).mul (IsR.coe 2)).exp

/-- ... and nonnegative, whatever the rows. -/
theorem EK_nonneg (a b : FVec Ideal R64 .f32) (r c : Fin 8192) : 0 ≤ EK a b r c := exp_nonneg _

/-- The denominator of a row of nonnegative entries is positive. -/
theorem den_pos (M : Fin 8192 → Fin 8192 → EReal) (hM0 : ∀ r c, 0 ≤ M r c) (r : Fin 8192) :
    0 < (∑ c' : Fin 8192, M r c') + epsRow := by
  obtain ⟨e, he, hee⟩ := epsRow_pos
  rw [hee]
  calc (0 : EReal) < (e : EReal) := EReal.coe_pos.2 he
    _ = 0 + (e : EReal) := (zero_add _).symm
    _ ≤ (∑ c' : Fin 8192, M r c') + (e : EReal) := add_le_add (Finset.sum_nonneg fun c _ => hM0 r c) le_rfl

/-- The denominator of a row of nonnegative real entries is a positive real. -/
theorem den_real (M : Fin 8192 → Fin 8192 → EReal) (hM : ∀ r c, IsR (M r c)) (hM0 : ∀ r c, 0 ≤ M r c) (r : Fin 8192) :
    ∃ d : ℝ, 0 < d ∧ (∑ c' : Fin 8192, M r c') + epsRow = (d : EReal) := by
  obtain ⟨d, hd⟩ : IsR ((∑ c' : Fin 8192, M r c') + epsRow) := by
    obtain ⟨e, _, hee⟩ := epsRow_pos
    exact (IsR.sum _ _ fun c _ => hM r c).add ⟨e, hee⟩
  have h := den_pos M hM0 r
  rw [hd] at h
  exact ⟨d, EReal.coe_pos.1 h, hd⟩

/-- In each row, the reference's term (every entry divided, then weighted and summed) is the kernel's row term. -/
theorem log_row (M : Fin 8192 → Fin 8192 → EReal) (p : FVec Ideal RR .f32) (hM0 : ∀ r c, 0 ≤ M r c) (r : Fin 8192) :
    Ideal.log (∑ c : Fin 8192, Ideal.div (M r c) ((∑ c' : Fin 8192, M r c') + epsRow) * p (ix2 r c)) = rowK M p r := by
  unfold rowK
  rw [row_div Finset.univ (M r) (fun c => p (ix2 r c)) (den_pos M hM0 r)]

/-- A row term of real data is never the top element. -/
theorem rowK_ne_top (M : Fin 8192 → Fin 8192 → EReal) (p : FVec Ideal RR .f32) (hM : ∀ r c, IsR (M r c))
    (hM0 : ∀ r c, 0 ≤ M r c) (hp : ∀ i, IsR (p i)) (r : Fin 8192) : rowK M p r ≠ ⊤ := by
  unfold rowK
  obtain ⟨d, hd, hde⟩ := den_real M hM hM0 r
  rw [hde]
  exact log_ne_top ((IsR.sum _ _ fun c _ => (hM r c).mul (hp _)).div_pos hd).ne_top

/-- The reference's term for one matrix of nonnegative entries, written with the kernel's row terms. -/
theorem termR_eq (M : Fin 8192 → Fin 8192 → EReal) (p : FVec Ideal RR .f32) (hM0 : ∀ r c, 0 ≤ M r c) :
    termR M p = - Ideal.div (∑ r : Fin 8192, rowK M p r) nRows := by
  have h : (∑ r : Fin 8192, Ideal.log (∑ c : Fin 8192,
      Ideal.div (M r c) ((∑ c' : Fin 8192, M r c') + epsRow) * p (ix2 r c))) = ∑ r : Fin 8192, rowK M p r :=
    Finset.sum_congr rfl fun r _ => log_row M p hM0 r
  unfold termR; rw [h]

/-- THE ALGEBRA: on real-valued arrays the kernel-shaped and the reference-shaped results are equal. -/
theorem GK_eq_GR (a b : FVec Ideal R64 .f32) (p : FVec Ideal RR .f32)
    (ha : ∀ i, ∃ r : ℝ, a i = (r : EReal)) (hb : ∀ i, ∃ r : ℝ, b i = (r : EReal)) (hp : ∀ i, ∃ r : ℝ, p i = (r : EReal)) :
    GK a b p = GR a b p := by
  unfold GK GR
  rw [ER_transpose a b, ER_eq_EK a b, ER_eq_EK a a, ER_eq_EK b b,
    termR_eq _ p (EK_nonneg a b), termR_eq _ p (EK_nonneg b a), termR_eq _ p (EK_nonneg a a),
    termR_eq _ p (EK_nonneg b b), nRows_eq]
  exact neg_mean_add4 Finset.univ _ _ _ _
    (fun r _ => rowK_ne_top _ p (EK_real a b ha hb) (EK_nonneg a b) hp r)
    (fun r _ => rowK_ne_top _ p (EK_real b a hb ha) (EK_nonneg b a) hp r)
    (fun r _ => rowK_ne_top _ p (EK_real a a ha ha) (EK_nonneg a a) hp r)
    (fun r _ => rowK_ne_top _ p (EK_real b b hb hb) (EK_nonneg b b) hp r)
    (by norm_num)

end Cert.Spec

end
-- ==== Proof.AlgNrm.lean ====
/-
  Row normalisation keeps real arrays real: the sum of the squares of a real row is a nonnegative real, its square
  root a nonnegative real, the maximum of that with the positive constant a positive real, and a real divided by a
  positive real is a real.
-/
import Idealize.ShloMosaic.Lib.IdealHost
import proofs.«118719_j43404939493422_2_alg».proof.Proof.Spec
import proofs.«118719_j43404939493422_2_alg».proof.Proof.AlgConst
import proofs.«118719_j43404939493422_2_alg».proof.Proof.AlgReal

noncomputable section

open scoped BigOperators

namespace Cert.Spec

open Idealize.ShloMosaic Idealize.ShloMosaic.ValueIdx

/-- A nonnegative real. -/
def IsNN (x : EReal) : Prop := ∃ m : ℝ, 0 ≤ m ∧ x = (m : EReal)
/-- A positive real. -/
def IsPos (x : EReal) : Prop := ∃ m : ℝ, 0 < m ∧ x = (m : EReal)

/-- The square of a real is a nonnegative real. -/
theorem IsNN.mul_self {x : EReal} (h : IsR x) : IsNN (x * x) := by
  obtain ⟨r, rfl⟩ := h; exact ⟨r * r, mul_self_nonneg r, (EReal.coe_mul r r).symm⟩

/-- A finite sum of nonnegative reals is a nonnegative real. -/
theorem IsNN.sum {ι : Type*} (s : Finset ι) (f : ι → EReal) (h : ∀ i ∈ s, IsNN (f i)) : IsNN (∑ i ∈ s, f i) := by
  classical
  induction s using Finset.induction_on with
  | empty => exact ⟨0, le_refl 0, by rw [Finset.sum_empty]; rfl⟩
  | insert a s ha ih =>
    rw [Finset.sum_insert ha]
    obtain ⟨u, hu, hue⟩ := h a (Finset.mem_insert_self a s)
    obtain ⟨v, hv, hve⟩ := ih fun i hi => h i (Finset.mem_insert_of_mem hi)
    exact ⟨u + v, add_nonneg hu hv, by rw [hue, hve, EReal.coe_add]⟩

/-- The square root of a nonnegative real is a nonnegative real. -/
theorem IsNN.sqrt {x : EReal} (h : IsNN x) : IsNN (Ideal.sqrt x) := by
  obtain ⟨m, hm, rfl⟩ := h
  rw [Ideal.sqrt_coe, if_neg (not_lt.2 hm)]
  exact ⟨Real.sqrt m, Real.sqrt_nonneg m, rfl⟩

/-- The maximum of a nonnegative real and a positive real is a positive real. -/
theorem IsPos.max {x y : EReal} (hx : IsNN x) (hy : IsPos y) : IsPos (max x y) := by
  obtain ⟨u, _, rfl⟩ := hx
  obtain ⟨v, hv, rfl⟩ := hy
  rcases le_total (u : EReal) (v : EReal) with h | h
  · rw [max_eq_right h]; exact ⟨v, hv, rfl⟩
  · rw [max_eq_left h]; exact ⟨u, lt_of_lt_of_le hv (EReal.coe_le_coe_iff.1 h), rfl⟩

/-- A real divided by a positive real is a real. -/
theorem IsR.div_isPos {x y : EReal} (hx : IsR x) (hy : IsPos y) : IsR (Ideal.div x y) := by
  obtain ⟨m, hm, rfl⟩ := hy; exact hx.div_pos hm

/-- Whatever holds of every element of an array holds of every element of a broadcast of it. -/
theorem bcast_all {s t : Shape} {α : Type} (dims : Fin s.rank → Fin t.rank) (h : s.BroadcastsInDim t dims)
    (x : s.Idx → α) (P : α → Prop) (hP : ∀ k, P (x k)) (j : t.Idx) : P (broadcastInDim t dims h x j) := hP _

/-- The host's sum of the squares of a real array along some axes, from zero, is a nonnegative real everywhere. -/
theorem hostReduceAdd_sq {s t : Shape} {axes : List (Fin s.rank)} (h : s.ReducesTo axes t) (x : s.Idx → EReal)
    (hx : ∀ i, IsR (x i)) (j : t.Idx) : IsNN (Ideal.hostReduceAdd h (fun i => x i * x i) 0 j) := by
  unfold Ideal.hostReduceAdd
  rw [zero_add]
  exact IsNN.sum _ _ fun i _ => IsNN.mul_self (hx i)

/-- The normalisation with the row sums of squares and the clamp replaced by any nonnegative reals and any positive
    reals. -/
theorem nrm_real_aux (x : FVec Ideal R64 .f32) (S : FVec Ideal Rv .f32) (e : FVec Ideal S0 .f32)
    (hx : ∀ i, IsR (x i)) (hS : ∀ j, IsNN (S j)) (he : ∀ j, IsPos (e j)) (i : R64.Idx) :
    IsR (Host.divf (F := Ideal) x
      (broadcastInDim R64 ![0, 1] bc_R1_R64
        (maximumf (F := Ideal)
          (Host.sqrt (F := Ideal) (broadcastInDim R1 ![0] bc_Rv_R1 S))
          (broadcastInDim R1 ![] bc_S0_R1 e))) i) := by
  rw [hostDivf_apply]
  refine (hx i).div_isPos (bcast_all _ _ _ IsPos (fun k => ?_) i)
  rw [maximumf_apply]
  refine IsPos.max ?_ (bcast_all _ _ _ IsPos he k)
  show IsNN (Ideal.sqrt (broadcastInDim R1 ![0] bc_Rv_R1 S k))
  exact (bcast_all _ _ _ IsNN hS k).sqrt

/-- ROW NORMALISATION OF A REAL ARRAY IS REAL. -/
theorem nrm_real (x : FVec Ideal R64 .f32) (hx : ∀ i, ∃ r : ℝ, x i = (r : EReal)) :
    ∀ i, ∃ r : ℝ, nrm x i = (r : EReal) := by
  intro i
  unfold nrm
  refine nrm_real_aux x _ _ hx (fun j => ?_) (fun j => ?_) i
  · rw [hostReduceAdd_apply]
    show IsNN (Ideal.hostReduceAdd red_R64_Rv (fun i => x i * x i) (Ideal.ofBits .f32 0x00000000#32) j)
    rw [Ideal.ofBits_zero_f32]
    exact hostReduceAdd_sq red_R64_Rv x hx j
  · rw [constant_apply]
    exact epsLen_pos

end Cert.Spec

end
-- ==== Proof.PreReal.lean ====
/-
  Finiteness out of the precondition: the precondition is the conjunction, over the three arrays, of
  "every entry has absolute value below plus infinity"; where it holds every entry of each array is a real number.

  The comparison is with the word of plus infinity, which denotes the top of the extended reals; the absolute value
  max x (-x) is top at both infinities, so an entry whose absolute value is below top is a real.
-/
import proofs.«118719_j43404939493422_2_alg».proof.Pre_finite_inputs
import proofs.«118719_j43404939493422_2_alg».proof.Proof.Gen.Pre_finite_inputs
import Idealize.ShloMosaic.Lib.ReduceAll
import Idealize.ShloMosaic.Lib.ValueIdx
import Idealize.ShloMosaic.PureOps.Ideal

noncomputable section

namespace Cert.PreReal

open Idealize.ShloMosaic Cert.Pre_finite_inputs

/-- The shape of no axes has one index. -/
instance : Subsingleton S_.Idx := ⟨fun a b => funext fun d => d.elim0⟩

/-- The word of plus infinity denotes the top of the extended reals. -/
theorem inf_word : Ideal.ofBits .f32 0x7F800000#32 = (⊤ : EReal) := by
  simp [Ideal.ofBits, Ideal.ieee]

/-- An extended real whose absolute value max x (-x) is below top is a real. -/
theorem real_of_abs_lt_top (x : EReal) (h : max x (-x) < ⊤) : ∃ r : ℝ, x = (r : EReal) := by
  induction x using EReal.rec with
  | bot => simp at h
  | coe r => exact ⟨r, rfl⟩
  | top => simp at h

/-- One array: where the and-reduction of (|x| < +inf) over all of its entries is 1, every entry is a real. -/
theorem real_of_all {S : Shape} {axes : List (Fin S.rank)} (hb : S_.BroadcastsInDim S (![] : Fin 0 → Fin S.rank))
    (hr : S.ReducesTo axes S_) (hu : 0 < S_.numel) (x : FVec Ideal S .f32) (j : S_.Idx)
    (e : Host.reduce IntOp.andi (cmpf .olt (Host.absf x) (broadcastInDim S ![] hb (constant S_ .f32 0x7F800000#32)))
      (constantI S_ 1 1#1) hr hu j = 1#1) :
    ∀ i, ∃ r : ℝ, x i = (r : EReal) := by
  intro i
  have h := Host.reduce_andi_all _ _ hr hu j e i
  have h' : Ideal.cmp .olt (max (x i) (-(x i))) (Ideal.ofBits .f32 0x7F800000#32) = 1#1 := h
  rw [inf_word] at h'
  refine real_of_abs_lt_top (x i) ?_
  by_contra hn
  simp only [Ideal.cmp, decide_eq_false hn] at h'
  exact absurd h' (by decide)

/-- Where the precondition holds, every entry of each of the three arrays is a real. -/
theorem real_of_pre [Cert.Pre_finite_inputs.Facts] (x0 x1 : FVec Ideal Cert.Pre_finite_inputs.S8192x64 .f32) (p : FVec Ideal Cert.Pre_finite_inputs.S8192x8192 .f32)
    (h : Cert.Pre_finite_inputs.fn (F := Ideal) x0 x1 p = (fun _ => 1#1)) :
    (∀ i, ∃ r : ℝ, x0 i = (r : EReal)) ∧ (∀ i, ∃ r : ℝ, x1 i = (r : EReal)) ∧ (∀ i, ∃ r : ℝ, p i = (r : EReal)) := by
  have h0 := congrFun h ValueIdx.ix0
  dsimp only [fn] at h0
  obtain ⟨h01, h2⟩ := IntOp.andi_eq_one.1 h0
  obtain ⟨ha, hb⟩ := IntOp.andi_eq_one.1 h01
  exact ⟨real_of_all _ _ _ x0 _ ha, real_of_all _ _ _ x1 _ hb, real_of_all _ _ _ p _ h2⟩

end Cert.PreReal

end
-- ==== Proof.lean ====
/-
  The certificate: a contrastive loss over two sets of 8192 row-normalised embeddings.

  Kernel and reference both normalise the rows of the two inputs, form the four 8192 x 8192 matrices
  exp (<a_r, b_c> / T), T = 1/2, of the pairings (first, second), (second, first), (first, first), (second, second),
  and average over the rows r the quantity  - log ( (sum_c M(r,c) pos(r,c)) / (sum_c M(r,c) + eps) ).
  The kernel accumulates the row sums over an 8 x 8 grid of 1024 x 1024 tiles in a scratch accumulator, takes the
  four logarithms at the last tile of each grid row and averages the sum of the four; the reference divides every
  entry of M by its row sum before weighting by pos and averages the four logarithms separately. On the extended
  reals the two agree for finite inputs: x * 2 = x / (1/2); division by a positive row sum distributes over the
  weighted sum; and the four means may be taken apart because no logarithm of a real is +infinity.

  The three frames: the two kernel programs run through the pipelined region (its two normalised inputs each read
  through two windows, which share the array's buffer half and half), the reference is a straight line of host
  operations. The ideal pass rewrote nothing, so `preserves` has nothing to state.
-/
import proofs.«118719_j43404939493422_2_alg».proof.Defs
import proofs.«118719_j43404939493422_2_alg».proof.Proof.Gen.Kernel
import proofs.«118719_j43404939493422_2_alg».proof.Proof.Gen.Kernel.Skeleton
import proofs.«118719_j43404939493422_2_alg».proof.Proof.Gen.Kernel.Launch
import proofs.«118719_j43404939493422_2_alg».proof.Proof.Gen.Kernel.Points
import proofs.«118719_j43404939493422_2_alg».proof.Proof.Gen.KernelIdeal
import proofs.«118719_j43404939493422_2_alg».proof.Proof.Gen.KernelIdeal.Skeleton
import proofs.«118719_j43404939493422_2_alg».proof.Proof.Gen.KernelIdeal.Launch
import proofs.«118719_j43404939493422_2_alg».proof.Proof.Gen.KernelIdeal.Points
import proofs.«118719_j43404939493422_2_alg».proof.Proof.Gen.ReferenceIdeal
import proofs.«118719_j43404939493422_2_alg».proof.Proof.Gen.Pre_finite_inputs
import proofs.«118719_j43404939493422_2_alg».proof.Proof.Gen.ReferenceIdeal.Run
import proofs.«118719_j43404939493422_2_alg».proof.Proof.Gen.ReferenceIdeal.Read
import proofs.«118719_j43404939493422_2_alg».proof.Proof.KFrame
import proofs.«118719_j43404939493422_2_alg».proof.Proof.BKFrame
import proofs.«118719_j43404939493422_2_alg».proof.Proof.KVal
import proofs.«118719_j43404939493422_2_alg».proof.Proof.RefIsGR
import proofs.«118719_j43404939493422_2_alg».proof.Proof.Algebra
import proofs.«118719_j43404939493422_2_alg».proof.Proof.AlgNrm
import proofs.«118719_j43404939493422_2_alg».proof.Proof.PreReal
import Idealize.ShloMosaic.Adequacy
import Idealize.ShloMosaic.Init

noncomputable section

namespace Cert.Proof

open Idealize.ShloMosaic Idealize.SL.Sem

/-- The word-level kernel runs to the end and leaves its arguments unchanged. -/
theorem frame_k : Cert.frame_Kernel := fun m ρ _ => Cert.Kernel.KB.frame (F := Bits) m ρ

/-- So does its idealization. -/
theorem frame_ki : Cert.frame_KernelIdeal := fun m ρ _ => Cert.KernelIdeal.KB.frame (F := Ideal) m ρ

/-- The reference is a line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal instance, from memories agreeing on the three arguments: the kernel's result buffer ends at the
    kernel-shaped value `GK` of the normalised inputs and the weights, the reference's at the reference-shaped value
    `GR` of the same; the precondition makes every input entry a real, and on real inputs the two values are one. -/
theorem algebraic : Cert.algebraic_KernelIdeal_ReferenceIdeal := by
  intro m ρ m' ρ' hpre hagree
  refine ⟨fun c => Cert.KernelIdeal.KB.Vfin m c (Proc.devRef .tc Cert.KernelIdeal.main_v19),
    Cert.KernelIdeal.KB.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2⟩ := Cert.PreReal.real_of_pre _ _ _ (hpre c)
  rw [Cert.ReferenceIdeal.Read.val_main_v114_eq, (hagree c).1, (hagree c).2.1, (hagree c).2.2, Cert.RefSide.ref_val]
  refine Eq.trans ?_ (Cert.KernelIdeal.KV.kernel_val m c).symm
  exact funext fun _ => (Cert.Spec.GK_eq_GR _ _ _ (Cert.Spec.nrm_real _ h0) (Cert.Spec.nrm_real _ h1) h2).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
